-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x27x32x32 : Shape := ⟨4, ![8, 27, 32, 32]⟩
abbrev S27x27x3x3 : Shape := ⟨4, ![27, 27, 3, 3]⟩
abbrev S_ : Shape := ⟨0, ![]⟩

class Facts : Prop where
  bcast_S_S8x27x32x32 : S_.BroadcastsInDim S8x27x32x32 (![] : Fin 0 → Fin S8x27x32x32.rank)
  reducesTo_S8x27x32x32_S_d0_1_2_3 : S8x27x32x32.ReducesTo [0, 1, 2, 3] S_
  h_S_ : 0 < S_.numel
  bcast_S_S27x27x3x3 : S_.BroadcastsInDim S27x27x3x3 (![] : Fin 0 → Fin S27x27x3x3.rank)
  reducesTo_S27x27x3x3_S_d0_1_2_3 : S27x27x3x3.ReducesTo [0, 1, 2, 3] S_

variable [Facts]

def fn {F : FTy → Type} [FloatOps F] (main_arg0 : FVec F S8x27x32x32 .f32) (main_arg1 : FVec F S27x27x3x3 .f32) : IVec S_ 1 :=
  let main_v0 : FVec F S8x27x32x32 .f32 := Host.absf main_arg0
  let main_cst : FVec F S_ .f32 := constant S_ .f32 0x7F800000#32
  let main_v1 : FVec F S8x27x32x32 .f32 := broadcastInDim S8x27x32x32 ![] bcast_S_S8x27x32x32 main_cst
  let main_v2 : IVec S8x27x32x32 1 := cmpf .olt main_v0 main_v1
  let main_c : IVec S_ 1 := constantI S_ 1 1#1
  let main_v3 : IVec S_ 1 := (fun x v => Host.reduce IntOp.andi x v reducesTo_S8x27x32x32_S_d0_1_2_3 h_S_) main_v2 main_c
  let main_v4 : FVec F S27x27x3x3 .f32 := Host.absf main_arg1
  let main_cst_0 : FVec F S_ .f32 := constant S_ .f32 0x7F800000#32
  let main_v5 : FVec F S27x27x3x3 .f32 := broadcastInDim S27x27x3x3 ![] bcast_S_S27x27x3x3 main_cst_0
  let main_v6 : IVec S27x27x3x3 1 := cmpf .olt main_v4 main_v5
  let main_c_1 : IVec S_ 1 := constantI S_ 1 1#1
  let main_v7 : IVec S_ 1 := (fun x v => Host.reduce IntOp.andi x v reducesTo_S27x27x3x3_S_d0_1_2_3 h_S_) main_v6 main_c_1
  let main_v8 : IVec S_ 1 := andi main_v3 main_v7
  main_v8
-- ==== Kernel.lean ====
abbrev S8x27x32x32 : Shape := ⟨4, ![8, 27, 32, 32]⟩
abbrev S27x27x3x3 : Shape := ⟨4, ![27, 27, 3, 3]⟩
abbrev S_ : Shape := ⟨0, ![]⟩
abbrev S8x27x34x34 : Shape := ⟨4, ![8, 27, 34, 34]⟩
abbrev S8x27x1x32x32 : Shape := ⟨5, ![8, 27, 1, 32, 32]⟩
abbrev S8x27x9x32x32 : Shape := ⟨5, ![8, 27, 9, 32, 32]⟩
abbrev S8x243x1024 : Shape := ⟨3, ![8, 243, 1024]⟩
abbrev S27x243 : Shape := ⟨2, ![27, 243]⟩
abbrev S243x27 : Shape := ⟨2, ![243, 27]⟩
abbrev S8x27x1024 : Shape := ⟨3, ![8, 27, 1024]⟩
abbrev S1x243x512 : Shape := ⟨3, ![1, 243, 512]⟩
abbrev S1x27x512 : Shape := ⟨3, ![1, 27, 512]⟩
abbrev S243x512 : Shape := ⟨2, ![243, 512]⟩
abbrev S243x1x512 : Shape := ⟨3, ![243, 1, 512]⟩
abbrev S243x27x1 : Shape := ⟨3, ![243, 27, 1]⟩
abbrev S243x27x512 : Shape := ⟨3, ![243, 27, 512]⟩
abbrev S81x3x27x512 : Shape := ⟨4, ![81, 3, 27, 512]⟩
abbrev S81x1x27x512 : Shape := ⟨4, ![81, 1, 27, 512]⟩
abbrev S81x27x512 : Shape := ⟨3, ![81, 27, 512]⟩
abbrev S27x3x27x512 : Shape := ⟨4, ![27, 3, 27, 512]⟩
abbrev S27x1x27x512 : Shape := ⟨4, ![27, 1, 27, 512]⟩
abbrev S27x27x512 : Shape := ⟨3, ![27, 27, 512]⟩
abbrev S9x3x27x512 : Shape := ⟨4, ![9, 3, 27, 512]⟩
abbrev S9x1x27x512 : Shape := ⟨4, ![9, 1, 27, 512]⟩
abbrev S9x27x512 : Shape := ⟨3, ![9, 27, 512]⟩
abbrev S3x3x27x512 : Shape := ⟨4, ![3, 3, 27, 512]⟩
abbrev S3x1x27x512 : Shape := ⟨4, ![3, 1, 27, 512]⟩
abbrev S3x27x512 : Shape := ⟨3, ![3, 27, 512]⟩
abbrev S1x3x27x512 : Shape := ⟨4, ![1, 3, 27, 512]⟩
abbrev S1x1x27x512 : Shape := ⟨4, ![1, 1, 27, 512]⟩
abbrev S27x512 : Shape := ⟨2, ![27, 512]⟩

abbrev nBuf : Space → Nat
  | .hbm => 29
  | .vmem => 5
  | .smem => 0
  | _ => 0

abbrev bufTy : (tb : Table) → Fin (tcTables nBuf tb) → BufTy
  | .hbm, ⟨0, _⟩ => ⟨S8x27x32x32, .f32⟩
  | .hbm, ⟨1, _⟩ => ⟨S27x27x3x3, .f32⟩
  | .hbm, ⟨2, _⟩ => ⟨S_, .f32⟩
  | .hbm, ⟨3, _⟩ => ⟨S_, .f32⟩
  | .hbm, ⟨4, _⟩ => ⟨S8x27x34x34, .f32⟩
  | .hbm, ⟨5, _⟩ => ⟨S8x27x32x32, .f32⟩
  | .hbm, ⟨6, _⟩ => ⟨S8x27x32x32, .f32⟩
  | .hbm, ⟨7, _⟩ => ⟨S8x27x32x32, .f32⟩
  | .hbm, ⟨8, _⟩ => ⟨S8x27x32x32, .f32⟩
  | .hbm, ⟨9, _⟩ => ⟨S8x27x32x32, .f32⟩
  | .hbm, ⟨10, _⟩ => ⟨S8x27x32x32, .f32⟩
  | .hbm, ⟨11, _⟩ => ⟨S8x27x32x32, .f32⟩
  | .hbm, ⟨12, _⟩ => ⟨S8x27x32x32, .f32⟩
  | .hbm, ⟨13, _⟩ => ⟨S8x27x32x32, .f32⟩
  | .hbm, ⟨14, _⟩ => ⟨S8x27x1x32x32, .f32⟩
  | .hbm, ⟨15, _⟩ => ⟨S8x27x1x32x32, .f32⟩
  | .hbm, ⟨16, _⟩ => ⟨S8x27x1x32x32, .f32⟩
  | .hbm, ⟨17, _⟩ => ⟨S8x27x1x32x32, .f32⟩
  | .hbm, ⟨18, _⟩ => ⟨S8x27x1x32x32, .f32⟩
  | .hbm, ⟨19, _⟩ => ⟨S8x27x1x32x32, .f32⟩
  | .hbm, ⟨20, _⟩ => ⟨S8x27x1x32x32, .f32⟩
  | .hbm, ⟨21, _⟩ => ⟨S8x27x1x32x32, .f32⟩
  | .hbm, ⟨22, _⟩ => ⟨S8x27x1x32x32, .f32⟩
  | .hbm, ⟨23, _⟩ => ⟨S8x27x9x32x32, .f32⟩
  | .hbm, ⟨24, _⟩ => ⟨S8x243x1024, .f32⟩
  | .hbm, ⟨25, _⟩ => ⟨S27x243, .f32⟩
  | .hbm, ⟨26, _⟩ => ⟨S243x27, .f32⟩
  | .hbm, ⟨27, _⟩ => ⟨S8x27x1024, .f32⟩
  | .hbm, ⟨28, _⟩ => ⟨S8x27x32x32, .f32⟩
  | .local _ .vmem, ⟨0, _⟩ => ⟨S1x243x512, .f32⟩
  | .local _ .vmem, ⟨1, _⟩ => ⟨S1x243x512, .f32⟩
  | .local _ .vmem, ⟨2, _⟩ => ⟨S243x27, .f32⟩
  | .local _ .vmem, ⟨3, _⟩ => ⟨S1x27x512, .f32⟩
  | .local _ .vmem, ⟨4, _⟩ => ⟨S1x27x512, .f32⟩
  | _, _ => ⟨S8x27x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x243x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S243x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x27x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x27x32x32_S8x27x34x34_000_000_110_110 : S8x27x32x32.Pads (![0, 0, 1, 1] : Fin 4 → Nat) ![0, 0, 1, 1] ![0, 0, 0, 0] S8x27x34x34
  h_S_ : 0 < S_.numel
  slices_S8x27x34x34_S8x27x32x32_0_0_0_0 : S8x27x34x34.Slices ![0, 0, 0, 0] S8x27x32x32
  slices_S8x27x34x34_S8x27x32x32_0_0_0_1 : S8x27x34x34.Slices ![0, 0, 0, 1] S8x27x32x32
  slices_S8x27x34x34_S8x27x32x32_0_0_0_2 : S8x27x34x34.Slices ![0, 0, 0, 2] S8x27x32x32
  slices_S8x27x34x34_S8x27x32x32_0_0_1_0 : S8x27x34x34.Slices ![0, 0, 1, 0] S8x27x32x32
  slices_S8x27x34x34_S8x27x32x32_0_0_1_1 : S8x27x34x34.Slices ![0, 0, 1, 1] S8x27x32x32
  slices_S8x27x34x34_S8x27x32x32_0_0_1_2 : S8x27x34x34.Slices ![0, 0, 1, 2] S8x27x32x32
  slices_S8x27x34x34_S8x27x32x32_0_0_2_0 : S8x27x34x34.Slices ![0, 0, 2, 0] S8x27x32x32
  slices_S8x27x34x34_S8x27x32x32_0_0_2_1 : S8x27x34x34.Slices ![0, 0, 2, 1] S8x27x32x32
  slices_S8x27x34x34_S8x27x32x32_0_0_2_2 : S8x27x34x34.Slices ![0, 0, 2, 2] S8x27x32x32
  bcast_S8x27x32x32_S8x27x1x32x32_0_1_3_4 : S8x27x32x32.BroadcastsInDim S8x27x1x32x32 (![0, 1, 3, 4] : Fin 4 → Fin S8x27x1x32x32.rank)
  concatenates_S8x27x1x32x32_S8x27x1x32x32_S8x27x1x32x32_S8x27x1x32x32_S8x27x1x32x32_S8x27x1x32x32_S8x27x1x32x32_S8x27x1x32x32_S8x27x1x32x32_S8x27x9x32x32_d2 : Shape.Concatenates [S8x27x1x32x32, S8x27x1x32x32, S8x27x1x32x32, S8x27x1x32x32, S8x27x1x32x32, S8x27x1x32x32, S8x27x1x32x32, S8x27x1x32x32, S8x27x1x32x32] S8x27x9x32x32 2
  shapeCasts_S8x27x9x32x32_S8x243x1024 : S8x27x9x32x32.ShapeCasts S8x243x1024
  shapeCasts_S27x27x3x3_S27x243 : S27x27x3x3.ShapeCasts S27x243
  transposes_S27x243_S243x27_1_0 : S27x243.Transposes [1, 0] S243x27
  inb_S1x243x512_S1x243x512_0_0_0 : ∀ a, (![0, 0, 0] : Fin 3 → Nat) a + S1x243x512.size a ≤ S1x243x512.size a
  h_S1x243x512 : 0 < S1x243x512.numel
  shapeCasts_S1x243x512_S243x512 : S1x243x512.ShapeCasts S243x512
  inb_S243x27_S243x27_0_0 : ∀ a, (![0, 0] : Fin 2 → Nat) a + S243x27.size a ≤ S243x27.size a
  h_S243x27 : 0 < S243x27.numel
  shapeCasts_S243x27_S243x27 : S243x27.ShapeCasts S243x27
  shapeCasts_S243x512_S243x1x512 : S243x512.ShapeCasts S243x1x512
  shapeCasts_S243x27_S243x27x1 : S243x27.ShapeCasts S243x27x1
  broadcasts_S243x1x512_S243x27x512 : S243x1x512.Broadcasts S243x27x512
  broadcasts_S243x27x1_S243x27x512 : S243x27x1.Broadcasts S243x27x512
  shapeCasts_S243x27x512_S81x3x27x512 : S243x27x512.ShapeCasts S81x3x27x512
  slices_S81x3x27x512_o0_0_0_0_S81x1x27x512 : S81x3x27x512.Slices ![0, 0, 0, 0] S81x1x27x512
  shapeCasts_S81x1x27x512_S81x27x512 : S81x1x27x512.ShapeCasts S81x27x512
  slices_S81x3x27x512_o0_1_0_0_S81x1x27x512 : S81x3x27x512.Slices ![0, 1, 0, 0] S81x1x27x512
  slices_S81x3x27x512_o0_2_0_0_S81x1x27x512 : S81x3x27x512.Slices ![0, 2, 0, 0] S81x1x27x512
  shapeCasts_S81x27x512_S27x3x27x512 : S81x27x512.ShapeCasts S27x3x27x512
  slices_S27x3x27x512_o0_0_0_0_S27x1x27x512 : S27x3x27x512.Slices ![0, 0, 0, 0] S27x1x27x512
  shapeCasts_S27x1x27x512_S27x27x512 : S27x1x27x512.ShapeCasts S27x27x512
  slices_S27x3x27x512_o0_1_0_0_S27x1x27x512 : S27x3x27x512.Slices ![0, 1, 0, 0] S27x1x27x512
  slices_S27x3x27x512_o0_2_0_0_S27x1x27x512 : S27x3x27x512.Slices ![0, 2, 0, 0] S27x1x27x512
  shapeCasts_S27x27x512_S9x3x27x512 : S27x27x512.ShapeCasts S9x3x27x512
  slices_S9x3x27x512_o0_0_0_0_S9x1x27x512 : S9x3x27x512.Slices ![0, 0, 0, 0] S9x1x27x512
  shapeCasts_S9x1x27x512_S9x27x512 : S9x1x27x512.ShapeCasts S9x27x512
  slices_S9x3x27x512_o0_1_0_0_S9x1x27x512 : S9x3x27x512.Slices ![0, 1, 0, 0] S9x1x27x512
  slices_S9x3x27x512_o0_2_0_0_S9x1x27x512 : S9x3x27x512.Slices ![0, 2, 0, 0] S9x1x27x512
  shapeCasts_S9x27x512_S3x3x27x512 : S9x27x512.ShapeCasts S3x3x27x512
  slices_S3x3x27x512_o0_0_0_0_S3x1x27x512 : S3x3x27x512.Slices ![0, 0, 0, 0] S3x1x27x512
  shapeCasts_S3x1x27x512_S3x27x512 : S3x1x27x512.ShapeCasts S3x27x512
  slices_S3x3x27x512_o0_1_0_0_S3x1x27x512 : S3x3x27x512.Slices ![0, 1, 0, 0] S3x1x27x512
  slices_S3x3x27x512_o0_2_0_0_S3x1x27x512 : S3x3x27x512.Slices ![0, 2, 0, 0] S3x1x27x512
  shapeCasts_S3x27x512_S1x3x27x512 : S3x27x512.ShapeCasts S1x3x27x512
  slices_S1x3x27x512_o0_0_0_0_S1x1x27x512 : S1x3x27x512.Slices ![0, 0, 0, 0] S1x1x27x512
  shapeCasts_S1x1x27x512_S1x27x512 : S1x1x27x512.ShapeCasts S1x27x512
  slices_S1x3x27x512_o0_1_0_0_S1x1x27x512 : S1x3x27x512.Slices ![0, 1, 0, 0] S1x1x27x512
  slices_S1x3x27x512_o0_2_0_0_S1x1x27x512 : S1x3x27x512.Slices ![0, 2, 0, 0] S1x1x27x512
  shapeCasts_S1x27x512_S27x512 : S1x27x512.ShapeCasts S27x512
  inb_S1x27x512_S1x27x512_0_0_0 : ∀ a, (![0, 0, 0] : Fin 3 → Nat) a + S1x27x512.size a ≤ S1x27x512.size a
  h_S1x27x512 : 0 < S1x27x512.numel
  shapeCasts_S27x512_S1x27x512 : S27x512.ShapeCasts S1x27x512
  shapeCasts_S8x27x1024_S8x27x32x32 : S8x27x1024.ShapeCasts S8x27x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x243x512.size a ≤ S8x243x1024.size a
  hwx0_0 : ∀ i : grid0.Coords, EltTy.bits .f32 = 32 ∨ (Rect.block (s := S8x243x1024) S1x243x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S243x27.size a ≤ S243x27.size a
  hwx0_1 : ∀ i : grid0.Coords, EltTy.bits .f32 = 32 ∨ (Rect.block (s := S243x27) S243x27.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x27x512.size a ≤ S8x27x1024.size a
  hwx0_2 : ∀ i : grid0.Coords, EltTy.bits .f32 = 32 ∨ (Rect.block (s := S8x27x1024) S1x27x512.size (cc0_transform_2 i) (hinb0_2 i)).WholeWords (EltTy.packing .f32)

variable [Facts₀]

abbrev win0_0 : Pipeline.Window sig grid0 :=
  Pipeline.Window.ofSpec (Memref.whole main_v20) S1x243x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S243x27.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x27x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x27x32x32 : Shape := ⟨4, ![8, 27, 32, 32]⟩
abbrev S27x27x3x3 : Shape := ⟨4, ![27, 27, 3, 3]⟩
abbrev S_ : Shape := ⟨0, ![]⟩
abbrev S8x27x34x34 : Shape := ⟨4, ![8, 27, 34, 34]⟩
abbrev S8x27x1x32x32 : Shape := ⟨5, ![8, 27, 1, 32, 32]⟩
abbrev S8x27x9x32x32 : Shape := ⟨5, ![8, 27, 9, 32, 32]⟩
abbrev S8x243x1024 : Shape := ⟨3, ![8, 243, 1024]⟩
abbrev S27x243 : Shape := ⟨2, ![27, 243]⟩
abbrev S8x1x243x1024 : Shape := ⟨4, ![8, 1, 243, 1024]⟩
abbrev S1x27x243x1 : Shape := ⟨4, ![1, 27, 243, 1]⟩
abbrev S8x27x243x1024 : Shape := ⟨4, ![8, 27, 243, 1024]⟩
abbrev S8x27x1024x243 : Shape := ⟨4, ![8, 27, 1024, 243]⟩
abbrev S8x27x1024x81x3 : Shape := ⟨5, ![8, 27, 1024, 81, 3]⟩
abbrev S8x27x1024x81x1 : Shape := ⟨5, ![8, 27, 1024, 81, 1]⟩
abbrev S8x27x1024x81 : Shape := ⟨4, ![8, 27, 1024, 81]⟩
abbrev S8x27x1024x27x3 : Shape := ⟨5, ![8, 27, 1024, 27, 3]⟩
abbrev S8x27x1024x27x1 : Shape := ⟨5, ![8, 27, 1024, 27, 1]⟩
abbrev S8x27x1024x27 : Shape := ⟨4, ![8, 27, 1024, 27]⟩
abbrev S8x27x1024x9x3 : Shape := ⟨5, ![8, 27, 1024, 9, 3]⟩
abbrev S8x27x1024x9x1 : Shape := ⟨5, ![8, 27, 1024, 9, 1]⟩
abbrev S8x27x1024x9 : Shape := ⟨4, ![8, 27, 1024, 9]⟩
abbrev S8x27x1024x3x3 : Shape := ⟨5, ![8, 27, 1024, 3, 3]⟩
abbrev S8x27x1024x3x1 : Shape := ⟨5, ![8, 27, 1024, 3, 1]⟩
abbrev S8x27x1024x3 : Shape := ⟨4, ![8, 27, 1024, 3]⟩
abbrev S8x27x1024x1x3 : Shape := ⟨5, ![8, 27, 1024, 1, 3]⟩
abbrev S8x27x1024x1x1 : Shape := ⟨5, ![8, 27, 1024, 1, 1]⟩
abbrev S8x27x1024x1 : Shape := ⟨4, ![8, 27, 1024, 1]⟩
abbrev S8x27x1024 : Shape := ⟨3, ![8, 27, 1024]⟩

abbrev nBuf : Space → Nat
  | .hbm => 184
  | .vmem => 0
  | .smem => 0
  | _ => 0

abbrev hbmTy0_0 (i : Nat) : BufTy := match i % 128 with
  | 0 => ⟨S8x27x32x32, .f32⟩
  | 1 => ⟨S27x27x3x3, .f32⟩
  | 2 => ⟨S_, .f32⟩
  | 3 => ⟨S_, .f32⟩
  | 4 => ⟨S8x27x34x34, .f32⟩
  | 5 => ⟨S8x27x32x32, .f32⟩
  | 6 => ⟨S8x27x32x32, .f32⟩
  | 7 => ⟨S8x27x32x32, .f32⟩
  | 8 => ⟨S8x27x32x32, .f32⟩
  | 9 => ⟨S8x27x32x32, .f32⟩
  | 10 => ⟨S8x27x32x32, .f32⟩
  | 11 => ⟨S8x27x32x32, .f32⟩
  | 12 => ⟨S8x27x32x32, .f32⟩
  | 13 => ⟨S8x27x32x32, .f32⟩
  | 14 => ⟨S8x27x1x32x32, .f32⟩
  | 15 => ⟨S8x27x1x32x32, .f32⟩
  | 16 => ⟨S8x27x1x32x32, .f32⟩
  | 17 => ⟨S8x27x1x32x32, .f32⟩
  | 18 => ⟨S8x27x1x32x32, .f32⟩
  | 19 => ⟨S8x27x1x32x32, .f32⟩
  | 20 => ⟨S8x27x1x32x32, .f32⟩
  | 21 => ⟨S8x27x1x32x32, .f32⟩
  | 22 => ⟨S8x27x1x32x32, .f32⟩
  | 23 => ⟨S8x27x9x32x32, .f32⟩
  | 24 => ⟨S8x243x1024, .f32⟩
  | 25 => ⟨S27x243, .f32⟩
  | 26 => ⟨S8x1x243x1024, .f32⟩
  | 27 => ⟨S1x27x243x1, .f32⟩
  | 28 => ⟨S8x27x243x1024, .f32⟩
  | 29 => ⟨S8x27x243x1024, .f32⟩
  | 30 => ⟨S8x27x243x1024, .f32⟩
  | 31 => ⟨S8x27x1024x243, .f32⟩
  | 32 => ⟨S8x27x1024x81x3, .f32⟩
  | 33 => ⟨S_, .f32⟩
  | 34 => ⟨S8x27x1024x81x3, .f32⟩
  | 35 => ⟨S8x27x1024x81x3, .f32⟩
  | 36 => ⟨S_, .f32⟩
  | 37 => ⟨S8x27x1024x81x3, .f32⟩
  | 38 => ⟨S8x27x1024x81x3, .f32⟩
  | 39 => ⟨S8x27x1024x81x1, .f32⟩
  | 40 => ⟨S8x27x1024x81, .f32⟩
  | 41 => ⟨S8x27x1024x81x1, .f32⟩
  | 42 => ⟨S8x27x1024x81, .f32⟩
  | 43 => ⟨S8x27x1024x81x1, .f32⟩
  | 44 => ⟨S8x27x1024x81, .f32⟩
  | 45 => ⟨S8x27x1024x81, .f32⟩
  | 46 => ⟨S8x27x1024x81, .f32⟩
  | 47 => ⟨S8x27x1024x81, .f32⟩
  | 48 => ⟨S8x27x1024x81, .f32⟩
  | 49 => ⟨S8x27x1024x81, .f32⟩
  | 50 => ⟨S_, .f32⟩
  | 51 => ⟨S8x27x1024x81, .f32⟩
  | 52 => ⟨S8x27x1024x81, .f32⟩
  | 53 => ⟨S8x27x1024x81, .f32⟩
  | 54 => ⟨S8x27x1024x81, .f32⟩
  | 55 => ⟨S8x27x1024x81, .f32⟩
  | 56 => ⟨S_, .f32⟩
  | 57 => ⟨S8x27x1024x81, .f32⟩
  | 58 => ⟨S8x27x1024x81, .f32⟩
  | 59 => ⟨S_, .f32⟩
  | 60 => ⟨S8x27x1024x81, .f32⟩
  | 61 => ⟨S8x27x1024x81, .f32⟩
  | 62 => ⟨S8x27x1024x27x3, .f32⟩
  | 63 => ⟨S_, .f32⟩
  | 64 => ⟨S8x27x1024x27x3, .f32⟩
  | 65 => ⟨S8x27x1024x27x3, .f32⟩
  | 66 => ⟨S_, .f32⟩
  | 67 => ⟨S8x27x1024x27x3, .f32⟩
  | 68 => ⟨S8x27x1024x27x3, .f32⟩
  | 69 => ⟨S8x27x1024x27x1, .f32⟩
  | 70 => ⟨S8x27x1024x27, .f32⟩
  | 71 => ⟨S8x27x1024x27x1, .f32⟩
  | 72 => ⟨S8x27x1024x27, .f32⟩
  | 73 => ⟨S8x27x1024x27x1, .f32⟩
  | 74 => ⟨S8x27x1024x27, .f32⟩
  | 75 => ⟨S8x27x1024x27, .f32⟩
  | 76 => ⟨S8x27x1024x27, .f32⟩
  | 77 => ⟨S8x27x1024x27, .f32⟩
  | 78 => ⟨S8x27x1024x27, .f32⟩
  | 79 => ⟨S8x27x1024x27, .f32⟩
  | 80 => ⟨S_, .f32⟩
  | 81 => ⟨S8x27x1024x27, .f32⟩
  | 82 => ⟨S8x27x1024x27, .f32⟩
  | 83 => ⟨S8x27x1024x27, .f32⟩
  | 84 => ⟨S8x27x1024x27, .f32⟩
  | 85 => ⟨S8x27x1024x27, .f32⟩
  | 86 => ⟨S_, .f32⟩
  | 87 => ⟨S8x27x1024x27, .f32⟩
  | 88 => ⟨S8x27x1024x27, .f32⟩
  | 89 => ⟨S_, .f32⟩
  | 90 => ⟨S8x27x1024x27, .f32⟩
  | 91 => ⟨S8x27x1024x27, .f32⟩
  | 92 => ⟨S8x27x1024x9x3, .f32⟩
  | 93 => ⟨S_, .f32⟩
  | 94 => ⟨S8x27x1024x9x3, .f32⟩
  | 95 => ⟨S8x27x1024x9x3, .f32⟩
  | 96 => ⟨S_, .f32⟩
  | 97 => ⟨S8x27x1024x9x3, .f32⟩
  | 98 => ⟨S8x27x1024x9x3, .f32⟩
  | 99 => ⟨S8x27x1024x9x1, .f32⟩
  | 100 => ⟨S8x27x1024x9, .f32⟩
  | 101 => ⟨S8x27x1024x9x1, .f32⟩
  | 102 => ⟨S8x27x1024x9, .f32⟩
  | 103 => ⟨S8x27x1024x9x1, .f32⟩
  | 104 => ⟨S8x27x1024x9, .f32⟩
  | 105 => ⟨S8x27x1024x9, .f32⟩
  | 106 => ⟨S8x27x1024x9, .f32⟩
  | 107 => ⟨S8x27x1024x9, .f32⟩
  | 108 => ⟨S8x27x1024x9, .f32⟩
  | 109 => ⟨S8x27x1024x9, .f32⟩
  | 110 => ⟨S_, .f32⟩
  | 111 => ⟨S8x27x1024x9, .f32⟩
  | 112 => ⟨S8x27x1024x9, .f32⟩
  | 113 => ⟨S8x27x1024x9, .f32⟩
  | 114 => ⟨S8x27x1024x9, .f32⟩
  | 115 => ⟨S8x27x1024x9, .f32⟩
  | 116 => ⟨S_, .f32⟩
  | 117 => ⟨S8x27x1024x9, .f32⟩
  | 118 => ⟨S8x27x1024x9, .f32⟩
  | 119 => ⟨S_, .f32⟩
  | 120 => ⟨S8x27x1024x9, .f32⟩
  | 121 => ⟨S8x27x1024x9, .f32⟩
  | 122 => ⟨S8x27x1024x3x3, .f32⟩
  | 123 => ⟨S_, .f32⟩
  | 124 => ⟨S8x27x1024x3x3, .f32⟩
  | 125 => ⟨S8x27x1024x3x3, .f32⟩
  | 126 => ⟨S_, .f32⟩
  | 127 => ⟨S8x27x1024x3x3, .f32⟩
  | _ => ⟨S8x27x32x32, .f32⟩

abbrev hbmTy0_1 (i : Nat) : BufTy := match i % 128 with
  | 0 => ⟨S8x27x1024x3x3, .f32⟩
  | 1 => ⟨S8x27x1024x3x1, .f32⟩
  | 2 => ⟨S8x27x1024x3, .f32⟩
  | 3 => ⟨S8x27x1024x3x1, .f32⟩
  | 4 => ⟨S8x27x1024x3, .f32⟩
  | 5 => ⟨S8x27x1024x3x1, .f32⟩
  | 6 => ⟨S8x27x1024x3, .f32⟩
  | 7 => ⟨S8x27x1024x3, .f32⟩
  | 8 => ⟨S8x27x1024x3, .f32⟩
  | 9 => ⟨S8x27x1024x3, .f32⟩
  | 10 => ⟨S8x27x1024x3, .f32⟩
  | 11 => ⟨S8x27x1024x3, .f32⟩
  | 12 => ⟨S_, .f32⟩
  | 13 => ⟨S8x27x1024x3, .f32⟩
  | 14 => ⟨S8x27x1024x3, .f32⟩
  | 15 => ⟨S8x27x1024x3, .f32⟩
  | 16 => ⟨S8x27x1024x3, .f32⟩
  | 17 => ⟨S8x27x1024x3, .f32⟩
  | 18 => ⟨S_, .f32⟩
  | 19 => ⟨S8x27x1024x3, .f32⟩
  | 20 => ⟨S8x27x1024x3, .f32⟩
  | 21 => ⟨S_, .f32⟩
  | 22 => ⟨S8x27x1024x3, .f32⟩
  | 23 => ⟨S8x27x1024x3, .f32⟩
  | 24 => ⟨S8x27x1024x1x3, .f32⟩
  | 25 => ⟨S_, .f32⟩
  | 26 => ⟨S8x27x1024x1x3, .f32⟩
  | 27 => ⟨S8x27x1024x1x3, .f32⟩
  | 28 => ⟨S_, .f32⟩
  | 29 => ⟨S8x27x1024x1x3, .f32⟩
  | 30 => ⟨S8x27x1024x1x3, .f32⟩
  | 31 => ⟨S8x27x1024x1x1, .f32⟩
  | 32 => ⟨S8x27x1024x1, .f32⟩
  | 33 => ⟨S8x27x1024x1x1, .f32⟩
  | 34 => ⟨S8x27x1024x1, .f32⟩
  | 35 => ⟨S8x27x1024x1x1, .f32⟩
  | 36 => ⟨S8x27x1024x1, .f32⟩
  | 37 => ⟨S8x27x1024x1, .f32⟩
  | 38 => ⟨S8x27x1024x1, .f32⟩
  | 39 => ⟨S8x27x1024x1, .f32⟩
  | 40 => ⟨S8x27x1024x1, .f32⟩
  | 41 => ⟨S8x27x1024x1, .f32⟩
  | 42 => ⟨S_, .f32⟩
  | 43 => ⟨S8x27x1024x1, .f32⟩
  | 44 => ⟨S8x27x1024x1, .f32⟩
  | 45 => ⟨S8x27x1024x1, .f32⟩
  | 46 => ⟨S8x27x1024x1, .f32⟩
  | 47 => ⟨S8x27x1024x1, .f32⟩
  | 48 => ⟨S_, .f32⟩
  | 49 => ⟨S8x27x1024x1, .f32⟩
  | 50 => ⟨S8x27x1024x1, .f32⟩
  | 51 => ⟨S_, .f32⟩
  | 52 => ⟨S8x27x1024x1, .f32⟩
  | 53 => ⟨S8x27x1024x1, .f32⟩
  | 54 => ⟨S8x27x1024, .f32⟩
  | 55 => ⟨S8x27x32x32, .f32⟩
  | _ => ⟨S8x27x32x32, .f32⟩

abbrev hbmTy (i : Nat) : BufTy := match i / 128 with
  | 0 => hbmTy0_0 i
  | 1 => hbmTy0_1 i
  | _ => ⟨S8x27x32x32, .f32⟩

abbrev bufTy : (tb : Table) → Fin (tcTables nBuf tb) → BufTy
  | .hbm, ⟨i, _⟩ => hbmTy i
  | _, _ => ⟨S8x27x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_2 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_7 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_8 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_10 : Ref sig .tc := ⟨.hbm, 93, rfl⟩
abbrev main_v79 : Ref sig .tc := ⟨.hbm, 94, rfl⟩
abbrev main_v80 : Ref sig .tc := ⟨.hbm, 95, rfl⟩
abbrev main_cst_11 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_cst_12 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_13 : Ref sig .tc := ⟨.hbm, 116, rfl⟩
abbrev main_v99 : Ref sig .tc := ⟨.hbm, 117, rfl⟩
abbrev main_v100 : Ref sig .tc := ⟨.hbm, 118, rfl⟩
abbrev main_cst_14 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_15 : Ref sig .tc := ⟨.hbm, 123, rfl⟩
abbrev main_v104 : Ref sig .tc := ⟨.hbm, 124, rfl⟩
abbrev main_v105 : Ref sig .tc := ⟨.hbm, 125, rfl⟩
abbrev main_cst_16 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_17 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_18 : Ref sig .tc := ⟨.hbm, 146, rfl⟩
abbrev main_v124 : Ref sig .tc := ⟨.hbm, 147, rfl⟩
abbrev main_v125 : Ref sig .tc := ⟨.hbm, 148, rfl⟩
abbrev main_cst_19 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_20 : Ref sig .tc := ⟨.hbm, 153, rfl⟩
abbrev main_v129 : Ref sig .tc := ⟨.hbm, 154, rfl⟩
abbrev main_v130 : Ref sig .tc := ⟨.hbm, 155, rfl⟩
abbrev main_cst_21 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_cst_22 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_cst_23 : Ref sig .tc := ⟨.hbm, 176, rfl⟩
abbrev main_v149 : Ref sig .tc := ⟨.hbm, 177, rfl⟩
abbrev main_v150 : Ref sig .tc := ⟨.hbm, 178, rfl⟩
abbrev main_cst_24 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩

abbrev nD : Nat := 1
abbrev τ : Topo := Topo.v7x

variable {F : FTy → Type} [FloatOps F]

class Facts₀ : Prop where
  pads_S8x27x32x32_S8x27x34x34_000_000_110_110 : S8x27x32x32.Pads (![0, 0, 1, 1] : Fin 4 → Nat) ![0, 0, 1, 1] ![0, 0, 0, 0] S8x27x34x34
  h_S_ : 0 < S_.numel
  slices_S8x27x34x34_S8x27x32x32_0_0_0_0 : S8x27x34x34.Slices ![0, 0, 0, 0] S8x27x32x32
  slices_S8x27x34x34_S8x27x32x32_0_0_0_1 : S8x27x34x34.Slices ![0, 0, 0, 1] S8x27x32x32
  slices_S8x27x34x34_S8x27x32x32_0_0_0_2 : S8x27x34x34.Slices ![0, 0, 0, 2] S8x27x32x32
  slices_S8x27x34x34_S8x27x32x32_0_0_1_0 : S8x27x34x34.Slices ![0, 0, 1, 0] S8x27x32x32
  slices_S8x27x34x34_S8x27x32x32_0_0_1_1 : S8x27x34x34.Slices ![0, 0, 1, 1] S8x27x32x32
  slices_S8x27x34x34_S8x27x32x32_0_0_1_2 : S8x27x34x34.Slices ![0, 0, 1, 2] S8x27x32x32
  slices_S8x27x34x34_S8x27x32x32_0_0_2_0 : S8x27x34x34.Slices ![0, 0, 2, 0] S8x27x32x32
  slices_S8x27x34x34_S8x27x32x32_0_0_2_1 : S8x27x34x34.Slices ![0, 0, 2, 1] S8x27x32x32
  slices_S8x27x34x34_S8x27x32x32_0_0_2_2 : S8x27x34x34.Slices ![0, 0, 2, 2] S8x27x32x32
  bcast_S8x27x32x32_S8x27x1x32x32_0_1_3_4 : S8x27x32x32.BroadcastsInDim S8x27x1x32x32 (![0, 1, 3, 4] : Fin 4 → Fin S8x27x1x32x32.rank)
  concatenates_S8x27x1x32x32_S8x27x1x32x32_S8x27x1x32x32_S8x27x1x32x32_S8x27x1x32x32_S8x27x1x32x32_S8x27x1x32x32_S8x27x1x32x32_S8x27x1x32x32_S8x27x9x32x32_d2 : Shape.Concatenates [S8x27x1x32x32, S8x27x1x32x32, S8x27x1x32x32, S8x27x1x32x32, S8x27x1x32x32, S8x27x1x32x32, S8x27x1x32x32, S8x27x1x32x32, S8x27x1x32x32] S8x27x9x32x32 2
  shapeCasts_S8x27x9x32x32_S8x243x1024 : S8x27x9x32x32.ShapeCasts S8x243x1024
  shapeCasts_S27x27x3x3_S27x243 : S27x27x3x3.ShapeCasts S27x243
  bcast_S8x243x1024_S8x1x243x1024_0_2_3 : S8x243x1024.BroadcastsInDim S8x1x243x1024 (![0, 2, 3] : Fin 3 → Fin S8x1x243x1024.rank)
  bcast_S27x243_S1x27x243x1_1_2 : S27x243.BroadcastsInDim S1x27x243x1 (![1, 2] : Fin 2 → Fin S1x27x243x1.rank)
  bcast_S8x1x243x1024_S8x27x243x1024_0_1_2_3 : S8x1x243x1024.BroadcastsInDim S8x27x243x1024 (![0, 1, 2, 3] : Fin 4 → Fin S8x27x243x1024.rank)
  bcast_S1x27x243x1_S8x27x243x1024_0_1_2_3 : S1x27x243x1.BroadcastsInDim S8x27x243x1024 (![0, 1, 2, 3] : Fin 4 → Fin S8x27x243x1024.rank)
  transposes_S8x27x243x1024_S8x27x1024x243_0_1_3_2 : S8x27x243x1024.Transposes [0, 1, 3, 2] S8x27x1024x243
  shapeCasts_S8x27x1024x243_S8x27x1024x81x3 : S8x27x1024x243.ShapeCasts S8x27x1024x81x3
  bcast_S_S8x27x1024x81x3 : S_.BroadcastsInDim S8x27x1024x81x3 (![] : Fin 0 → Fin S8x27x1024x81x3.rank)
  slices_S8x27x1024x81x3_S8x27x1024x81x1_0_0_0_0_0 : S8x27x1024x81x3.Slices ![0, 0, 0, 0, 0] S8x27x1024x81x1
  shapeCasts_S8x27x1024x81x1_S8x27x1024x81 : S8x27x1024x81x1.ShapeCasts S8x27x1024x81
  slices_S8x27x1024x81x3_S8x27x1024x81x1_0_0_0_0_1 : S8x27x1024x81x3.Slices ![0, 0, 0, 0, 1] S8x27x1024x81x1
  slices_S8x27x1024x81x3_S8x27x1024x81x1_0_0_0_0_2 : S8x27x1024x81x3.Slices ![0, 0, 0, 0, 2] S8x27x1024x81x1
  bcast_S_S8x27x1024x81 : S_.BroadcastsInDim S8x27x1024x81 (![] : Fin 0 → Fin S8x27x1024x81.rank)
  shapeCasts_S8x27x1024x81_S8x27x1024x27x3 : S8x27x1024x81.ShapeCasts S8x27x1024x27x3
  bcast_S_S8x27x1024x27x3 : S_.BroadcastsInDim S8x27x1024x27x3 (![] : Fin 0 → Fin S8x27x1024x27x3.rank)
  slices_S8x27x1024x27x3_S8x27x1024x27x1_0_0_0_0_0 : S8x27x1024x27x3.Slices ![0, 0, 0, 0, 0] S8x27x1024x27x1
  shapeCasts_S8x27x1024x27x1_S8x27x1024x27 : S8x27x1024x27x1.ShapeCasts S8x27x1024x27
  slices_S8x27x1024x27x3_S8x27x1024x27x1_0_0_0_0_1 : S8x27x1024x27x3.Slices ![0, 0, 0, 0, 1] S8x27x1024x27x1
  slices_S8x27x1024x27x3_S8x27x1024x27x1_0_0_0_0_2 : S8x27x1024x27x3.Slices ![0, 0, 0, 0, 2] S8x27x1024x27x1
  bcast_S_S8x27x1024x27 : S_.BroadcastsInDim S8x27x1024x27 (![] : Fin 0 → Fin S8x27x1024x27.rank)
  shapeCasts_S8x27x1024x27_S8x27x1024x9x3 : S8x27x1024x27.ShapeCasts S8x27x1024x9x3
  bcast_S_S8x27x1024x9x3 : S_.BroadcastsInDim S8x27x1024x9x3 (![] : Fin 0 → Fin S8x27x1024x9x3.rank)
  slices_S8x27x1024x9x3_S8x27x1024x9x1_0_0_0_0_0 : S8x27x1024x9x3.Slices ![0, 0, 0, 0, 0] S8x27x1024x9x1
  shapeCasts_S8x27x1024x9x1_S8x27x1024x9 : S8x27x1024x9x1.ShapeCasts S8x27x1024x9
  slices_S8x27x1024x9x3_S8x27x1024x9x1_0_0_0_0_1 : S8x27x1024x9x3.Slices ![0, 0, 0, 0, 1] S8x27x1024x9x1
  slices_S8x27x1024x9x3_S8x27x1024x9x1_0_0_0_0_2 : S8x27x1024x9x3.Slices ![0, 0, 0, 0, 2] S8x27x1024x9x1
  bcast_S_S8x27x1024x9 : S_.BroadcastsInDim S8x27x1024x9 (![] : Fin 0 → Fin S8x27x1024x9.rank)
  shapeCasts_S8x27x1024x9_S8x27x1024x3x3 : S8x27x1024x9.ShapeCasts S8x27x1024x3x3
  bcast_S_S8x27x1024x3x3 : S_.BroadcastsInDim S8x27x1024x3x3 (![] : Fin 0 → Fin S8x27x1024x3x3.rank)
  slices_S8x27x1024x3x3_S8x27x1024x3x1_0_0_0_0_0 : S8x27x1024x3x3.Slices ![0, 0, 0, 0, 0] S8x27x1024x3x1
  shapeCasts_S8x27x1024x3x1_S8x27x1024x3 : S8x27x1024x3x1.ShapeCasts S8x27x1024x3
  slices_S8x27x1024x3x3_S8x27x1024x3x1_0_0_0_0_1 : S8x27x1024x3x3.Slices ![0, 0, 0, 0, 1] S8x27x1024x3x1
  slices_S8x27x1024x3x3_S8x27x1024x3x1_0_0_0_0_2 : S8x27x1024x3x3.Slices ![0, 0, 0, 0, 2] S8x27x1024x3x1
  bcast_S_S8x27x1024x3 : S_.BroadcastsInDim S8x27x1024x3 (![] : Fin 0 → Fin S8x27x1024x3.rank)
  shapeCasts_S8x27x1024x3_S8x27x1024x1x3 : S8x27x1024x3.ShapeCasts S8x27x1024x1x3
  bcast_S_S8x27x1024x1x3 : S_.BroadcastsInDim S8x27x1024x1x3 (![] : Fin 0 → Fin S8x27x1024x1x3.rank)
  slices_S8x27x1024x1x3_S8x27x1024x1x1_0_0_0_0_0 : S8x27x1024x1x3.Slices ![0, 0, 0, 0, 0] S8x27x1024x1x1
  shapeCasts_S8x27x1024x1x1_S8x27x1024x1 : S8x27x1024x1x1.ShapeCasts S8x27x1024x1
  slices_S8x27x1024x1x3_S8x27x1024x1x1_0_0_0_0_1 : S8x27x1024x1x3.Slices ![0, 0, 0, 0, 1] S8x27x1024x1x1
  slices_S8x27x1024x1x3_S8x27x1024x1x1_0_0_0_0_2 : S8x27x1024x1x3.Slices ![0, 0, 0, 0, 2] S8x27x1024x1x1
  bcast_S_S8x27x1024x1 : S_.BroadcastsInDim S8x27x1024x1 (![] : Fin 0 → Fin S8x27x1024x1.rank)
  shapeCasts_S8x27x1024x1_S8x27x1024 : S8x27x1024x1.ShapeCasts S8x27x1024
  shapeCasts_S8x27x1024_S8x27x32x32 : S8x27x1024.ShapeCasts S8x27x32x32

variable [Facts₀]

class Facts : Prop extends Facts₀ where

variable [Facts]
-- ==== Proof.KernelFrame.lean ====
/-
  The run of the convolution program: the host lines that build the patches and the
  K-major weights, the one pipelined region over the grid 8 x 2, and the final reshape.

  The region has three windows.  Window 0 is the patches array [8, 243, 1024] cut into blocks
  [1, 243, 512] (image n, lane tile lt); window 1 is the whole weights array [243, 27], the same
  block at every point; window 2 is the result [8, 27, 1024] cut into blocks [1, 27, 512].  At a
  grid point the body reads the two input blocks whole, computes one value of shape [1, 27, 512]
  from them (`blockOut`), reads the output block (a read whose value is not used) and overwrites
  it whole.  So after the body the output window's buffer holds `blockOut` of the two input
  blocks, the input buffers are untouched, and nothing else is used: this is what the
  pipeline's launch theorem asks of a body, and it gives the run of the whole program with every
  array of the region named: the result array is assembled from the blocks the points wrote
  back, and the arguments end as they started.
-/
import proofs.«106421_j67250597921090_2_alg».proof.Proof.Gen.Kernel.Launch
import proofs.«106421_j67250597921090_2_alg».proof.Proof.Gen.Kernel.Skeleton
import proofs.«106421_j67250597921090_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Conv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, in order: the pad value, the padding, then the nine
    shifted slices, their stacking and the two reshapes and the transpose. -/
abbrev prefixOps : List (List (HloOp τ sig (Elt F))) := [hostOps0, hostOps0_1, hostOps0_2]

/-- The one host line after the region: the reshape of the result to [8, 27, 32, 32]. -/
abbrev suffixOps : List (List (HloOp τ sig (Elt F))) := [hostOps1]

/-- Every buffer of the core when the region is entered: the launch contents after the lines before it. -/
abbrev entry0 (c : Dev nD) : Valuation τ sig (Elt F) := StableHlo.after (List.flatten prefixOps) (fun b => m (c, b))
/-- The same read at a reference of the core. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the lines before the region, the region, the line after it. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main prefixOps suffixOps
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches only the region's arrays and buffers that bypass it. -/
theorem suffix_sub : ∀ ops ∈ (suffixOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem suffix_fresh : ∀ ops ∈ (suffixOps : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- It writes its own result buffer, which is none of the region's three arrays. -/
theorem suffix_keeps : ∀ ops ∈ (suffixOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;>
    exact StableHlo.devRef_ne_of_ne (by decide)

/-! ## The arguments at the region's entry and at the program's end -/

/-- No line before the region writes the first argument: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The line after the region writes neither, and neither is an array of the region: both end as launched. -/
theorem final_arg0 (dats : (p : Fin _) → (c : Dev nD) → Dat τ (Elt F) Unit ℕ (UR sig nD τ) ℕ (cfgs p) c) (c : Dev nD) :
    Pipeline.afterTail₀ cfgs dats 0 (entry0 m) suffixOps c main_arg0 = m ((c : Thread nD τ).loc main_arg0) := by
  unfold Pipeline.afterTail₀
  rw [StableHlo.after_of_forall_not_mem (b := Proc.devRef .tc main_arg0) _ _ (List.forall_iff_forall_mem.mp (by
      simp only [suffixOps, hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry0 m c) _ main_arg0 (by exact (by decide : ∀ w, Pipeline.arrRef spec0 w ≠ main_arg0))]
  exact entry_arg0 m c

theorem final_arg1 (dats : (p : Fin _) → (c : Dev nD) → Dat τ (Elt F) Unit ℕ (UR sig nD τ) ℕ (cfgs p) c) (c : Dev nD) :
    Pipeline.afterTail₀ cfgs dats 0 (entry0 m) suffixOps c main_arg1 = m ((c : Thread nD τ).loc main_arg1) := by
  unfold Pipeline.afterTail₀
  rw [StableHlo.after_of_forall_not_mem (b := Proc.devRef .tc main_arg1) _ _ (List.forall_iff_forall_mem.mp (by
      simp only [suffixOps, hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry0 m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The patches window's buffer holds its block at every point, for any proof data over the entry contents
    whose body leaves the input buffers alone. -/
theorem patches_before {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- So does the weights window's, which is fetched once: its block is the same at every point. -/
theorem weights_before {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body at one grid point -/

/-- The body's three accesses: each staging buffer whole. -/
abbrev rPatches : Rect S1x243x512 := Rect.unit (s := S1x243x512) ![0, 0, 0] S1x243x512.size inb_S1x243x512_S1x243x512_0_0_0
abbrev rWeights : Rect S243x27 := Rect.unit (s := S243x27) ![0, 0] S243x27.size inb_S243x27_S243x27_0_0
abbrev rOut : Rect S1x27x512 := Rect.unit (s := S1x27x512) ![0, 0, 0] S1x27x512.size inb_S1x27x512_S1x27x512_0_0_0

/-- What the body computes from the patches block and the weights block: the leaves, the five gate levels and the
    final 2s - 1, as the value of shape [1, 27, 512] it stores. -/
def blockValue (x0 : Vec F S1x243x512 .f32) (x1 : Vec F S243x27 .f32) : FVec F S1x27x512 .f32 :=
  k0_pay1 (k0_pay4 (k0_pay2 (View.ld x0 rPatches) (View.ld x1 rWeights)) (k0_pay3 (View.ld x0 rPatches) (View.ld x1 rWeights)))

/-- What the output window's buffer holds after the body: its one store, of the whole buffer. -/
def blockOut (x0 : Vec F S1x243x512 .f32) (x1 : Vec F S243x27 .f32) : Vec F S1x27x512 .f32 :=
  View.canon [⟨rOut, blockValue x0 x1⟩]

/-- The one store covers the buffer. -/
theorem out_cover (p0 : Vec F S1x27x512 .f32) (y : S1x27x512.Idx) :
    ∃ pc ∈ ([⟨rOut, p0⟩] : List (View.Piece (Elt F) S1x27x512 .f32)), y ∈ pc.1.set :=
  View.cover_of_tiled [⟨rOut, p0⟩] S1x27x512.size (by rfl) y

set_option maxHeartbeats 1000000 in
/-- The body, on whole staging buffers holding the two input blocks and anything in the output's, runs without a
    fault, leaves the inputs as they were and the output's buffer at `blockOut` of the inputs. -/
theorem body_triple (c : Dev nD) (E : Set ℕ) (i : grid0.Coords) (arg2 : Memref sig .tc .vmem S1x243x512 .f32) (harg2 : arg2.IsWhole)
    (arg3 : Memref sig .tc .vmem S243x27 .f32) (harg3 : arg3.IsWhole) (arg4 : Memref sig .tc .vmem S1x27x512 .f32) (harg4 : arg4.IsWhole)
    (x0 : Vec F S1x243x512 .f32) (x1 : Vec F S243x27 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (blockOut x0 x1)) -∗ K ⟨⟩))
      ⊢ wp frame (wpE (defs₀ (F := F)) Variants.none c none) E (cc0__sconv_kernel i arg2 harg2 arg3 harg3 arg4 harg4) K := by
  simp only [cc0__sconv_kernel_eq_skeleton]; unfold cc0__sconv_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (out_cover _)

/-! ## The proof data of the pipeline -/

/-- On core `c`: the arrays as the region finds them; after the body at point `t` each input's buffer still at
    its block and the output's at `blockOut` of the two input blocks; the region's invariant is the untouched rest;
    nothing is owed and every share is full. -/
def convDat (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockOut (blockAt m c 0 t) (blockAt m c 1 t)
  Φ _ := Pipeline.ΦA spec0 c
  q _ := fullShare
  owed _ := 0

theorem convDat_A (c : Dev nD) (w : Fin cfg0.W) : (convDat m 0 c).A w = entry m c (Pipeline.arrRef spec0 w) := by
  dsimp only [convDat]

theorem after_patches (c : Dev nD) (t : Fin cfg0.N) : (convDat m 0 c).after 0 t = blockAt m c 0 t := by dsimp only [convDat]
theorem after_weights (c : Dev nD) (t : Fin cfg0.N) : (convDat m 0 c).after 1 t = blockAt m c 1 t := by dsimp only [convDat]
theorem after_out (c : Dev nD) (t : Fin cfg0.N) :
    (convDat m 0 c).after 2 t = blockOut (blockAt m c 0 t) (blockAt m c 1 t) := by dsimp only [convDat]

theorem before_patches (c : Dev nD) (t : Fin cfg0.N) (d) : (convDat m 0 c).before 0 t d = blockAt m c 0 t :=
  patches_before m (convDat m 0 c) (convDat_A m c 0) (after_patches m c) t d
theorem before_weights (c : Dev nD) (t : Fin cfg0.N) (d) : (convDat m 0 c).before 1 t d = blockAt m c 1 t :=
  weights_before m (convDat m 0 c) (convDat_A m c 1) (after_weights m c) t d

/-! ## The body obligation -/

/-- What the body is handed at point `t`, -/
def handed (c : Dev nD) (t : Fin cfg0.N) : sProp 𝕄 :=
  iprop((convDat m 0 c).Φ t.castSucc ∗ (convDat m 0 c).owesAt () t.castSucc
    ∗ (∃ d, owns (c : Thread nD τ) (st0_0 t) fullShare ((convDat m 0 c).before 0 t d))
    ∗ (∃ d, owns (c : Thread nD τ) (st0_1 t) fullShare ((convDat m 0 c).before 1 t d))
    ∗ (∃ d, owns (c : Thread nD τ) (st0_2 t) fullShare ((convDat m 0 c).before 2 t d)))

/-- and what it hands back. -/
def returned (c : Dev nD) (t : Fin cfg0.N) : sProp 𝕄 :=
  iprop((convDat m 0 c).Φ t.succ ∗ (convDat m 0 c).owesAt () t.succ
    ∗ owns (c : Thread nD τ) (st0_0 t) fullShare ((convDat m 0 c).after 0 t)
    ∗ owns (c : Thread nD τ) (st0_1 t) fullShare ((convDat m 0 c).after 1 t)
    ∗ owns (c : Thread nD τ) (st0_2 t) fullShare ((convDat m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [before_patches, before_weights]
  rw [show (convDat m 0 c).Φ t.succ = (convDat m 0 c).Φ t.castSucc from rfl,
    show (convDat m 0 c).owesAt () t.succ = (convDat m 0 c).owesAt () t.castSucc from rfl,
    after_patches, after_weights, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (convDat (F := F) m 0 c) (defs₀ (F := F)) Variants.none () Set.univ := fun t => by
  rw [bigSep_W0, bigSep_W0]
  exact body_at m c t

/-! ## The run -/

set_option backward.isDefEq.respectTransparency.types false in
/-- Every weakly fair execution of the program terminates without a fault; at the end each array of the region is
    what the points wrote back into it (or, for an input, what the region found) and every other buffer is as the
    last host line leaves it. -/
theorem run_main : θ_run defs (onTc (τ := τ) (main (F := F))) (s₀ m ρ)
    (Pipeline.FramePost cfgs (convDat m) 0 (Pipeline.afterTail₀ cfgs (convDat m) 0 (entry0 m) suffixOps)) :=
  Pipeline.θ_run_frame_around cfgs (convDat m) (0 : Fin 1) launch0 defs₀ Variants.none m ρ main
    (hbody := fun c => (body_obligation m c).loose) (hshare := fun c => (convDat m 0 c).share_full fun _ => rfl)
    (howed := fun _ _ => rfl) (V₀ := entry0 m) (opss := suffixOps) (hsub := suffix_sub) (hfresh := suffix_fresh) (hkeep := suffix_keeps)
    (hmain := main_around m Variants.none) (hA := convDat_A m) (hΦ := fun _ _ => rfl)

/-- The program's result buffer at the end: the reshape of the result array as the points left it. -/
theorem final_result (c : Dev nD) :
    Pipeline.afterTail₀ cfgs (convDat m) 0 (entry0 m) suffixOps c main_v24
      = (shapeCast S8x27x32x32 ((convDat m 0 c).arrAt 2 cfg0.N) shapeCasts_S8x27x1024_S8x27x32x32 : S8x27x32x32.Idx → Elt F .f32) := by
  unfold Pipeline.afterTail₀
  show StableHlo.after hostOps1 _ (Proc.devRef .tc main_v24) = _
  after_results
  exact congrArg (fun v => shapeCast S8x27x32x32 v shapeCasts_S8x27x1024_S8x27x32x32)
    (Pipeline.withArrays_arr spec0 launch0.win.arr_inj c _ _ 2)

/-- THE RUN, read at the result and at the arguments. -/
theorem run_result : θ_run defs (onTc (τ := τ) (main (F := F))) ⟨m, fun _ => 0, ρ⟩ (fun r => ∀ c : Dev nD,
      r.2.mem ((c.tc : Thread nD τ).loc main_v24)
        = (shapeCast S8x27x32x32 ((convDat m 0 c).arrAt 2 cfg0.N) shapeCasts_S8x27x1024_S8x27x32x32 : S8x27x32x32.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v24 (Pipeline.mem_restRefs_of main_v24 (by decide) (by decide))).trans (final_result m c),
     ((h c).2 main_arg0 (Pipeline.mem_restRefs_of main_arg0 (by decide) (by decide))).trans (final_arg0 m (convDat m) c),
     ((h c).2 main_arg1 (Pipeline.mem_restRefs_of main_arg1 (by decide) (by decide))).trans (final_arg1 m (convDat m) c)⟩) (run_main m ρ)

/-- The frame: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Conv

end
-- ==== Proof.KernelIdealFrame.lean ====
/-
  The run of the convolution program: the host lines that build the patches and the
  K-major weights, the one pipelined region over the grid 8 x 2, and the final reshape.

  The region has three windows.  Window 0 is the patches array [8, 243, 1024] cut into blocks
  [1, 243, 512] (image n, lane tile lt); window 1 is the whole weights array [243, 27], the same
  block at every point; window 2 is the result [8, 27, 1024] cut into blocks [1, 27, 512].  At a
  grid point the body reads the two input blocks whole, computes one value of shape [1, 27, 512]
  from them (`blockOut`), reads the output block (a read whose value is not used) and overwrites
  it whole.  So after the body the output window's buffer holds `blockOut` of the two input
  blocks, the input buffers are untouched, and nothing else is used: this is what the
  pipeline's launch theorem asks of a body, and it gives the run of the whole program with every
  array of the region named: the result array is assembled from the blocks the points wrote
  back, and the arguments end as they started.
-/
import proofs.«106421_j67250597921090_2_alg».proof.Proof.Gen.KernelIdeal.Launch
import proofs.«106421_j67250597921090_2_alg».proof.Proof.Gen.KernelIdeal.Skeleton
import proofs.«106421_j67250597921090_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, in order: the pad value, the padding, then the nine
    shifted slices, their stacking and the two reshapes and the transpose. -/
abbrev prefixOps : List (List (HloOp τ sig (Elt F))) := [hostOps0, hostOps0_1, hostOps0_2]

/-- The one host line after the region: the reshape of the result to [8, 27, 32, 32]. -/
abbrev suffixOps : List (List (HloOp τ sig (Elt F))) := [hostOps1]

/-- Every buffer of the core when the region is entered: the launch contents after the lines before it. -/
abbrev entry0 (c : Dev nD) : Valuation τ sig (Elt F) := StableHlo.after (List.flatten prefixOps) (fun b => m (c, b))
/-- The same read at a reference of the core. -/
abbrev entry (c : Dev nD) (b : Ref sig .tc) : Buf (Elt F) ((c : Thread nD τ).loc b) := entry0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the lines before the region, the region, the line after it. -/
theorem main_around (𝒱₀ : Variants) :
    Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main prefixOps suffixOps
    (by simp only [List.Forall]; exact ⟨hostOps0_sub, hostOps0_1_sub, hostOps0_2_sub⟩)
    (by simp only [List.Forall]; exact ⟨hostOps0_fresh, hostOps0_1_fresh, hostOps0_2_fresh⟩) main_chain

/-- The line after the region touches only the region's arrays and buffers that bypass it. -/
theorem suffix_sub : ∀ ops ∈ (suffixOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem suffix_fresh : ∀ ops ∈ (suffixOps : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- It writes its own result buffer, which is none of the region's three arrays. -/
theorem suffix_keeps : ∀ ops ∈ (suffixOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;>
    exact StableHlo.devRef_ne_of_ne (by decide)

/-! ## The arguments at the region's entry and at the program's end -/

/-- No line before the region writes the first argument: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- Nor the second. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The line after the region writes neither, and neither is an array of the region: both end as launched. -/
theorem final_arg0 (dats : (p : Fin _) → (c : Dev nD) → Dat τ (Elt F) Unit ℕ (UR sig nD τ) ℕ (cfgs p) c) (c : Dev nD) :
    Pipeline.afterTail₀ cfgs dats 0 (entry0 m) suffixOps c main_arg0 = m ((c : Thread nD τ).loc main_arg0) := by
  unfold Pipeline.afterTail₀
  rw [StableHlo.after_of_forall_not_mem (b := Proc.devRef .tc main_arg0) _ _ (List.forall_iff_forall_mem.mp (by
      simp only [suffixOps, hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry0 m c) _ main_arg0 (by exact (by decide : ∀ w, Pipeline.arrRef spec0 w ≠ main_arg0))]
  exact entry_arg0 m c

theorem final_arg1 (dats : (p : Fin _) → (c : Dev nD) → Dat τ (Elt F) Unit ℕ (UR sig nD τ) ℕ (cfgs p) c) (c : Dev nD) :
    Pipeline.afterTail₀ cfgs dats 0 (entry0 m) suffixOps c main_arg1 = m ((c : Thread nD τ).loc main_arg1) := by
  unfold Pipeline.afterTail₀
  rw [StableHlo.after_of_forall_not_mem (b := Proc.devRef .tc main_arg1) _ _ (List.forall_iff_forall_mem.mp (by
      simp only [suffixOps, hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry0 m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The patches window's buffer holds its block at every point, for any proof data over the entry contents
    whose body leaves the input buffers alone. -/
theorem patches_before {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- So does the weights window's, which is fetched once: its block is the same at every point. -/
theorem weights_before {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body at one grid point -/

/-- The body's three accesses: each staging buffer whole. -/
abbrev rPatches : Rect S1x243x512 := Rect.unit (s := S1x243x512) ![0, 0, 0] S1x243x512.size inb_S1x243x512_S1x243x512_0_0_0
abbrev rWeights : Rect S243x27 := Rect.unit (s := S243x27) ![0, 0] S243x27.size inb_S243x27_S243x27_0_0
abbrev rOut : Rect S1x27x512 := Rect.unit (s := S1x27x512) ![0, 0, 0] S1x27x512.size inb_S1x27x512_S1x27x512_0_0_0

/-- What the body computes from the patches block and the weights block: the leaves, the five gate levels and the
    final 2s - 1, as the value of shape [1, 27, 512] it stores. -/
def blockValue (x0 : Vec F S1x243x512 .f32) (x1 : Vec F S243x27 .f32) : FVec F S1x27x512 .f32 :=
  k0_pay1 (k0_pay4 (k0_pay2 (View.ld x0 rPatches) (View.ld x1 rWeights)) (k0_pay3 (View.ld x0 rPatches) (View.ld x1 rWeights)))

/-- What the output window's buffer holds after the body: its one store, of the whole buffer. -/
def blockOut (x0 : Vec F S1x243x512 .f32) (x1 : Vec F S243x27 .f32) : Vec F S1x27x512 .f32 :=
  View.canon [⟨rOut, blockValue x0 x1⟩]

/-- The one store covers the buffer. -/
theorem out_cover (p0 : Vec F S1x27x512 .f32) (y : S1x27x512.Idx) :
    ∃ pc ∈ ([⟨rOut, p0⟩] : List (View.Piece (Elt F) S1x27x512 .f32)), y ∈ pc.1.set :=
  View.cover_of_tiled [⟨rOut, p0⟩] S1x27x512.size (by rfl) y

set_option maxHeartbeats 1000000 in
/-- The body, on whole staging buffers holding the two input blocks and anything in the output's, runs without a
    fault, leaves the inputs as they were and the output's buffer at `blockOut` of the inputs. -/
theorem body_triple (c : Dev nD) (E : Set ℕ) (i : grid0.Coords) (arg2 : Memref sig .tc .vmem S1x243x512 .f32) (harg2 : arg2.IsWhole)
    (arg3 : Memref sig .tc .vmem S243x27 .f32) (harg3 : arg3.IsWhole) (arg4 : Memref sig .tc .vmem S1x27x512 .f32) (harg4 : arg4.IsWhole)
    (x0 : Vec F S1x243x512 .f32) (x1 : Vec F S243x27 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (blockOut x0 x1)) -∗ K ⟨⟩))
      ⊢ wp frame (wpE (defs₀ (F := F)) Variants.none c none) E (cc0__sconv_kernel i arg2 harg2 arg3 harg3 arg4 harg4) K := by
  simp only [cc0__sconv_kernel_eq_skeleton]; unfold cc0__sconv_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (out_cover _)

/-! ## The proof data of the pipeline -/

/-- On core `c`: the arrays as the region finds them; after the body at point `t` each input's buffer still at
    its block and the output's at `blockOut` of the two input blocks; the region's invariant is the untouched rest;
    nothing is owed and every share is full. -/
def convDat (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockOut (blockAt m c 0 t) (blockAt m c 1 t)
  Φ _ := Pipeline.ΦA spec0 c
  q _ := fullShare
  owed _ := 0

theorem convDat_A (c : Dev nD) (w : Fin cfg0.W) : (convDat m 0 c).A w = entry m c (Pipeline.arrRef spec0 w) := by
  dsimp only [convDat]

theorem after_patches (c : Dev nD) (t : Fin cfg0.N) : (convDat m 0 c).after 0 t = blockAt m c 0 t := by dsimp only [convDat]
theorem after_weights (c : Dev nD) (t : Fin cfg0.N) : (convDat m 0 c).after 1 t = blockAt m c 1 t := by dsimp only [convDat]
theorem after_out (c : Dev nD) (t : Fin cfg0.N) :
    (convDat m 0 c).after 2 t = blockOut (blockAt m c 0 t) (blockAt m c 1 t) := by dsimp only [convDat]

theorem before_patches (c : Dev nD) (t : Fin cfg0.N) (d) : (convDat m 0 c).before 0 t d = blockAt m c 0 t :=
  patches_before m (convDat m 0 c) (convDat_A m c 0) (after_patches m c) t d
theorem before_weights (c : Dev nD) (t : Fin cfg0.N) (d) : (convDat m 0 c).before 1 t d = blockAt m c 1 t :=
  weights_before m (convDat m 0 c) (convDat_A m c 1) (after_weights m c) t d

/-! ## The body obligation -/

/-- What the body is handed at point `t`, -/
def handed (c : Dev nD) (t : Fin cfg0.N) : sProp 𝕄 :=
  iprop((convDat m 0 c).Φ t.castSucc ∗ (convDat m 0 c).owesAt () t.castSucc
    ∗ (∃ d, owns (c : Thread nD τ) (st0_0 t) fullShare ((convDat m 0 c).before 0 t d))
    ∗ (∃ d, owns (c : Thread nD τ) (st0_1 t) fullShare ((convDat m 0 c).before 1 t d))
    ∗ (∃ d, owns (c : Thread nD τ) (st0_2 t) fullShare ((convDat m 0 c).before 2 t d)))

/-- and what it hands back. -/
def returned (c : Dev nD) (t : Fin cfg0.N) : sProp 𝕄 :=
  iprop((convDat m 0 c).Φ t.succ ∗ (convDat m 0 c).owesAt () t.succ
    ∗ owns (c : Thread nD τ) (st0_0 t) fullShare ((convDat m 0 c).after 0 t)
    ∗ owns (c : Thread nD τ) (st0_1 t) fullShare ((convDat m 0 c).after 1 t)
    ∗ owns (c : Thread nD τ) (st0_2 t) fullShare ((convDat m 0 c).after 2 t))

theorem body_at (c : Dev nD) (t : Fin cfg0.N) :
    handed m c t ⊢ wp frame (wpE (defs₀ (F := F)) Variants.none c none) Set.univ (bodyAt0 t) (fun _ => returned m c t) := by
  unfold handed returned bodyAt0
  simp only [before_patches, before_weights]
  rw [show (convDat m 0 c).Φ t.succ = (convDat m 0 c).Φ t.castSucc from rfl,
    show (convDat m 0 c).owesAt () t.succ = (convDat m 0 c).owesAt () t.castSucc from rfl,
    after_patches, after_weights, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (convDat (F := F) m 0 c) (defs₀ (F := F)) Variants.none () Set.univ := fun t => by
  rw [bigSep_W0, bigSep_W0]
  exact body_at m c t

/-! ## The run -/

set_option backward.isDefEq.respectTransparency.types false in
/-- Every weakly fair execution of the program terminates without a fault; at the end each array of the region is
    what the points wrote back into it (or, for an input, what the region found) and every other buffer is as the
    last host line leaves it. -/
theorem run_main : θ_run defs (onTc (τ := τ) (main (F := F))) (s₀ m ρ)
    (Pipeline.FramePost cfgs (convDat m) 0 (Pipeline.afterTail₀ cfgs (convDat m) 0 (entry0 m) suffixOps)) :=
  Pipeline.θ_run_frame_around cfgs (convDat m) (0 : Fin 1) launch0 defs₀ Variants.none m ρ main
    (hbody := fun c => (body_obligation m c).loose) (hshare := fun c => (convDat m 0 c).share_full fun _ => rfl)
    (howed := fun _ _ => rfl) (V₀ := entry0 m) (opss := suffixOps) (hsub := suffix_sub) (hfresh := suffix_fresh) (hkeep := suffix_keeps)
    (hmain := main_around m Variants.none) (hA := convDat_A m) (hΦ := fun _ _ => rfl)

/-- The program's result buffer at the end: the reshape of the result array as the points left it. -/
theorem final_result (c : Dev nD) :
    Pipeline.afterTail₀ cfgs (convDat m) 0 (entry0 m) suffixOps c main_v24
      = (shapeCast S8x27x32x32 ((convDat m 0 c).arrAt 2 cfg0.N) shapeCasts_S8x27x1024_S8x27x32x32 : S8x27x32x32.Idx → Elt F .f32) := by
  unfold Pipeline.afterTail₀
  show StableHlo.after hostOps1 _ (Proc.devRef .tc main_v24) = _
  after_results
  exact congrArg (fun v => shapeCast S8x27x32x32 v shapeCasts_S8x27x1024_S8x27x32x32)
    (Pipeline.withArrays_arr spec0 launch0.win.arr_inj c _ _ 2)

/-- THE RUN, read at the result and at the arguments. -/
theorem run_result : θ_run defs (onTc (τ := τ) (main (F := F))) ⟨m, fun _ => 0, ρ⟩ (fun r => ∀ c : Dev nD,
      r.2.mem ((c.tc : Thread nD τ).loc main_v24)
        = (shapeCast S8x27x32x32 ((convDat m 0 c).arrAt 2 cfg0.N) shapeCasts_S8x27x1024_S8x27x32x32 : S8x27x32x32.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v24 (Pipeline.mem_restRefs_of main_v24 (by decide) (by decide))).trans (final_result m c),
     ((h c).2 main_arg0 (Pipeline.mem_restRefs_of main_arg0 (by decide) (by decide))).trans (final_arg0 m (convDat m) c),
     ((h c).2 main_arg1 (Pipeline.mem_restRefs_of main_arg1 (by decide) (by decide))).trans (final_arg1 m (convDat m) c)⟩) (run_main m ρ)

/-- The frame: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Conv

end
-- ==== Proof.Spec.lean ====
/-
  The majority-gate tree, as a function on the extended reals.

  A gate takes three numbers in the "unit" domain, s = (x + 1) / 2, and returns
  r = ab + ac + bc - 2abc; in the "sign" domain the same gate is y = 2r - 1.  A tree over
  243 = 3^5 leaves combines consecutive triples five times (243, 81, 27, 9, 3, 1).

  Two ways of walking the tree are written down here:
  * `refTree` returns to the sign domain after every level (2r - 1, then (y + 1) / 2 again
    at the next level);
  * `kerTree` converts the leaves once, carries r from level to level, and applies 2r - 1
    once at the root.
  For real leaves the two agree, because ((2r - 1) + 1) / 2 = r for a real r
  (module TreeLaw).  The convolution's result at (n, oc, l) is the tree over the 243 products
  patches(n, k, l) * weights(oc, k), k = c*9 + kh*3 + kw.
-/
import Idealize.ShloMosaic.PureOps.Ideal
import Idealize.ShloMosaic.Lib.ValueIdx

noncomputable section

namespace Cert.MajTree

open Idealize.ShloMosaic Idealize.ShloMosaic.ValueIdx

/-- The f32 words of 1, 1/2 and 2, read as extended reals. -/
abbrev c1 : EReal := Ideal.ofBits .f32 0x3F800000#32
abbrev cHalf : EReal := Ideal.ofBits .f32 0x3F000000#32
abbrev c2 : EReal := Ideal.ofBits .f32 0x40000000#32

/-- Sign domain to unit domain: (x + 1) / 2. -/
def toUnit (x : EReal) : EReal := (x + c1) * cHalf

/-- Unit domain back to sign domain: 2r - 1. -/
def fromUnit (r : EReal) : EReal := c2 * r - c1

/-- The majority gate in the unit domain: ab + ac + bc - 2abc, associated as the programs do. -/
def gate (a b c : EReal) : EReal := a * b + a * c + b * c - c2 * a * b * c

/-- Member `t` of the `j`-th consecutive triple of `3 * m` entries. -/
def tri {m : ℕ} (j : Fin m) (t : Fin 3) : Fin (3 * m) := ⟨3 * j.val + t.val, by omega⟩

/-- One level walked in the sign domain: convert the triple, gate it, convert back. -/
def levelRef {m : ℕ} (x : Fin (3 * m) → EReal) (j : Fin m) : EReal :=
  fromUnit (gate (toUnit (x (tri j 0))) (toUnit (x (tri j 1))) (toUnit (x (tri j 2))))

/-- One level walked in the unit domain: gate the triple. -/
def levelKer {m : ℕ} (s : Fin (3 * m) → EReal) (j : Fin m) : EReal :=
  gate (s (tri j 0)) (s (tri j 1)) (s (tri j 2))

/-- Five levels in the sign domain. -/
def refTree (x : Fin 243 → EReal) : EReal :=
  levelRef (m := 1) (levelRef (m := 3) (levelRef (m := 9) (levelRef (m := 27) (levelRef (m := 81) x)))) 0

/-- The leaves converted once, five levels in the unit domain, converted back once. -/
def kerTree (x : Fin 243 → EReal) : EReal :=
  fromUnit (levelKer (m := 1) (levelKer (m := 3) (levelKer (m := 9) (levelKer (m := 27)
    (levelKer (m := 81) fun k => toUnit (x k))))) 0)

/-- The 243 leaves of output entry (n, oc, l): patches(n, k, l) * weights(oc, k). -/
def leaves (P : (⟨3, ![8, 243, 1024]⟩ : Shape).Idx → EReal) (W : (⟨2, ![27, 243]⟩ : Shape).Idx → EReal)
    (n : Fin 8) (oc : Fin 27) (l : Fin 1024) (k : Fin 243) : EReal :=
  P (ix3 n k l) * W (ix2 oc k)

/-- The result, as an array [8, 27, 1024], of the patches [8, 243, 1024] and the weights [27, 243]. -/
def result (P : (⟨3, ![8, 243, 1024]⟩ : Shape).Idx → EReal) (W : (⟨2, ![27, 243]⟩ : Shape).Idx → EReal) :
    (⟨3, ![8, 27, 1024]⟩ : Shape).Idx → EReal :=
  fun i => refTree (leaves P W (i 0) (i 1) (i 2))

end Cert.MajTree

end
-- ==== Proof.KerTree.lean ====
/-
  The block the kernel's body stores, read entry by entry.

  The body multiplies patches(0, k, l) by weights(k, oc) over an array [243, 27, 512], moves every product
  to the unit domain once, s = (x + 1) / 2, and then five times replaces the leading axis 3m by m: a
  row-major reshape [3m, 27, 512] → [m, 3, 27, 512] puts the consecutive triples k = 3j + t on an axis of
  their own, three slices of that axis give the triple's members a, b, c as arrays [m, 27, 512], and the
  gate ab + ac + bc - 2abc is applied entrywise. After the fifth level the single entry left on the
  leading axis is returned to the sign domain, 2r - 1.

  Here: a row-major reshape followed by the slice at offset o reads the operand at 3j + o
  (`triple_read`); hence one level of the body, as an operation on arrays, is the level of the tree in
  every column k ↦ X(k, oc, l) (`level_apply`); the body is the leaves, five such levels and the return
  (`stored_eq`, by unfolding); and so the stored block at (0, oc, l) is the tree carried in the unit
  domain over the 243 products x0(0, k, l) * x1(k, oc) (`payload_eq`).
-/
import proofs.«106421_j67250597921090_2_alg».proof.Proof.Gen.KernelIdeal.Skeleton
import proofs.«106421_j67250597921090_2_alg».proof.Proof.Spec
import Idealize.ShloMosaic.Lib.ValueIdx
import Idealize.ShloMosaic.Lib.Pipeline.Value
import Idealize.ShloMosaic.Lib.ValueLayout

noncomputable section

namespace Cert.KerTree

open Idealize.ShloMosaic Idealize.ShloMosaic.ValueIdx Cert.KernelIdeal

/-- Member `o` of the `j`-th consecutive triple along the leading axis: a row-major reshape
`[n0, a, b] → [m, 3, a, b]`, the slice at offset `o` along the new axis, and the unit axis dropped, read at
`(j, p, q)`, is the operand at `(3 j + o, p, q)`. -/
theorem triple_read {α : Type} {n0 m a b : ℕ} (o : ℕ) (x : (⟨3, ![n0, a, b]⟩ : Shape).Idx → α)
    (h1 : (⟨3, ![n0, a, b]⟩ : Shape).ShapeCasts ⟨4, ![m, 3, a, b]⟩)
    (h2 : (⟨4, ![m, 3, a, b]⟩ : Shape).Slices ![0, o, 0, 0] ⟨4, ![m, 1, a, b]⟩)
    (h3 : (⟨4, ![m, 1, a, b]⟩ : Shape).ShapeCasts ⟨3, ![m, a, b]⟩)
    (j : Fin m) (p : Fin a) (q : Fin b) (k : Fin n0) (hk : k.val = 3 * j.val + o) (ho : o < 3) :
    shapeCast ⟨3, ![m, a, b]⟩ (extractStridedSlice ⟨4, ![m, 1, a, b]⟩ ![0, o, 0, 0]
      (shapeCast ⟨4, ![m, 3, a, b]⟩ x h1) h2) h3 (ix3 j p q) = x (ix3 k p q) := by
  refine (shapeCast_apply _ h3 (ix3 j p q) (ix4 j (0 : Fin 1) p q) ?_).trans ?_
  · rw [Shape.rowMajor_val_four, Shape.rowMajor_val_three]
    show ((j.val * 1 + 0) * a + p.val) * b + q.val = (j.val * a + p.val) * b + q.val
    rw [Nat.mul_one, Nat.add_zero]
  refine (slice4_axis1_apply o _ h2 j (0 : Fin 1) p q (⟨o, ho⟩ : Fin 3) (by show o = o + 0; rw [Nat.add_zero])).trans ?_
  refine shapeCast_apply x h1 _ _ ?_
  rw [Shape.rowMajor_val_four, Shape.rowMajor_val_three]
  show (k.val * a + p.val) * b + q.val = ((j.val * 3 + o) * a + p.val) * b + q.val
  rw [hk, Nat.mul_comm 3 j.val]

/-- One level of the tree carried in the unit domain, as an operation on arrays `[n0, a, b] → [m, a, b]`
(`n0 = 3 m`): the three members of each consecutive triple along the leading axis, gated
`ab + ac + bc - 2abc`. -/
def level {n0 m a b : ℕ} (x : FVec Ideal ⟨3, ![n0, a, b]⟩ .f32)
    (h1 : (⟨3, ![n0, a, b]⟩ : Shape).ShapeCasts ⟨4, ![m, 3, a, b]⟩)
    (h20 : (⟨4, ![m, 3, a, b]⟩ : Shape).Slices ![0, 0, 0, 0] ⟨4, ![m, 1, a, b]⟩)
    (h21 : (⟨4, ![m, 3, a, b]⟩ : Shape).Slices ![0, 1, 0, 0] ⟨4, ![m, 1, a, b]⟩)
    (h22 : (⟨4, ![m, 3, a, b]⟩ : Shape).Slices ![0, 2, 0, 0] ⟨4, ![m, 1, a, b]⟩)
    (h3 : (⟨4, ![m, 1, a, b]⟩ : Shape).ShapeCasts ⟨3, ![m, a, b]⟩) : FVec Ideal ⟨3, ![m, a, b]⟩ .f32 :=
  have r : FVec Ideal ⟨4, ![m, 3, a, b]⟩ .f32 := shapeCast ⟨4, ![m, 3, a, b]⟩ x h1
  have A : FVec Ideal ⟨3, ![m, a, b]⟩ .f32 :=
    shapeCast ⟨3, ![m, a, b]⟩ (extractStridedSlice ⟨4, ![m, 1, a, b]⟩ ![0, 0, 0, 0] r h20) h3
  have B : FVec Ideal ⟨3, ![m, a, b]⟩ .f32 :=
    shapeCast ⟨3, ![m, a, b]⟩ (extractStridedSlice ⟨4, ![m, 1, a, b]⟩ ![0, 1, 0, 0] r h21) h3
  have C : FVec Ideal ⟨3, ![m, a, b]⟩ .f32 :=
    shapeCast ⟨3, ![m, a, b]⟩ (extractStridedSlice ⟨4, ![m, 1, a, b]⟩ ![0, 2, 0, 0] r h22) h3
  subf (addf (addf (mulf A B) (mulf A C)) (mulf B C))
    (mulf (mulf (mulf (broadcast ⟨3, ![m, a, b]⟩ (Scalar.ofBits .f32 0x40000000#32)) A) B) C)

/-- The level read at `(j, p, q)`: the gate of the column's `j`-th triple. -/
theorem level_apply {n0 m a b : ℕ} (x : FVec Ideal ⟨3, ![n0, a, b]⟩ .f32)
    (h1 : (⟨3, ![n0, a, b]⟩ : Shape).ShapeCasts ⟨4, ![m, 3, a, b]⟩)
    (h20 : (⟨4, ![m, 3, a, b]⟩ : Shape).Slices ![0, 0, 0, 0] ⟨4, ![m, 1, a, b]⟩)
    (h21 : (⟨4, ![m, 3, a, b]⟩ : Shape).Slices ![0, 1, 0, 0] ⟨4, ![m, 1, a, b]⟩)
    (h22 : (⟨4, ![m, 3, a, b]⟩ : Shape).Slices ![0, 2, 0, 0] ⟨4, ![m, 1, a, b]⟩)
    (h3 : (⟨4, ![m, 1, a, b]⟩ : Shape).ShapeCasts ⟨3, ![m, a, b]⟩)
    (j : Fin m) (p : Fin a) (q : Fin b) (k0 k1 k2 : Fin n0)
    (hk0 : k0.val = 3 * j.val + 0) (hk1 : k1.val = 3 * j.val + 1) (hk2 : k2.val = 3 * j.val + 2) :
    level x h1 h20 h21 h22 h3 (ix3 j p q)
      = Cert.MajTree.gate (x (ix3 k0 p q)) (x (ix3 k1 p q)) (x (ix3 k2 p q)) := by
  have eA := triple_read 0 x h1 h20 h3 j p q k0 hk0 (by decide)
  have eB := triple_read 1 x h1 h21 h3 j p q k1 hk1 (by decide)
  have eC := triple_read 2 x h1 h22 h3 j p q k2 hk2 (by decide)
  unfold level Cert.MajTree.gate
  rw [← eA, ← eB, ← eC]
  rfl

/-- The 243 × 27 × 512 leaves in the unit domain: `(x0(0, k, l) * x1(k, oc) + 1) * (1/2)`, with the two
factors laid out by reshapes and broadcasts. -/
def leafU (x0 : Vec Ideal S1x243x512 .f32) (x1 : Vec Ideal S243x27 .f32) : FVec Ideal S243x27x512 .f32 :=
  have v1 : FVec Ideal S243x512 .f32 := shapeCast S243x512 x0 Gen.shapeCasts_S1x243x512_S243x512
  have v3 : FVec Ideal S243x27 .f32 := shapeCast S243x27 x1 Gen.shapeCasts_S243x27_S243x27
  have v4 : FVec Ideal S243x1x512 .f32 := shapeCast S243x1x512 v1 Gen.shapeCasts_S243x512_S243x1x512
  have v5 : FVec Ideal S243x27x1 .f32 := shapeCast S243x27x1 v3 Gen.shapeCasts_S243x27_S243x27x1
  have v6 : FVec Ideal S243x27x512 .f32 := broadcastTo S243x27x512 v4 Gen.broadcasts_S243x1x512_S243x27x512
  have v7 : FVec Ideal S243x27x512 .f32 := broadcastTo S243x27x512 v5 Gen.broadcasts_S243x27x1_S243x27x512
  mulf (addf (mulf v6 v7) (broadcast S243x27x512 (Scalar.ofBits .f32 0x3F800000#32)))
    (broadcast S243x27x512 (Scalar.ofBits .f32 0x3F000000#32))

/-- The five levels over the leaves' array. -/
def lev81 (X : FVec Ideal S243x27x512 .f32) : FVec Ideal S81x27x512 .f32 :=
  level X Gen.shapeCasts_S243x27x512_S81x3x27x512 Gen.slices_S81x3x27x512_o0_0_0_0_S81x1x27x512
    Gen.slices_S81x3x27x512_o0_1_0_0_S81x1x27x512 Gen.slices_S81x3x27x512_o0_2_0_0_S81x1x27x512
    Gen.shapeCasts_S81x1x27x512_S81x27x512

def lev27 (X : FVec Ideal S81x27x512 .f32) : FVec Ideal S27x27x512 .f32 :=
  level X Gen.shapeCasts_S81x27x512_S27x3x27x512 Gen.slices_S27x3x27x512_o0_0_0_0_S27x1x27x512
    Gen.slices_S27x3x27x512_o0_1_0_0_S27x1x27x512 Gen.slices_S27x3x27x512_o0_2_0_0_S27x1x27x512
    Gen.shapeCasts_S27x1x27x512_S27x27x512

def lev9 (X : FVec Ideal S27x27x512 .f32) : FVec Ideal S9x27x512 .f32 :=
  level X Gen.shapeCasts_S27x27x512_S9x3x27x512 Gen.slices_S9x3x27x512_o0_0_0_0_S9x1x27x512
    Gen.slices_S9x3x27x512_o0_1_0_0_S9x1x27x512 Gen.slices_S9x3x27x512_o0_2_0_0_S9x1x27x512
    Gen.shapeCasts_S9x1x27x512_S9x27x512

def lev3 (X : FVec Ideal S9x27x512 .f32) : FVec Ideal S3x27x512 .f32 :=
  level X Gen.shapeCasts_S9x27x512_S3x3x27x512 Gen.slices_S3x3x27x512_o0_0_0_0_S3x1x27x512
    Gen.slices_S3x3x27x512_o0_1_0_0_S3x1x27x512 Gen.slices_S3x3x27x512_o0_2_0_0_S3x1x27x512
    Gen.shapeCasts_S3x1x27x512_S3x27x512

def lev1 (X : FVec Ideal S3x27x512 .f32) : FVec Ideal S1x27x512 .f32 :=
  level X Gen.shapeCasts_S3x27x512_S1x3x27x512 Gen.slices_S1x3x27x512_o0_0_0_0_S1x1x27x512
    Gen.slices_S1x3x27x512_o0_1_0_0_S1x1x27x512 Gen.slices_S1x3x27x512_o0_2_0_0_S1x1x27x512
    Gen.shapeCasts_S1x1x27x512_S1x27x512

/-- The root returned to the sign domain, `2 r - 1`, laid out `[1, 27, 512]`. -/
def finish (R : FVec Ideal S1x27x512 .f32) : FVec Ideal S1x27x512 .f32 :=
  shapeCast S1x27x512
    (subf (mulf (broadcast S27x512 (Scalar.ofBits .f32 0x40000000#32)) (shapeCast S27x512 R Gen.shapeCasts_S1x27x512_S27x512))
      (broadcast S27x512 (Scalar.ofBits .f32 0x3F800000#32)))
    Gen.shapeCasts_S27x512_S1x27x512

/-- The first part of the body is the leaves and the two widest levels. -/
theorem pay2_eq (x0 : Vec Ideal S1x243x512 .f32) (x1 : Vec Ideal S243x27 .f32) :
    Gen.k0_pay2 x0 x1
      = shapeCast S9x3x27x512 (lev27 (lev81 (leafU x0 x1))) Gen.shapeCasts_S27x27x512_S9x3x27x512 := rfl

/-- What the body stores is the leaves, the five levels and the return to the sign domain. -/
theorem stored_eq (x0 : Vec Ideal S1x243x512 .f32) (x1 : Vec Ideal S243x27 .f32) :
    Gen.k0_pay1 (Gen.k0_pay4 (Gen.k0_pay2 x0 x1) (Gen.k0_pay3 x0 x1))
      = finish (lev1 (lev3 (lev9 (lev27 (lev81 (leafU x0 x1)))))) := rfl

/-- A leaf read at `(k, oc, l)`. -/
theorem leafU_apply (x0 : Vec Ideal S1x243x512 .f32) (x1 : Vec Ideal S243x27 .f32)
    (k : Fin 243) (oc : Fin 27) (l : Fin 512) :
    leafU x0 x1 (ix3 k oc l)
      = Cert.MajTree.toUnit (x0 (ix3 (0 : Fin 1) k l) * x1 (ix2 k oc)) := by
  have e6 : broadcastTo S243x27x512
      (shapeCast S243x1x512 (shapeCast S243x512 x0 Gen.shapeCasts_S1x243x512_S243x512)
        Gen.shapeCasts_S243x512_S243x1x512) Gen.broadcasts_S243x1x512_S243x27x512 (ix3 k oc l)
      = x0 (ix3 (0 : Fin 1) k l) := by
    refine (broadcastTo_apply _ _ (ix3 k oc l) (ix3 k (0 : Fin 1) l) fun ax => ?_).trans ?_
    · match ax with
      | ⟨0, _⟩ => rfl
      | ⟨1, _⟩ => rfl
      | ⟨2, _⟩ => rfl
    refine (shapeCast_apply _ _ (ix3 k (0 : Fin 1) l) (ix2 k l) ?_).trans ?_
    · rw [Shape.rowMajor_val_three, Shape.rowMajor_val_two]
      show k.val * 512 + l.val = (k.val * 1 + 0) * 512 + l.val
      rw [Nat.mul_one, Nat.add_zero]
    exact shapeCast_1ab_ab_apply x0 _ k l
  have e7 : broadcastTo S243x27x512
      (shapeCast S243x27x1 (shapeCast S243x27 x1 Gen.shapeCasts_S243x27_S243x27)
        Gen.shapeCasts_S243x27_S243x27x1) Gen.broadcasts_S243x27x1_S243x27x512 (ix3 k oc l)
      = x1 (ix2 k oc) := by
    refine (broadcastTo_apply _ _ (ix3 k oc l) (ix3 k oc (0 : Fin 1)) fun ax => ?_).trans ?_
    · match ax with
      | ⟨0, _⟩ => rfl
      | ⟨1, _⟩ => rfl
      | ⟨2, _⟩ => rfl
    refine (shapeCast_apply _ _ (ix3 k oc (0 : Fin 1)) (ix2 k oc) ?_).trans ?_
    · rw [Shape.rowMajor_val_three, Shape.rowMajor_val_two]
      show k.val * 27 + oc.val = (k.val * 27 + oc.val) * 1 + 0
      rw [Nat.mul_one, Nat.add_zero]
    exact shapeCast_apply x1 _ (ix2 k oc) (ix2 k oc) rfl
  unfold leafU Cert.MajTree.toUnit
  rw [← e6, ← e7]
  rfl

/-- Each level read at `(j, oc, l)` is the unit-domain level of the column `k ↦ X(k, oc, l)`. -/
theorem lev81_apply (X : FVec Ideal S243x27x512 .f32) (j : Fin 81) (oc : Fin 27) (l : Fin 512) :
    lev81 X (ix3 j oc l) = Cert.MajTree.levelKer (m := 81) (fun k => X (ix3 k oc l)) j :=
  level_apply X _ _ _ _ _ j oc l (Cert.MajTree.tri j 0) (Cert.MajTree.tri j 1) (Cert.MajTree.tri j 2) rfl rfl rfl

theorem lev27_apply (X : FVec Ideal S81x27x512 .f32) (j : Fin 27) (oc : Fin 27) (l : Fin 512) :
    lev27 X (ix3 j oc l) = Cert.MajTree.levelKer (m := 27) (fun k => X (ix3 k oc l)) j :=
  level_apply X _ _ _ _ _ j oc l (Cert.MajTree.tri j 0) (Cert.MajTree.tri j 1) (Cert.MajTree.tri j 2) rfl rfl rfl

theorem lev9_apply (X : FVec Ideal S27x27x512 .f32) (j : Fin 9) (oc : Fin 27) (l : Fin 512) :
    lev9 X (ix3 j oc l) = Cert.MajTree.levelKer (m := 9) (fun k => X (ix3 k oc l)) j :=
  level_apply X _ _ _ _ _ j oc l (Cert.MajTree.tri j 0) (Cert.MajTree.tri j 1) (Cert.MajTree.tri j 2) rfl rfl rfl

theorem lev3_apply (X : FVec Ideal S9x27x512 .f32) (j : Fin 3) (oc : Fin 27) (l : Fin 512) :
    lev3 X (ix3 j oc l) = Cert.MajTree.levelKer (m := 3) (fun k => X (ix3 k oc l)) j :=
  level_apply X _ _ _ _ _ j oc l (Cert.MajTree.tri j 0) (Cert.MajTree.tri j 1) (Cert.MajTree.tri j 2) rfl rfl rfl

theorem lev1_apply (X : FVec Ideal S3x27x512 .f32) (j : Fin 1) (oc : Fin 27) (l : Fin 512) :
    lev1 X (ix3 j oc l) = Cert.MajTree.levelKer (m := 1) (fun k => X (ix3 k oc l)) j :=
  level_apply X _ _ _ _ _ j oc l (Cert.MajTree.tri j 0) (Cert.MajTree.tri j 1) (Cert.MajTree.tri j 2) rfl rfl rfl

/-- The return to the sign domain read at `(0, oc, l)`. -/
theorem finish_apply (R : FVec Ideal S1x27x512 .f32) (oc : Fin 27) (l : Fin 512) :
    finish R (ix3 (0 : Fin 1) oc l) = Cert.MajTree.fromUnit (R (ix3 (0 : Fin 1) oc l)) := by
  have e := shapeCast_1ab_ab_apply R Gen.shapeCasts_S1x27x512_S27x512 oc l
  unfold finish Cert.MajTree.fromUnit
  refine (shapeCast_ab_1ab_apply _ Gen.shapeCasts_S27x512_S1x27x512 (0 : Fin 1) oc l).trans ?_
  rw [← e]
  rfl

/-- The block the kernel stores, read at `(0, oc, l)`: the tree carried in the unit domain over the 243
products `x0(0, k, l) * x1(k, oc)`. -/
theorem payload_eq (x0 : Vec Ideal S1x243x512 .f32) (x1 : Vec Ideal S243x27 .f32) (oc : Fin 27) (l : Fin 512) :
    Gen.k0_pay1 (Gen.k0_pay4 (Gen.k0_pay2 x0 x1) (Gen.k0_pay3 x0 x1)) (ix3 (0 : Fin 1) oc l)
      = Cert.MajTree.kerTree (fun k => x0 (ix3 (0 : Fin 1) k l) * x1 (ix2 k oc)) := by
  rw [stored_eq, finish_apply, lev1_apply]
  unfold Cert.MajTree.kerTree
  refine congrArg Cert.MajTree.fromUnit ?_
  refine congrArg (fun f => Cert.MajTree.levelKer (m := 1) f 0) ?_
  funext k3
  rw [lev3_apply]
  refine congrArg (fun f => Cert.MajTree.levelKer (m := 3) f k3) ?_
  funext k9
  rw [lev9_apply]
  refine congrArg (fun f => Cert.MajTree.levelKer (m := 9) f k9) ?_
  funext k27
  rw [lev27_apply]
  refine congrArg (fun f => Cert.MajTree.levelKer (m := 27) f k27) ?_
  funext k81
  rw [lev81_apply]
  refine congrArg (fun f => Cert.MajTree.levelKer (m := 81) f k81) ?_
  funext k
  exact leafU_apply x0 x1 k oc l

end Cert.KerTree

end
-- ==== Proof.KernelValue.lean ====
/-
  From the blocks the grid points write back to the whole result array.

  Grid point t = (n, lt) handles image n and lane tile lt.  Its patches block is rows (n, *, 512 lt + *) of
  the patches array, its weights block the whole K-major weights array, and the block it writes back is
  rows (n, *, 512 lt + *) of the result.  Entry (0, oc, l) of the value the body stores is the gate tree,
  walked in the unit domain, over the 243 products patches(n, k, 512 lt + l) * weightsT(k, oc).  The sixteen
  output blocks tile the result array [8, 27, 1024], so the array ends holding that tree at every entry.
-/
import proofs.«106421_j67250597921090_2_alg».proof.Proof.KernelIdealFrame
import proofs.«106421_j67250597921090_2_alg».proof.Proof.KerTree
import proofs.«106421_j67250597921090_2_alg».proof.Proof.Spec
import Idealize.ShloMosaic.Lib.Pipeline.Value
import Idealize.ShloMosaic.Lib.ValueIdx

set_option maxRecDepth 16384

noncomputable section

namespace Cert.KernelIdeal.Conv

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result array [8, 27, 1024] as a function of the patches [8, 243, 1024] and the K-major weights [243, 27]:
    the tree walked in the unit domain over the products patches(n, k, l) * weightsT(k, oc). -/
def convArray (P : S8x243x1024.Idx → EReal) (Wt : S243x27.Idx → EReal) : S8x27x1024.Idx → EReal :=
  fun i => Cert.MajTree.kerTree (fun k => P (ix3 (i 0) k (i 2)) * Wt (ix2 k (i 1)))

theorem zero3 : (![0, 0, 0] : Fin 3 → Nat) = fun _ => 0 := funext fun a => by fin_cases a <;> rfl
theorem zero2 : (![0, 0] : Fin 2 → Nat) = fun _ => 0 := funext fun a => by fin_cases a <;> rfl

/-- The value the body stores, at entry (0, oc, l), from the two blocks as loaded. -/
theorem blockValue_apply (x0 : Vec Ideal S1x243x512 .f32) (x1 : Vec Ideal S243x27 .f32) (oc : Fin 27) (l : Fin 512) :
    blockValue x0 x1 (ix3 (0 : Fin 1) oc l) = Cert.MajTree.kerTree (fun k => x0 (ix3 (0 : Fin 1) k l) * x1 (ix2 k oc)) := by
  unfold blockValue
  simp only [View.ld_unit_zero (S := S1x243x512) zero3, View.ld_unit_zero (S := S243x27) zero2]
  exact Cert.KerTree.payload_eq x0 x1 oc l

/-- How the three windows move over the grid: the patches and the result blocks share the image and the lane
    tile; the weights block never moves; the middle index of both three-axis windows is 0. -/
theorem index_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 2) = 0 ∧ win0_1.index t (1 : Fin 2) = 0
    ∧ win0_2.index t (1 : Fin 3) = 0 ∧ win0_2.index t (0 : Fin 3) ≤ 7 ∧ win0_2.index t (2 : Fin 3) ≤ 1 :=
  (by decide +kernel : ∀ t : Fin grid0.N, _)

/-- Every (image, lane tile) pair is some grid point's. -/
theorem index_onto : ∀ (q0 : Fin 8) (q2 : Fin 2), ∃ t : Fin cfg0.N, win0_2.index t = ![q0.val, 0, q2.val] :=
  (by decide +kernel : ∀ (q0 : Fin 8) (q2 : Fin 2), ∃ t : Fin grid0.N, win0_2.index t = ![q0.val, 0, q2.val])

/-- A block of a window, read at a block coordinate, is the array at block index times block size plus the
    coordinate, axis by axis.  For the patches window at point `t`: -/
theorem patches_block_apply (c : Dev nD) (t : Fin cfg0.N) (k : Fin 243) (l : Fin 512) :
    blockAt m c 0 t (ix3 (0 : Fin 1) k l)
      = (entry m c main_v20 : S8x243x1024.Idx → EReal)
          (ix3 ⟨win0_2.index t (0 : Fin 3), by have := (index_facts t).2.2.2.2.2.2.1; omega⟩ k
            ⟨win0_2.index t (2 : Fin 3) * 512 + l.val, by have := (index_facts t).2.2.2.2.2.2.2; have := l.isLt; omega⟩) := by
  obtain ⟨e0, e1, e2, -, -, -, -, -⟩ := index_facts t
  show entry m c main_v20 (((cfg0.win 0).blk t).view.emb (ix3 (0 : Fin 1) k l)) = _
  refine congrArg (entry m c main_v20 : S8x243x1024.Idx → EReal) ?_
  funext a; apply Fin.ext
  match a with
  | ⟨0, _⟩ => show win0_0.index t (0 : Fin 3) * 1 + 1 * 0 = win0_2.index t (0 : Fin 3); omega
  | ⟨1, _⟩ => show win0_0.index t (1 : Fin 3) * 243 + 1 * k.val = k.val; omega
  | ⟨2, _⟩ => show win0_0.index t (2 : Fin 3) * 512 + 1 * l.val = win0_2.index t (2 : Fin 3) * 512 + l.val; omega

/-- The weights window's block is the whole weights array at every point. -/
theorem weights_block_apply (c : Dev nD) (t : Fin cfg0.N) (k : Fin 243) (oc : Fin 27) :
    blockAt m c 1 t (ix2 k oc) = (entry m c main_v22 : S243x27.Idx → EReal) (ix2 k oc) := by
  obtain ⟨-, -, -, e3, e4, -, -, -⟩ := index_facts t
  show entry m c main_v22 (((cfg0.win 1).blk t).view.emb (ix2 k oc)) = _
  refine congrArg (entry m c main_v22 : S243x27.Idx → EReal) ?_
  funext a; apply Fin.ext
  match a with
  | ⟨0, _⟩ => show win0_1.index t (0 : Fin 2) * 243 + 1 * k.val = k.val; omega
  | ⟨1, _⟩ => show win0_1.index t (1 : Fin 2) * 27 + 1 * oc.val = oc.val; omega

/-- WHAT POINT `t` WRITES BACK is block `t` of `convArray` of the patches and the K-major weights as the region
    finds them. -/
theorem flushed_eq (c : Dev nD) (t : Fin cfg0.N) :
    (convDat m 0 c).flushed 2 t
      = ((cfg0.win 2).blk t).view.read (Elt Ideal) (convArray (entry m c main_v20) (entry m c main_v22)) := by
  show (cfg0.win 2).cut (grid0.coords t) ((convDat m 0 c).after 2 t) = _
  rw [after_out]
  unfold blockOut
  rw [View.canon_unit_zero zero3]
  funext j
  obtain ⟨u, oc, l, rfl⟩ : ∃ (u : Fin 1) (oc : Fin 27) (l : Fin 512), j = ix3 u oc l := ⟨j 0, j 1, j 2, eq_ix3 j⟩
  obtain rfl : u = 0 := Subsingleton.elim _ _
  refine (blockValue_apply (blockAt m c 0 t) (blockAt m c 1 t) oc l).trans ?_
  obtain ⟨-, -, -, -, -, e5, e6, e7⟩ := index_facts t
  show _ = convArray (entry m c main_v20) (entry m c main_v22) (((cfg0.win 2).blk t).view.emb (ix3 (0 : Fin 1) oc l))
  have hemb : ((cfg0.win 2).blk t).view.emb (ix3 (0 : Fin 1) oc l)
      = (ix3 ⟨win0_2.index t (0 : Fin 3), by omega⟩ oc ⟨win0_2.index t (2 : Fin 3) * 512 + l.val, by have := l.isLt; omega⟩ : S8x27x1024.Idx) := by
    funext a; apply Fin.ext
    match a with
    | ⟨0, _⟩ => show win0_2.index t (0 : Fin 3) * 1 + 1 * 0 = win0_2.index t (0 : Fin 3); omega
    | ⟨1, _⟩ => show win0_2.index t (1 : Fin 3) * 27 + 1 * oc.val = oc.val; omega
    | ⟨2, _⟩ => show win0_2.index t (2 : Fin 3) * 512 + 1 * l.val = win0_2.index t (2 : Fin 3) * 512 + l.val; omega
  rw [hemb]
  unfold convArray
  refine congrArg Cert.MajTree.kerTree (funext fun k => ?_)
  rw [patches_block_apply m c t k l, weights_block_apply m c t k oc]

/-- An index of the result array is in point `t`'s block iff each coordinate is in the block's range on its axis. -/
theorem mem_block (t : Fin cfg0.N) (i : S8x27x1024.Idx) :
    i ∈ ((cfg0.win 2).blk t).view.set ↔ ∀ a : Fin 3, win0_2.index t a * S1x27x512.size a ≤ (i a).val
      ∧ (i a).val < win0_2.index t a * S1x27x512.size a + S1x27x512.size a := by
  show i ∈ ((View.whole main_v23).slice (win0_2.rect t)).set ↔ _
  rw [View.set_slice_whole, Rect.mem_set_unit]
  exact Iff.rfl

/-- Entry (n, oc, l) of the result array lies in the block of the point (n, l / 512): the sixteen blocks cover it. -/
theorem covered (i : S8x27x1024.Idx) :
    ∃ t : Fin cfg0.N, (cfg0.win 2).flush t = true ∧ i ∈ ((cfg0.win 2).blk t).view.set := by
  have hi0 : (i 0).val < 8 := (i 0).isLt
  have hi1 : (i 1).val < 27 := (i 1).isLt
  have hi2 : (i 2).val < 1024 := (i 2).isLt
  obtain ⟨t, ht⟩ := index_onto ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 27 ≤ (i 1).val ∧ (i 1).val < win0_2.index t (1 : Fin 3) * 27 + 27; omega
  | ⟨2, _⟩ => show win0_2.index t (2 : Fin 3) * 512 ≤ (i 2).val ∧ (i 2).val < win0_2.index t (2 : Fin 3) * 512 + 512; omega

/-- THE RESULT ARRAY after the run: `convArray` of the patches and the K-major weights as the region finds them. -/
theorem result_array (c : Dev nD) :
    (convDat m 0 c).arrAt 2 cfg0.N = convArray (entry m c main_v20) (entry m c main_v22) :=
  (convDat m 0 c).arrAt_eq_of_cover 2 _ (fun t _ => flushed_eq m c t) covered

/-- The program's run at the extended reals, with the result named: the reshape of `convArray`. -/
theorem run_conv : θ_run defs (onTc (τ := τ) (main (F := Ideal))) ⟨m, fun _ => 0, ρ⟩ (fun r => ∀ c : Dev nD,
      r.2.mem ((c.tc : Thread nD τ).loc main_v24)
        = (shapeCast S8x27x32x32 (convArray (entry m c main_v20) (entry m c main_v22)) shapeCasts_S8x27x1024_S8x27x32x32 : S8x27x32x32.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [result_array m c]), (h c).2⟩) (run_result m ρ)

end Cert.KernelIdeal.Conv

end
-- ==== Proof.LibRealSums.lean ====
/-
  Finite sums of real numbers inside the extended reals.

  Multiplication does not distribute over addition on the extended reals (⊤ + ⊥ is ⊥, so (⊤ + ⊥) · (−1) is ⊤ while
  ⊤ · (−1) + ⊥ · (−1) is ⊥), but it does on the reals embedded in them. An extended real is called real here when it
  is the image of a real number. Reals are closed under finite sums and under products, a finite sum of reals is
  the image of the real sum, and a real factor distributes over a finite sum of reals (sum_mul_of_isReal).

  The last lemma is the law a message-passing aggregation needs: scaling every message by the receiving node's own
  factor before summing, or scaling the sum afterwards, gives the same number, provided the messages and the
  factor are real (scaled_sum_eq).
-/
import Mathlib.Data.EReal.Basic
import Mathlib.Data.EReal.Operations
import Mathlib.Algebra.BigOperators.Ring.Finset

open scoped BigOperators

namespace Cert.RealSums

/-- An extended real that is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A real extended real is the image of its own real part. -/
theorem IsReal.eq_coe_toReal {x : EReal} (hx : IsReal x) : x = ((x.toReal : ℝ) : EReal) := by
  obtain ⟨a, rfl⟩ := hx
  rw [EReal.toReal_coe]

/-- The image of a finite real sum is the sum of the images. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (a : ι → EReal) (ha : ∀ i ∈ s, IsReal (a i)) : IsReal (∑ i ∈ s, a i) := by
  refine ⟨∑ i ∈ s, (a i).toReal, ?_⟩
  rw [← coe_sum]
  exact Finset.sum_congr rfl fun i hi => (ha i hi).eq_coe_toReal

/-- A real factor distributes over a finite sum of reals. -/
theorem sum_mul_of_isReal {ι : Type*} (s : Finset ι) (a : ι → EReal) (k : EReal)
    (ha : ∀ i ∈ s, IsReal (a i)) (hk : IsReal k) : (∑ i ∈ s, a i) * k = ∑ i ∈ s, a i * k := by
  obtain ⟨r, rfl⟩ := hk
  have h1 : ∑ i ∈ s, a i = ((∑ i ∈ s, (a i).toReal : ℝ) : EReal) := by
    rw [← coe_sum]
    exact Finset.sum_congr rfl fun i hi => (ha i hi).eq_coe_toReal
  have h2 : ∑ i ∈ s, a i * (r : EReal) = ((∑ i ∈ s, (a i).toReal * r : ℝ) : EReal) := by
    rw [← coe_sum]
    refine Finset.sum_congr rfl fun i hi => ?_
    rw [EReal.coe_mul, ← (ha i hi).eq_coe_toReal]
  rw [h1, h2, ← EReal.coe_mul, Finset.sum_mul]

/-- SCALING AFTER OR BEFORE THE SUM. Over a finite set of messages e, each a real value h e times a real sender factor
    s e: the sum scaled by the receiver's real factor k is the sum of the messages each scaled by s e · t e, whenever t e
    is k on the set. (Both sums start from zero, as an accumulating scatter into a zero array does.) -/
theorem scaled_sum_eq {ι : Type*} (S : Finset ι) (h s t : ι → EReal) (k : EReal)
    (hh : ∀ e ∈ S, IsReal (h e)) (hs : ∀ e ∈ S, IsReal (s e)) (ht : ∀ e ∈ S, t e = k) (hk : IsReal k) :
    (0 + ∑ e ∈ S, h e * s e) * k = 0 + ∑ e ∈ S, h e * (s e * t e) := by
  rw [zero_add, zero_add, sum_mul_of_isReal S (fun e => h e * s e) k (fun e he => (hh e he).mul (hs e he)) hk]
  refine Finset.sum_congr rfl fun e he => ?_
  obtain ⟨a, ha⟩ := hh e he
  obtain ⟨b, hb⟩ := hs e he
  obtain ⟨r, hr⟩ := hk
  show h e * s e * k = h e * (s e * t e)
  rw [ht e he, ha, hb, hr, ← EReal.coe_mul, ← EReal.coe_mul, ← EReal.coe_mul, ← EReal.coe_mul, mul_assoc]

end Cert.RealSums
-- ==== Proof.LibBatchNorm.lean ====
/-
  Batch normalisation on the extended reals.

  A column y of real numbers, indexed by a finite set s of m = |s| rows, has the mean μ = (Σ y) / m. Its variance can
  be written as the mean of the squares minus the square of the mean, (Σ y²) / m − μ², or as the mean of the squared
  deviations, (Σ (y − μ)²) / m. On the real numbers the two agree (expand the square: Σ (y − μ)² = Σ y² − 2 μ Σ y + m μ²
  and Σ y = m μ). On the extended reals subtraction and multiplication do not obey the ring laws at the infinities, so
  the identity is stated for columns whose entries are images of real numbers and is proved by moving to the reals.

  The second half carries finiteness through one normalisation layer: sums, differences, products and quotients by a
  nonzero real of reals are real; the variance is a real number that is not negative, so the variance plus a positive
  real is positive and its reciprocal square root is real; hence the normalised, scaled, shifted and rectified entry
  is real. A finite sum of reals divided by the larger of a real count and one is real as well.

  The last part is about a sum accumulated step by step: an accumulator that starts from zero plus the first term and
  adds one term at each further step holds the sum of the terms so far.
-/
import Idealize.ShloMosaic.PureOps.Ideal
import Idealize.ShloMosaic.PureOps.Ideal.Laws
import Idealize.ShloMosaic.Lib.ValueIdx
import proofs.«106421_j67250597921090_2_alg».proof.Proof.LibRealSums

open scoped BigOperators
open Idealize.ShloMosaic Cert.RealSums

namespace Cert.BatchNorm

/-! ### Reals are closed under the operations of a normalisation layer -/

/-- The negative of a real is real. -/
theorem isReal_neg {x : EReal} (hx : IsReal x) : IsReal (-x) := by
  obtain ⟨a, rfl⟩ := hx
  exact ⟨-a, (EReal.coe_neg a).symm⟩

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real. -/
theorem isReal_max {x y : EReal} (hx : IsReal x) (hy : IsReal y) : IsReal (max x y) := by
  rcases max_choice x y with h | h <;> rw [h] <;> assumption

/-- The quotient of a real a by a nonzero real m is the image of the real quotient a / m. -/
theorem div_coe_coe (a : ℝ) {m : ℝ} (hm : m ≠ 0) : Ideal.div (a : EReal) (m : EReal) = ((a / m : ℝ) : EReal) := by
  rw [Ideal.div_coe hm, ← EReal.coe_mul, mul_one_div]

/-- The quotient of a real by a nonzero real number is real. -/
theorem isReal_div_coe {x : EReal} (hx : IsReal x) {m : ℝ} (hm : m ≠ 0) : IsReal (Ideal.div x (m : EReal)) := by
  obtain ⟨a, rfl⟩ := hx
  exact ⟨a / m, div_coe_coe a hm⟩

/-- The quotient of a real by a real that is not zero is real. -/
theorem isReal_div {x d : EReal} (hx : IsReal x) (hd : IsReal d) (hd0 : d ≠ 0) : IsReal (Ideal.div x d) := by
  obtain ⟨m, rfl⟩ := hd
  exact isReal_div_coe hx (by intro h; exact hd0 (by rw [h, EReal.coe_zero]))

/-- A finite sum of reals is the image of the sum of their real parts. -/
theorem sum_eq_coe {ι : Type*} (s : Finset ι) (y : ι → EReal) (hy : ∀ r ∈ s, IsReal (y r)) :
    ∑ r ∈ s, y r = ((∑ r ∈ s, (y r).toReal : ℝ) : EReal) := by
  rw [← coe_sum]
  exact Finset.sum_congr rfl fun r hr => (hy r hr).eq_coe_toReal

/-- The mean of a finite family of reals over a nonzero real count is the image of the real mean. -/
theorem mean_eq_coe {ι : Type*} (s : Finset ι) (y : ι → EReal) (hy : ∀ r ∈ s, IsReal (y r)) {m : ℝ} (hm0 : m ≠ 0) :
    Ideal.div (∑ r ∈ s, y r) (m : EReal) = (((∑ r ∈ s, (y r).toReal) / m : ℝ) : EReal) := by
  rw [sum_eq_coe s y hy, div_coe_coe _ hm0]

/-! ### The two forms of the variance -/

/-- The mean of the squared deviations from the mean, of a finite family of reals, is the image of the same expression
    over the real numbers. -/
theorem varDev_eq_coe {ι : Type*} (s : Finset ι) (y : ι → EReal) (hy : ∀ r ∈ s, IsReal (y r)) {m : ℝ} (hm0 : m ≠ 0) :
    Ideal.div (∑ r ∈ s, (y r - Ideal.div (∑ r ∈ s, y r) (m : EReal)) * (y r - Ideal.div (∑ r ∈ s, y r) (m : EReal)))
        (m : EReal)
      = (((∑ r ∈ s, ((y r).toReal - (∑ r ∈ s, (y r).toReal) / m) * ((y r).toReal - (∑ r ∈ s, (y r).toReal) / m)) / m : ℝ)
          : EReal) := by
  rw [mean_eq_coe s y hy hm0]
  have h : ∑ r ∈ s, (y r - (((∑ r ∈ s, (y r).toReal) / m : ℝ) : EReal)) * (y r - (((∑ r ∈ s, (y r).toReal) / m : ℝ) : EReal))
      = ((∑ r ∈ s, ((y r).toReal - (∑ r ∈ s, (y r).toReal) / m) * ((y r).toReal - (∑ r ∈ s, (y r).toReal) / m) : ℝ)
          : EReal) := by
    rw [← coe_sum]
    refine Finset.sum_congr rfl fun r hr => ?_
    rw [EReal.coe_mul, EReal.coe_sub, ← (hy r hr).eq_coe_toReal]
  rw [h, div_coe_coe _ hm0]

/-- The mean of the squares minus the square of the mean, of a finite family of reals, is the image of the same
    expression over the real numbers. -/
theorem varSq_eq_coe {ι : Type*} (s : Finset ι) (y : ι → EReal) (hy : ∀ r ∈ s, IsReal (y r)) {m : ℝ} (hm0 : m ≠ 0) :
    Ideal.div (∑ r ∈ s, y r * y r) (m : EReal)
        - Ideal.div (∑ r ∈ s, y r) (m : EReal) * Ideal.div (∑ r ∈ s, y r) (m : EReal)
      = (((∑ r ∈ s, (y r).toReal * (y r).toReal) / m
            - (∑ r ∈ s, (y r).toReal) / m * ((∑ r ∈ s, (y r).toReal) / m) : ℝ) : EReal) := by
  rw [mean_eq_coe s y hy hm0]
  have h : ∑ r ∈ s, y r * y r = ((∑ r ∈ s, (y r).toReal * (y r).toReal : ℝ) : EReal) := by
    rw [← coe_sum]
    refine Finset.sum_congr rfl fun r hr => ?_
    rw [EReal.coe_mul, ← (hy r hr).eq_coe_toReal]
  rw [h, div_coe_coe _ hm0, EReal.coe_sub, EReal.coe_mul]

/-- Over the real numbers: the mean of the squares minus the square of the mean is the mean of the squared deviations,
    for a family indexed by a finite set of m ≠ 0 elements. -/
theorem real_var_eq {ι : Type*} (s : Finset ι) (x : ι → ℝ) {m : ℝ} (hm : m = (s.card : ℝ)) (hm0 : m ≠ 0) :
    (∑ r ∈ s, x r * x r) / m - (∑ r ∈ s, x r) / m * ((∑ r ∈ s, x r) / m)
      = (∑ r ∈ s, (x r - (∑ r ∈ s, x r) / m) * (x r - (∑ r ∈ s, x r) / m)) / m := by
  have hsum : ∀ c : ℝ, ∑ r ∈ s, (x r - c) * (x r - c)
      = (∑ r ∈ s, x r * x r) - 2 * c * (∑ r ∈ s, x r) + (s.card : ℝ) * (c * c) := by
    intro c
    have : ∀ r, (x r - c) * (x r - c) = x r * x r - 2 * c * x r + c * c := fun r => by ring
    simp only [this, Finset.sum_add_distrib, Finset.sum_sub_distrib, ← Finset.mul_sum, Finset.sum_const, nsmul_eq_mul]
    ring
  rw [hsum, ← hm]
  field_simp
  ring

/-- THE TWO VARIANCES AGREE. For a family of reals over a finite set s of m = |s| ≠ 0 rows, the mean of the squares
    minus the square of the mean equals the mean of the squared deviations from the mean, all operations being those of
    the extended reals. -/
theorem var_eq_finset {ι : Type*} (s : Finset ι) (y : ι → EReal) (hy : ∀ r ∈ s, IsReal (y r)) {m : ℝ}
    (hm : m = (s.card : ℝ)) (hm0 : m ≠ 0) :
    Ideal.div (∑ r ∈ s, y r * y r) (m : EReal)
        - Ideal.div (∑ r ∈ s, y r) (m : EReal) * Ideal.div (∑ r ∈ s, y r) (m : EReal)
      = Ideal.div (∑ r ∈ s, (y r - Ideal.div (∑ r ∈ s, y r) (m : EReal)) * (y r - Ideal.div (∑ r ∈ s, y r) (m : EReal)))
          (m : EReal) := by
  rw [varSq_eq_coe s y hy hm0, varDev_eq_coe s y hy hm0, real_var_eq s (fun r => (y r).toReal) hm hm0]

/-- The two variances agree, for a family indexed by a whole finite type of m ≠ 0 elements. -/
theorem var_eq {ι : Type*} [Fintype ι] (y : ι → EReal) (hy : ∀ r, IsReal (y r)) {m : ℝ}
    (hm : m = (Fintype.card ι : ℝ)) (hm0 : m ≠ 0) :
    Ideal.div (∑ r, y r * y r) (m : EReal) - Ideal.div (∑ r, y r) (m : EReal) * Ideal.div (∑ r, y r) (m : EReal)
      = Ideal.div (∑ r, (y r - Ideal.div (∑ r, y r) (m : EReal)) * (y r - Ideal.div (∑ r, y r) (m : EReal))) (m : EReal) :=
  var_eq_finset Finset.univ y (fun r _ => hy r) (by rw [hm, Finset.card_univ]) hm0

/-- The mean of the squared deviations of a family of reals over a positive real count is a real number that is not
    negative. -/
theorem varDev_nonneg {ι : Type*} (s : Finset ι) (y : ι → EReal) (hy : ∀ r ∈ s, IsReal (y r)) {m : ℝ} (hm0 : 0 < m) :
    ∃ v : ℝ, 0 ≤ v ∧
      Ideal.div (∑ r ∈ s, (y r - Ideal.div (∑ r ∈ s, y r) (m : EReal)) * (y r - Ideal.div (∑ r ∈ s, y r) (m : EReal)))
        (m : EReal) = (v : EReal) :=
  ⟨_, div_nonneg (Finset.sum_nonneg fun r _ => mul_self_nonneg _) hm0.le, varDev_eq_coe s y hy hm0.ne'⟩

/-- The mean of the squares minus the square of the mean, of a family of reals over a finite set of m = |s| > 0 rows, is
    a real number that is not negative. -/
theorem varSq_nonneg {ι : Type*} (s : Finset ι) (y : ι → EReal) (hy : ∀ r ∈ s, IsReal (y r)) {m : ℝ}
    (hm : m = (s.card : ℝ)) (hm0 : 0 < m) :
    ∃ v : ℝ, 0 ≤ v ∧
      Ideal.div (∑ r ∈ s, y r * y r) (m : EReal)
        - Ideal.div (∑ r ∈ s, y r) (m : EReal) * Ideal.div (∑ r ∈ s, y r) (m : EReal) = (v : EReal) := by
  rw [var_eq_finset s y hy hm hm0.ne']
  exact varDev_nonneg s y hy hm0

/-! ### The reciprocal square root of the variance plus a positive real -/

/-- The reciprocal square root of a positive real is the image of the real reciprocal square root. -/
theorem rsqrt_coe_of_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_of_pos {v : ℝ} (hv : 0 < v) : IsReal (Ideal.rsqrt (v : EReal)) :=
  ⟨_, rsqrt_coe_of_pos hv⟩

/-- The reciprocal square root of a real that is not negative plus a positive real is real. -/
theorem isReal_rsqrt_add {v e : ℝ} (hv : 0 ≤ v) (he : 0 < e) : IsReal (Ideal.rsqrt ((v : EReal) + (e : EReal))) := by
  rw [← EReal.coe_add]
  exact isReal_rsqrt_of_pos (add_pos_of_nonneg_of_pos hv he)

/-- The reciprocal square root of (mean of squares − square of the mean) + ε is real, for a family of reals over a
    finite set of m = |s| > 0 rows and a positive real ε. -/
theorem isReal_rsqrt_varSq_add {ι : Type*} (s : Finset ι) (y : ι → EReal) (hy : ∀ r ∈ s, IsReal (y r)) {m : ℝ}
    (hm : m = (s.card : ℝ)) (hm0 : 0 < m) {e : ℝ} (he : 0 < e) :
    IsReal (Ideal.rsqrt (Ideal.div (∑ r ∈ s, y r * y r) (m : EReal)
        - Ideal.div (∑ r ∈ s, y r) (m : EReal) * Ideal.div (∑ r ∈ s, y r) (m : EReal) + (e : EReal))) := by
  obtain ⟨v, hv, h⟩ := varSq_nonneg s y hy hm hm0
  rw [h]
  exact isReal_rsqrt_add hv he

/-- The reciprocal square root of (mean of the squared deviations) + ε is real, for a family of reals over a positive
    real count and a positive real ε. -/
theorem isReal_rsqrt_varDev_add {ι : Type*} (s : Finset ι) (y : ι → EReal) (hy : ∀ r ∈ s, IsReal (y r)) {m : ℝ}
    (hm0 : 0 < m) {e : ℝ} (he : 0 < e) :
    IsReal (Ideal.rsqrt (Ideal.div (∑ r ∈ s, (y r - Ideal.div (∑ r ∈ s, y r) (m : EReal))
        * (y r - Ideal.div (∑ r ∈ s, y r) (m : EReal))) (m : EReal) + (e : EReal))) := by
  obtain ⟨v, hv, h⟩ := varDev_nonneg s y hy hm0
  rw [h]
  exact isReal_rsqrt_add hv he

/-! ### The rectified output -/

/-- A selection on the comparison z ≥ 0 is a case distinction on 0 ≤ z. -/
theorem select_cmp_oge_zero {α : Type} (z : EReal) (a b : α) :
    Scalar.select (Ideal.cmp .oge z 0) a b = if 0 ≤ z then a else b := by
  by_cases h : (0 : EReal) ≤ z
  · rw [if_pos h]
    have : Ideal.cmp .oge z 0 = 1#1 := by simp [Ideal.cmp, h]
    rw [this]; exact if_pos rfl
  · rw [if_neg h]
    have : Ideal.cmp .oge z 0 = 0#1 := by simp [Ideal.cmp, h]
    rw [this]; exact if_neg (by decide)

/-- A selection between two reals is real, whatever the condition. -/
theorem isReal_select (c : BitVec 1) {a b : EReal} (ha : IsReal a) (hb : IsReal b) : IsReal (Scalar.select c a b) := by
  unfold Scalar.select
  split <;> assumption

/-- The leaky rectifier of a real with a real slope is real: z where z ≥ 0, slope · z elsewhere. -/
theorem isReal_prelu {z a : EReal} (hz : IsReal z) (ha : IsReal a) :
    IsReal (Scalar.select (Ideal.cmp .oge z 0) z (a * z)) :=
  isReal_select _ hz (ha.mul hz)

/-- The normalised, scaled and shifted entry (y − μ) · ρ · γ + β is real when its five constituents are. -/
theorem isReal_affine {y μ ρ γ β : EReal} (hy : IsReal y) (hμ : IsReal μ) (hρ : IsReal ρ) (hγ : IsReal γ)
    (hβ : IsReal β) : IsReal ((y - μ) * ρ * γ + β) :=
  (((isReal_sub hy hμ).mul hρ).mul hγ).add hβ

/-- The output of a normalisation layer with a leaky rectifier, prelu ((y − μ) · ρ · γ + β), is real when its
    constituents and the slope are. -/
theorem isReal_bn_prelu {y μ ρ γ β a : EReal} (hy : IsReal y) (hμ : IsReal μ) (hρ : IsReal ρ) (hγ : IsReal γ)
    (hβ : IsReal β) (ha : IsReal a) :
    IsReal (Scalar.select (Ideal.cmp .oge ((y - μ) * ρ * γ + β) 0) ((y - μ) * ρ * γ + β) (a * ((y - μ) * ρ * γ + β))) :=
  isReal_prelu (isReal_affine hy hμ hρ hγ hβ) ha

/-! ### A sum of reals divided by a count that is at least one -/

/-- A finite sum of reals divided by the larger of a real count and one is real. -/
theorem isReal_sum_div_max_one {ι : Type*} (s : Finset ι) (a : ι → EReal) (ha : ∀ i ∈ s, IsReal (a i)) {c : EReal}
    (hc : IsReal c) : IsReal (Ideal.div (∑ i ∈ s, a i) (max c 1)) := by
  refine isReal_div (isReal_sum s a ha) (isReal_max hc isReal_one) ?_
  exact (lt_of_lt_of_le zero_lt_one (le_max_right c 1)).ne'

/-- A real divided by the larger of a real count and one is real. -/
theorem isReal_div_max_one {x c : EReal} (hx : IsReal x) (hc : IsReal c) : IsReal (Ideal.div x (max c 1)) :=
  isReal_div hx (isReal_max hc isReal_one) (lt_of_lt_of_le zero_lt_one (le_max_right c 1)).ne'

/-! ### A sum accumulated step by step -/

/-- An accumulator that holds zero plus the first term after step 0 and adds the next term at every further step below
    N holds, after step n < N, the sum of the terms 0 … n. -/
theorem acc_eq_sum_range {β : Type*} [AddCommMonoid β] (acc g : ℕ → β) (N : ℕ) (h0 : acc 0 = 0 + g 0)
    (hs : ∀ n, n + 1 < N → acc (n + 1) = acc n + g (n + 1)) :
    ∀ n, n < N → acc n = ∑ t ∈ Finset.range (n + 1), g t := by
  intro n
  induction n with
  | zero => intro _; rw [h0, zero_add, Finset.sum_range_one]
  | succ k ih =>
    intro hk
    rw [hs k hk, ih (Nat.lt_of_succ_lt hk), Finset.sum_range_succ _ (k + 1)]

/-- After the last of N > 0 steps the accumulator holds the sum of all N terms. -/
theorem acc_last_eq_sum {β : Type*} [AddCommMonoid β] (acc g : ℕ → β) (N : ℕ) (hN : 0 < N) (h0 : acc 0 = 0 + g 0)
    (hs : ∀ n, n + 1 < N → acc (n + 1) = acc n + g (n + 1)) :
    acc (N - 1) = ∑ t ∈ Finset.range N, g t := by
  rw [acc_eq_sum_range acc g N h0 hs (N - 1) (Nat.sub_lt hN Nat.one_pos), Nat.sub_add_cancel hN]

/-- The same for an accumulator of extended reals whose first step adds the first term to the single-precision zero
    pattern, which denotes zero. -/
theorem acc_eq_sum_range_f32 (acc g : ℕ → EReal) (N : ℕ) (h0 : acc 0 = Ideal.ofBits .f32 0x00000000#32 + g 0)
    (hs : ∀ n, n + 1 < N → acc (n + 1) = acc n + g (n + 1)) :
    ∀ n, n < N → acc n = ∑ t ∈ Finset.range (n + 1), g t :=
  acc_eq_sum_range acc g N (by rw [h0, Ideal.ofBits_zero_f32]) hs

end Cert.BatchNorm
-- ==== Proof.LibConsts.lean ====
/-
  The single-precision constants of a normalisation network, as real numbers.

  A single-precision pattern with sign 0, exponent field E (neither 0 nor 255) and fraction field T denotes the real
  (2²³ + T) · 2^(E − 150). The patterns below are the counts 600000, 50000 and 32, the numbers 0.5 and (in the library
  already) 0 and 1, and the pattern nearest to 10⁻⁵, which is 10995116 / 2⁴⁰, a positive real. The pattern with exponent
  field 255 and fraction field 0 denotes +∞.
-/
import Idealize.ShloMosaic.PureOps.Ideal
import Idealize.ShloMosaic.PureOps.Ideal.Laws

open Idealize.ShloMosaic

namespace Cert.BatchNorm.Consts

/-- The single-precision pattern 0x49127C00 denotes the real 600000. -/
theorem ofBits_600000 : Ideal.ofBits .f32 0x49127C00#32 = ((600000 : ℝ) : EReal) := by
  simp [Ideal.ofBits, Ideal.ieee, -EReal.coe_mul]; norm_num

/-- The single-precision pattern 0x47435000 denotes the real 50000. -/
theorem ofBits_50000 : Ideal.ofBits .f32 0x47435000#32 = ((50000 : ℝ) : EReal) := by
  simp [Ideal.ofBits, Ideal.ieee, -EReal.coe_mul]; norm_num

/-- The single-precision pattern 0x42000000 denotes the real 32. -/
theorem ofBits_32 : Ideal.ofBits .f32 0x42000000#32 = ((32 : ℝ) : EReal) := by
  simp [Ideal.ofBits, Ideal.ieee, -EReal.coe_mul]; norm_num

/-- The single-precision pattern 0x3F000000 denotes the real one half. -/
theorem ofBits_half : Ideal.ofBits .f32 0x3F000000#32 = ((1 / 2 : ℝ) : EReal) := by
  simp [Ideal.ofBits, Ideal.ieee, -EReal.coe_mul]; norm_num

/-- The single-precision pattern 0x3F800000 denotes the real one. -/
theorem ofBits_one : Ideal.ofBits .f32 0x3F800000#32 = ((1 : ℝ) : EReal) := by
  simp [Ideal.ofBits, Ideal.ieee, -EReal.coe_mul]; norm_num

/-- The single-precision pattern 0x00000000 denotes the real zero. -/
theorem ofBits_zero : Ideal.ofBits .f32 0x00000000#32 = ((0 : ℝ) : EReal) := by
  rw [Ideal.ofBits_zero_f32, EReal.coe_zero]

/-- The single-precision pattern 0x3727C5AC (the nearest to 10⁻⁵) denotes the real 10995116 / 2⁴⁰. -/
theorem ofBits_eps : Ideal.ofBits .f32 0x3727C5AC#32 = ((10995116 / 2 ^ 40 : ℝ) : EReal) := by
  simp [Ideal.ofBits, Ideal.ieee, -EReal.coe_mul]; norm_num

/-- The single-precision pattern 0x7F800000 denotes +∞. -/
theorem ofBits_inf : Ideal.ofBits .f32 0x7F800000#32 = ⊤ := by
  simp [Ideal.ofBits, Ideal.ieee]

/-- The real the pattern 0x3727C5AC denotes is positive. -/
theorem eps_pos : (0 : ℝ) < 10995116 / 2 ^ 40 := by norm_num

end Cert.BatchNorm.Consts
-- ==== Proof.TreeLaw.lean ====
/-
  The law between the two walks of the majority-gate tree.

  On the reals, ((2r - 1) + 1) * (1/2) = r.  Hence converting a level's output back to the sign
  domain (y = 2r - 1) and into the unit domain again at the next level ((y + 1) / 2) changes
  nothing, as long as every number met on the way is real: the extended reals are not a ring, but
  the reals embedded in them are, and sums, differences and products of reals are real.

  Writing R for a level walked in the sign domain, K for a level walked in the unit domain,
  u for x ↦ (x + 1) / 2 applied entrywise and v for r ↦ 2r - 1:
    R x = v (K (u x))            (by definition),
    u (R x) = K (u x)            (for real x, because u (v r) = r for real r).
  Five applications of the second line move u through the four inner levels of the sign-domain
  walk; the first line opens the outermost level:
    R R R R R x = v (K (u (R R R R x))) = v (K K (u (R R R x))) = ... = v (K K K K K (u x)).
-/
import proofs.«106421_j67250597921090_2_alg».proof.Proof.Spec
import proofs.«106421_j67250597921090_2_alg».proof.Proof.LibRealSums
import proofs.«106421_j67250597921090_2_alg».proof.Proof.LibBatchNorm
import proofs.«106421_j67250597921090_2_alg».proof.Proof.LibConsts

noncomputable section

namespace Cert.MajTree

open Idealize.ShloMosaic Idealize.ShloMosaic.ValueIdx
open Cert.RealSums Cert.BatchNorm Cert.BatchNorm.Consts

/-! ### The three constants -/

/-- The single-precision pattern 0x40000000 denotes the real two. -/
theorem ofBits_two : Ideal.ofBits .f32 0x40000000#32 = ((2 : ℝ) : EReal) := by
  simp [Ideal.ofBits, Ideal.ieee, -EReal.coe_mul]; norm_num

theorem c1_eq : c1 = ((1 : ℝ) : EReal) := ofBits_one

theorem cHalf_eq : cHalf = ((1 / 2 : ℝ) : EReal) := ofBits_half

theorem c2_eq : c2 = ((2 : ℝ) : EReal) := ofBits_two

theorem isReal_c1 : IsReal c1 := ⟨1, c1_eq⟩

theorem isReal_cHalf : IsReal cHalf := ⟨1 / 2, cHalf_eq⟩

theorem isReal_c2 : IsReal c2 := ⟨2, c2_eq⟩

/-! ### Real inputs give real outputs -/

/-- (x + 1) / 2 of a real is real. -/
theorem isReal_toUnit {x : EReal} (hx : IsReal x) : IsReal (toUnit x) :=
  (hx.add isReal_c1).mul isReal_cHalf

/-- 2r - 1 of a real is real. -/
theorem isReal_fromUnit {r : EReal} (hr : IsReal r) : IsReal (fromUnit r) :=
  isReal_sub (isReal_c2.mul hr) isReal_c1

/-- ab + ac + bc - 2abc of three reals is real. -/
theorem isReal_gate {a b c : EReal} (ha : IsReal a) (hb : IsReal b) (hc : IsReal c) :
    IsReal (gate a b c) :=
  isReal_sub (((ha.mul hb).add (ha.mul hc)).add (hb.mul hc)) (((isReal_c2.mul ha).mul hb).mul hc)

/-- A unit-domain level of reals is real. -/
theorem isReal_levelKer {m : ℕ} (s : Fin (3 * m) → EReal) (hs : ∀ k, IsReal (s k)) (j : Fin m) :
    IsReal (levelKer s j) :=
  isReal_gate (hs _) (hs _) (hs _)

/-- A sign-domain level of reals is real. -/
theorem isReal_levelRef {m : ℕ} (x : Fin (3 * m) → EReal) (hx : ∀ k, IsReal (x k)) (j : Fin m) :
    IsReal (levelRef x j) :=
  isReal_fromUnit (isReal_gate (isReal_toUnit (hx _)) (isReal_toUnit (hx _)) (isReal_toUnit (hx _)))

/-! ### Back and forth is the identity on the reals -/

/-- ((2r - 1) + 1) * (1/2) = r for a real r. -/
theorem toUnit_fromUnit {r : EReal} (hr : IsReal r) : toUnit (fromUnit r) = r := by
  obtain ⟨a, rfl⟩ := hr
  unfold toUnit fromUnit
  rw [c1_eq, cHalf_eq, c2_eq, ← EReal.coe_mul, ← EReal.coe_sub, ← EReal.coe_add, ← EReal.coe_mul]
  congr 1
  ring

/-- A sign-domain level is, by definition, the unit-domain level of the converted entries, converted back. -/
theorem levelRef_eq {m : ℕ} (x : Fin (3 * m) → EReal) (j : Fin m) :
    levelRef x j = fromUnit (levelKer (fun k => toUnit (x k)) j) := rfl

/-- Converting the output of a sign-domain level of reals is the unit-domain level of the converted entries. -/
theorem toUnit_levelRef {m : ℕ} (x : Fin (3 * m) → EReal) (hx : ∀ k, IsReal (x k)) :
    (fun j => toUnit (levelRef x j)) = levelKer (fun k => toUnit (x k)) := by
  funext j
  rw [levelRef_eq]
  exact toUnit_fromUnit (isReal_levelKer _ (fun k => isReal_toUnit (hx k)) j)

/-! ### The law -/

/-- THE TWO WALKS AGREE on real leaves. -/
theorem kerTree_eq_refTree (x : Fin 243 → EReal) (hx : ∀ k, Cert.RealSums.IsReal (x k)) :
    kerTree x = refTree x := by
  have h1 : ∀ j, IsReal (levelRef (m := 81) x j) := fun j => isReal_levelRef (m := 81) x hx j
  have h2 : ∀ j, IsReal (levelRef (m := 27) (levelRef (m := 81) x) j) :=
    fun j => isReal_levelRef (m := 27) _ h1 j
  have h3 : ∀ j, IsReal (levelRef (m := 9) (levelRef (m := 27) (levelRef (m := 81) x)) j) :=
    fun j => isReal_levelRef (m := 9) _ h2 j
  have h4 : ∀ j, IsReal (levelRef (m := 3) (levelRef (m := 9) (levelRef (m := 27) (levelRef (m := 81) x))) j) :=
    fun j => isReal_levelRef (m := 3) _ h3 j
  unfold refTree kerTree
  rw [levelRef_eq (m := 1), toUnit_levelRef (m := 3) _ h3, toUnit_levelRef (m := 9) _ h2,
    toUnit_levelRef (m := 27) _ h1, toUnit_levelRef (m := 81) x hx]

/-- The leaves of real patches and real weights are real. -/
theorem isReal_leaves (P : (⟨3, ![8, 243, 1024]⟩ : Shape).Idx → EReal) (W : (⟨2, ![27, 243]⟩ : Shape).Idx → EReal)
    (hP : ∀ i, IsReal (P i)) (hW : ∀ i, IsReal (W i)) (n : Fin 8) (oc : Fin 27) (l : Fin 1024) (k : Fin 243) :
    IsReal (leaves P W n oc l k) :=
  (hP _).mul (hW _)

/-- The result of real patches and real weights is the unit-domain walk over the leaves. -/
theorem result_eq_kerTree (P : (⟨3, ![8, 243, 1024]⟩ : Shape).Idx → EReal) (W : (⟨2, ![27, 243]⟩ : Shape).Idx → EReal)
    (hP : ∀ i, IsReal (P i)) (hW : ∀ i, IsReal (W i)) (i : (⟨3, ![8, 27, 1024]⟩ : Shape).Idx) :
    result P W i = kerTree (leaves P W (i 0) (i 1) (i 2)) :=
  (kerTree_eq_refTree _ (isReal_leaves P W hP hW (i 0) (i 1) (i 2))).symm

end Cert.MajTree

end
-- ==== Proof.LibAllReal.lean ====
/-
  Every entry is a real number: a property of arrays of extended reals, carried through the operations of a network.

  An array over a shape is a function from the shape's indices to the extended reals. It is called all-real here when
  every entry is the image of a real number. The lemmas below say that each operation that sits between the layers of a
  message-passing network keeps that property:

  · entrywise sums, differences, products, maxima, quotients by nonzero reals, format changes (the identity on the
    extended reals), integer-to-float conversions, selections;
  · constants whose pattern denotes a real, and anything that only re-indexes its operand: broadcasts, shape casts,
    slices, gathers (every entry of the result is an entry of the operand);
  · concatenations (every entry of the result is an entry of one of the blocks);
  · accumulating scatters, sums over axes, matrix products (an entry plus a finite sum of entries, or of products);
  · reciprocal square roots of arrays whose entries are positive reals.

  Two companions: an array is all-nonnegative / all-positive when every entry is the image of a real ≥ 0 / > 0. A
  nonnegative array plus a positive one is positive, which is what the variance plus a small positive constant needs
  before its reciprocal square root is taken.
-/
import Idealize.ShloMosaic.PureOps
import Idealize.ShloMosaic.PureOps.Ideal
import Idealize.ShloMosaic.PureOps.Ideal.Laws
import Idealize.ShloMosaic.Lib.ValueIdx
import Idealize.ShloMosaic.Lib.ReduceAll
import proofs.«106421_j67250597921090_2_alg».proof.Proof.LibRealSums
import proofs.«106421_j67250597921090_2_alg».proof.Proof.LibBatchNorm
import proofs.«106421_j67250597921090_2_alg».proof.Proof.LibConsts

open scoped BigOperators
open Idealize.ShloMosaic Cert.RealSums Cert.BatchNorm

namespace Cert.AllReal

/-- Every entry of the array is the image of a real number. -/
def AllReal {S : Shape} (v : S.Idx → EReal) : Prop := ∀ i, IsReal (v i)

/-- Every entry of the array is the image of a real number that is not negative. -/
def AllNonneg {S : Shape} (v : S.Idx → EReal) : Prop := ∀ i, ∃ r : ℝ, 0 ≤ r ∧ v i = (r : EReal)

/-- Every entry of the array is the image of a positive real number. -/
def AllPos {S : Shape} (v : S.Idx → EReal) : Prop := ∀ i, ∃ r : ℝ, 0 < r ∧ v i = (r : EReal)

section Basics
variable {S : Shape}

/-- An all-nonnegative array is all-real. -/
theorem AllNonneg.allReal {v : S.Idx → EReal} (h : AllNonneg v) : AllReal v :=
  fun i => let ⟨r, _, hr⟩ := h i; ⟨r, hr⟩

/-- An all-positive array is all-real. -/
theorem AllPos.allReal {v : S.Idx → EReal} (h : AllPos v) : AllReal v :=
  fun i => let ⟨r, _, hr⟩ := h i; ⟨r, hr⟩

/-- An all-positive array is all-nonnegative. -/
theorem AllPos.allNonneg {v : S.Idx → EReal} (h : AllPos v) : AllNonneg v :=
  fun i => let ⟨r, h0, hr⟩ := h i; ⟨r, h0.le, hr⟩

/-- No entry of an all-positive array is zero. -/
theorem AllPos.ne_zero {v : S.Idx → EReal} (h : AllPos v) (i : S.Idx) : v i ≠ 0 := by
  obtain ⟨r, h0, hr⟩ := h i
  rw [hr]
  exact_mod_cast h0.ne'

/-- RE-INDEXING. An array that reads an all-real array at some index of it, whatever the index, is all-real. -/
theorem allReal_comp {T : Shape} {x : S.Idx → EReal} (hx : AllReal x) (f : T.Idx → S.Idx) : AllReal fun j => x (f j) :=
  fun j => hx (f j)

/-- Re-indexing keeps positivity. -/
theorem allPos_comp {T : Shape} {x : S.Idx → EReal} (hx : AllPos x) (f : T.Idx → S.Idx) : AllPos fun j => x (f j) :=
  fun j => hx (f j)

/-- Re-indexing keeps nonnegativity. -/
theorem allNonneg_comp {T : Shape} {x : S.Idx → EReal} (hx : AllNonneg x) (f : T.Idx → S.Idx) :
    AllNonneg fun j => x (f j) :=
  fun j => hx (f j)

end Basics

/-! ### Entrywise operations -/

section Elementwise
variable {s : Shape} {φ : FTy}

/-- The entrywise sum of two all-real arrays is all-real. -/
theorem allReal_addf {x y : FVec Ideal s φ} (hx : AllReal x) (hy : AllReal y) : AllReal (addf x y) :=
  fun i => (hx i).add (hy i)

/-- The entrywise difference of two all-real arrays is all-real. -/
theorem allReal_subf {x y : FVec Ideal s φ} (hx : AllReal x) (hy : AllReal y) : AllReal (subf x y) :=
  fun i => isReal_sub (hx i) (hy i)

/-- The entrywise product of two all-real arrays is all-real. -/
theorem allReal_mulf {x y : FVec Ideal s φ} (hx : AllReal x) (hy : AllReal y) : AllReal (mulf x y) :=
  fun i => (hx i).mul (hy i)

/-- The entrywise negative of an all-real array is all-real. -/
theorem allReal_negf {x : FVec Ideal s φ} (hx : AllReal x) : AllReal (negf x) :=
  fun i => isReal_neg (hx i)

/-- The entrywise maximum of two all-real arrays is all-real. -/
theorem allReal_maximumf {x y : FVec Ideal s φ} (hx : AllReal x) (hy : AllReal y) : AllReal (maximumf x y) :=
  fun i => isReal_max (hx i) (hy i)

/-- The host's entrywise quotient of an all-real array by an all-real array without a zero entry is all-real. -/
theorem allReal_hostDivf {x d : FVec Ideal s φ} (hx : AllReal x) (hd : AllReal d) (hd0 : ∀ i, d i ≠ 0) :
    AllReal (Host.divf x d) :=
  fun i => isReal_div (hx i) (hd i) (hd0 i)

/-- A kernel's entrywise quotient of an all-real array by an all-real array without a zero entry is all-real. -/
theorem allReal_divf {x d : FVec Ideal s φ} (hx : AllReal x) (hd : AllReal d) (hd0 : ∀ i, d i ≠ 0) :
    AllReal (divf x d) :=
  fun i => isReal_div (hx i) (hd i) (hd0 i)

/-- The entrywise maximum of an all-real array and an all-positive array is all-positive (a count raised to at least
    one). -/
theorem allPos_maximumf_right {x y : FVec Ideal s φ} (hx : AllReal x) (hy : AllPos y) : AllPos (maximumf x y) := by
  intro i
  obtain ⟨a, ha⟩ := hx i
  obtain ⟨b, hb0, hb⟩ := hy i
  refine ⟨max a b, lt_of_lt_of_le hb0 (le_max_right a b), ?_⟩
  show max (x i) (y i) = _
  rw [ha, hb]
  rcases le_total a b with h | h
  · rw [max_eq_right h, max_eq_right (EReal.coe_le_coe_iff.mpr h)]
  · rw [max_eq_left h, max_eq_left (EReal.coe_le_coe_iff.mpr h)]

/-- The sum of an all-nonnegative array and an all-positive array is all-positive. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A narrowing format change is the identity on the extended reals. -/
theorem truncf_eq (ψ : FTy) (x : FVec Ideal s φ) (h : ψ.bits < φ.bits) : (truncf ψ x h : s.Idx → EReal) = x := rfl

/-- A widening format change is the identity on the extended reals. -/
theorem extf_eq (ψ : FTy) (x : FVec Ideal s φ) (h : φ.bits < ψ.bits) : (extf ψ x h : s.Idx → EReal) = x := rfl

/-- A narrowing format change keeps an array all-real. -/
theorem allReal_truncf (ψ : FTy) {x : FVec Ideal s φ} (h : ψ.bits < φ.bits) (hx : AllReal x) : AllReal (truncf ψ x h) :=
  hx

/-- A widening format change keeps an array all-real. -/
theorem allReal_extf (ψ : FTy) {x : FVec Ideal s φ} (h : φ.bits < ψ.bits) (hx : AllReal x) : AllReal (extf ψ x h) :=
  hx

/-- An array of signed integers converted to floats is all-real: each entry is the integer itself. -/
theorem allReal_sitofp {w : Nat} (x : IVec s w) : AllReal (sitofp (F := Ideal) φ x) :=
  fun i => ⟨((x i).toInt : ℝ), rfl⟩

/-- A selection between two all-real arrays is all-real, whatever the mask. -/
theorem allReal_select (c : IVec s 1) {a b : FVec Ideal s φ} (ha : AllReal a) (hb : AllReal b) :
    AllReal (select c a b) :=
  fun i => isReal_select (c i) (ha i) (hb i)

/-- The leaky rectifier of an all-real array with an all-real slope array is all-real: z where z ≥ 0, slope · z
    elsewhere, the comparison being against any array. -/
theorem allReal_prelu (p : CmpFPredicate) {z a zero : FVec Ideal s φ} (hz : AllReal z) (ha : AllReal a) :
    AllReal (select (cmpf p z zero) z (mulf a z)) :=
  allReal_select _ hz (allReal_mulf ha hz)

/-- The reciprocal square root (a kernel's) of an all-positive array is all-real. -/
theorem allReal_rsqrt {x : FVec Ideal s φ} (hx : AllPos x) : AllReal (rsqrt x) := by
  intro i
  obtain ⟨r, h0, hr⟩ := hx i
  show IsReal (Ideal.rsqrt (x i))
  rw [hr]
  exact isReal_rsqrt_of_pos h0

/-- The reciprocal square root (the host's) of an all-positive array is all-real. -/
theorem allReal_hostRsqrt {x : FVec Ideal s φ} (hx : AllPos x) : AllReal (Host.rsqrt x) := by
  intro i
  obtain ⟨r, h0, hr⟩ := hx i
  show IsReal (Ideal.rsqrt (x i))
  rw [hr]
  exact isReal_rsqrt_of_pos h0

end Elementwise

/-! ### Constants and re-indexings -/

section Layout
variable {s t : Shape}

/-- The splat of a pattern that denotes a real is all-real. -/
theorem allReal_constant (s : Shape) (φ : FTy) (b : BitVec φ.bits) (hb : IsReal (Ideal.ofBits φ b)) :
    AllReal (constant (F := Ideal) s φ b) :=
  fun _ => hb

/-- The splat of a pattern that denotes a positive real is all-positive. -/
theorem allPos_constant (s : Shape) (φ : FTy) (b : BitVec φ.bits) {r : ℝ} (h0 : 0 < r)
    (hb : Ideal.ofBits φ b = (r : EReal)) : AllPos (constant (F := Ideal) s φ b) :=
  fun _ => ⟨r, h0, hb⟩

/-- The splat of a real scalar is all-real. -/
theorem allReal_broadcast (t : Shape) {x : EReal} (hx : IsReal x) : AllReal (broadcast t x) :=
  fun _ => hx

/-- A broadcast along named axes of an all-real array is all-real. -/
theorem allReal_broadcastInDim (t : Shape) (dims : Fin s.rank → Fin t.rank) (h : s.BroadcastsInDim t dims)
    {x : s.Idx → EReal} (hx : AllReal x) : AllReal (broadcastInDim t dims h x) :=
  fun _ => hx _

/-- A broadcast along named axes of an all-positive array is all-positive. -/
theorem allPos_broadcastInDim (t : Shape) (dims : Fin s.rank → Fin t.rank) (h : s.BroadcastsInDim t dims)
    {x : s.Idx → EReal} (hx : AllPos x) : AllPos (broadcastInDim t dims h x) :=
  fun _ => hx _

/-- A broadcast along named axes of an all-nonnegative array is all-nonnegative. -/
theorem allNonneg_broadcastInDim (t : Shape) (dims : Fin s.rank → Fin t.rank) (h : s.BroadcastsInDim t dims)
    {x : s.Idx → EReal} (hx : AllNonneg x) : AllNonneg (broadcastInDim t dims h x) :=
  fun _ => hx _

/-- A broadcast of the splat of a pattern that denotes a real is all-real. -/
theorem allReal_broadcastInDim_constant (t : Shape) (dims : Fin s.rank → Fin t.rank) (h : s.BroadcastsInDim t dims)
    (φ : FTy) (b : BitVec φ.bits) (hb : IsReal (Ideal.ofBits φ b)) :
    AllReal (broadcastInDim t dims h (constant (F := Ideal) s φ b)) :=
  allReal_broadcastInDim t dims h (allReal_constant s φ b hb)

/-- A broadcast to trailing axes of an all-real array is all-real. -/
theorem allReal_broadcastTo (t : Shape) {x : s.Idx → EReal} (h : s.Broadcasts t) (hx : AllReal x) :
    AllReal (broadcastTo t x h) :=
  fun _ => hx _

/-- A shape cast of an all-real array is all-real. -/
theorem allReal_shapeCast (t : Shape) {x : s.Idx → EReal} (h : s.ShapeCasts t) (hx : AllReal x) :
    AllReal (shapeCast t x h) :=
  fun _ => hx _

/-- A shape cast of an all-positive array is all-positive. -/
theorem allPos_shapeCast (t : Shape) {x : s.Idx → EReal} (h : s.ShapeCasts t) (hx : AllPos x) :
    AllPos (shapeCast t x h) :=
  fun _ => hx _

/-- A shape cast of an all-nonnegative array is all-nonnegative. -/
theorem allNonneg_shapeCast (t : Shape) {x : s.Idx → EReal} (h : s.ShapeCasts t) (hx : AllNonneg x) :
    AllNonneg (shapeCast t x h) :=
  fun _ => hx _

/-- A slice of an all-real array is all-real. -/
theorem allReal_extractStridedSlice (t : Shape) (off : Fin s.rank → Nat) {x : s.Idx → EReal} (h : s.Slices off t)
    (hx : AllReal x) : AllReal (extractStridedSlice t off x h) :=
  fun _ => hx _

/-- A gather out of an all-real array is all-real, whatever the dimension numbers and the indices: every entry of the
    result is an entry of the operand. -/
theorem allReal_gather {si : Shape} {w : Nat} (d : GatherDims s si t) {x : s.Idx → EReal} (idx : IVec si w)
    (hx : AllReal x) : AllReal (Host.gather d x idx) :=
  fun _ => hx _

/-- A concatenation of all-real blocks is all-real, whatever the number of blocks and the axis: every entry of the
    result is an entry of one of the blocks. -/
theorem allReal_concatenate (t : Shape) (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

/-- Two all-real blocks side by side are all-real. -/
theorem allReal_concatenate_two (t : Shape) (a : Fin t.rank) {s1 s2 : Shape} {u0 : s1.Idx → EReal} {u1 : s2.Idx → EReal}
    (h : Shape.Concatenates [s1, s2] t a) (h0 : AllReal u0) (h1 : AllReal u1) :
    AllReal (concatenate t a [⟨s1, u0⟩, ⟨s2, u1⟩] h) := by
  refine allReal_concatenate t a [⟨s1, u0⟩, ⟨s2, u1⟩] h fun p hp => ?_
  rcases List.mem_cons.mp hp with rfl | hp
  · exact h0
  rcases List.mem_cons.mp hp with rfl | hp
  · exact h1
  exact absurd hp List.not_mem_nil

/-- Three all-real blocks side by side are all-real. -/
theorem allReal_concatenate_three (t : Shape) (a : Fin t.rank) {s1 s2 s3 : Shape} {u0 : s1.Idx → EReal}
    {u1 : s2.Idx → EReal} {u2 : s3.Idx → EReal} (h : Shape.Concatenates [s1, s2, s3] t a) (h0 : AllReal u0)
    (h1 : AllReal u1) (h2 : AllReal u2) : AllReal (concatenate t a [⟨s1, u0⟩, ⟨s2, u1⟩, ⟨s3, u2⟩] h) := by
  refine allReal_concatenate t a [⟨s1, u0⟩, ⟨s2, u1⟩, ⟨s3, u2⟩] h fun p hp => ?_
  rcases List.mem_cons.mp hp with rfl | hp
  · exact h0
  rcases List.mem_cons.mp hp with rfl | hp
  · exact h1
  rcases List.mem_cons.mp hp with rfl | hp
  · exact h2
  exact absurd hp List.not_mem_nil

end Layout

/-! ### Sums: scatters, reductions, products -/

section Sums
variable {s t : Shape} {φ : FTy}

/-- An accumulating scatter of all-real updates into an all-real operand is all-real, whatever the dimension numbers
    and the indices: every entry of the result is an entry of the operand plus a finite sum of updates. -/
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) := by
  intro i
  show IsReal (Ideal.hostScatterAdd d x idx upd i)
  unfold Ideal.hostScatterAdd
  exact (hx i).add (isReal_sum _ _ fun j _ => hu j)

/-- The host's sum over axes of an all-real array, from a real initial value, is all-real. -/
theorem allReal_hostReduceAdd {axes : List (Fin s.rank)} {u : Shape} {x : FVec Ideal s φ} {init : u.Idx → Ideal φ}
    (h : s.ReducesTo axes t) (hu : 0 < u.numel) (hx : AllReal x) (hinit : ∀ i, IsReal (init i)) :
    AllReal (Host.reduceAdd x init h hu) := by
  intro j
  show IsReal (Ideal.hostReduceAdd h x (init (Shape.Idx.first hu)) j)
  unfold Ideal.hostReduceAdd
  exact (hinit _).add (isReal_sum _ _ fun i _ => hx i)

/-- A kernel's sum over axes of an all-real array is all-real. -/
theorem allReal_multiReduction_add (axes : List (Fin s.rank)) (t : Shape) {src : FVec Ideal s φ} (acc : BitVec φ.bits)
    (h : s.Reduces axes t) (hφ : FKind.Formats φ) (hacc : acc = FKind.neutral .add φ hφ) (hx : AllReal src) :
    AllReal (multiReduction .add axes t src acc h hφ hacc) := by
  intro j
  show IsReal (Ideal.reduceAdd h src j)
  unfold Ideal.reduceAdd
  exact isReal_sum _ _ fun i _ => hx i

/-- A matrix unit's product of all-real operands onto an all-real accumulator is all-real, whatever the dimension
    numbers: every entry is an accumulator entry plus a finite sum of products. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (hacc : AllReal acc) : AllReal (matmul d prec lhs rhs acc) := by
  intro j
  show IsReal (FloatOps.matmul d prec lhs rhs acc j)
  rw [Ideal.matmul_apply]
  exact (hacc j).add (isReal_sum _ _ fun k _ => (hl _).mul (hr _))

/-- A matrix unit's product of all-real operands onto the zero splat is all-real. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (matmul d prec lhs rhs (constant (F := Ideal) so .f32 0x00000000#32)) :=
  allReal_matmul d prec hl hr (allReal_constant so .f32 _ ⟨0, by rw [Ideal.ofBits_zero_f32, EReal.coe_zero]⟩)

/-- The host's general product of all-real operands is all-real, whatever the dimension numbers. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  show IsReal (FloatOps.dotGeneral d prec .single lhs rhs j)
  rw [Ideal.dotGeneral_apply]
  exact isReal_sum _ _ fun k _ => (hl _).mul (hr _)

end Sums

/-! ### The constants of the network -/

section Consts
open Cert.BatchNorm.Consts

/-- The pattern of 0 denotes a real. -/
theorem isReal_ofBits_zero : IsReal (Ideal.ofBits .f32 0x00000000#32) := ⟨_, ofBits_zero⟩
/-- The pattern of 0.5 denotes a real. -/
theorem isReal_ofBits_half : IsReal (Ideal.ofBits .f32 0x3F000000#32) := ⟨_, ofBits_half⟩
/-- The pattern of 1 denotes a real. -/
theorem isReal_ofBits_one : IsReal (Ideal.ofBits .f32 0x3F800000#32) := ⟨_, ofBits_one⟩
/-- The pattern of 600000 denotes a real. -/
theorem isReal_ofBits_600000 : IsReal (Ideal.ofBits .f32 0x49127C00#32) := ⟨_, ofBits_600000⟩
/-- The pattern of 50000 denotes a real. -/
theorem isReal_ofBits_50000 : IsReal (Ideal.ofBits .f32 0x47435000#32) := ⟨_, ofBits_50000⟩
/-- The pattern of 32 denotes a real. -/
theorem isReal_ofBits_32 : IsReal (Ideal.ofBits .f32 0x42000000#32) := ⟨_, ofBits_32⟩
/-- The pattern nearest to 10⁻⁵ denotes a real. -/
theorem isReal_ofBits_eps : IsReal (Ideal.ofBits .f32 0x3727C5AC#32) := ⟨_, ofBits_eps⟩

/-- The pattern of 1 denotes a nonzero number. -/
theorem ofBits_one_ne_zero : Ideal.ofBits .f32 0x3F800000#32 ≠ 0 := by
  rw [ofBits_one, EReal.coe_one]; exact one_ne_zero
/-- The pattern of 600000 denotes a nonzero number. -/
theorem ofBits_600000_ne_zero : Ideal.ofBits .f32 0x49127C00#32 ≠ 0 := by
  rw [ofBits_600000]; exact_mod_cast (by norm_num : (600000 : ℝ) ≠ 0)
/-- The pattern of 50000 denotes a nonzero number. -/
theorem ofBits_50000_ne_zero : Ideal.ofBits .f32 0x47435000#32 ≠ 0 := by
  rw [ofBits_50000]; exact_mod_cast (by norm_num : (50000 : ℝ) ≠ 0)
/-- The pattern of 32 denotes a nonzero number. -/
theorem ofBits_32_ne_zero : Ideal.ofBits .f32 0x42000000#32 ≠ 0 := by
  rw [ofBits_32]; exact_mod_cast (by norm_num : (32 : ℝ) ≠ 0)

/-- The splat of the pattern nearest to 10⁻⁵ is all-positive. -/
theorem allPos_constant_eps (s : Shape) : AllPos (constant (F := Ideal) s .f32 0x3727C5AC#32) :=
  allPos_constant s .f32 _ eps_pos ofBits_eps

/-- The splat of the pattern of 1 is all-positive. -/
theorem allPos_constant_one (s : Shape) : AllPos (constant (F := Ideal) s .f32 0x3F800000#32) :=
  allPos_constant s .f32 _ one_pos ofBits_one

end Consts

/-! ### From a finiteness test to all-real -/

section Finite
variable {s : Shape} {φ : FTy}

/-- An extended real whose absolute value is below +∞ is real. -/
theorem isReal_of_abs_lt_top {x : EReal} (h : max x (-x) < ⊤) : IsReal x := by
  induction x using EReal.rec with
  | bot => simp at h
  | coe r => exact ⟨r, rfl⟩
  | top => simp at h

/-- An extended real that passes the test |x| < +∞ is real. -/
theorem isReal_of_cmp_olt_abs {x top : EReal} (htop : top = ⊤) (h : Ideal.cmp .olt (max x (-x)) top = 1#1) :
    IsReal x := by
  subst htop
  apply isReal_of_abs_lt_top
  by_contra hn
  simp [Ideal.cmp, hn] at h

/-- An array every entry of which passes the test |x| < +∞ is all-real. -/
theorem allReal_of_finite_mask {x inf : FVec Ideal s φ} (hinf : ∀ i, inf i = ⊤)
    (h : ∀ i, cmpf .olt (Host.absf x) inf i = 1#1) : AllReal x :=
  fun i => isReal_of_cmp_olt_abs (hinf i) (h i)

/-- An array for which the conjunction over all entries of the test |x| < +∞ came out true is all-real. -/
theorem allReal_of_all_finite {t u : Shape} {axes : List (Fin s.rank)} [Subsingleton t.Idx] {x inf : FVec Ideal s φ}
    (hinf : ∀ i, inf i = ⊤) (init : u.Idx → BitVec 1) (h : s.ReducesTo axes t) (hu : 0 < u.numel) (j : t.Idx)
    (e : Host.reduce IntOp.andi (cmpf .olt (Host.absf x) inf) init h hu j = 1#1) : AllReal x :=
  allReal_of_finite_mask hinf (Host.reduce_andi_all _ init h hu j e)

/-- The broadcast of the splat of the pattern of +∞ is +∞ everywhere. -/
theorem broadcastInDim_constant_inf {s0 : Shape} (dims : Fin s0.rank → Fin s.rank) (h : s0.BroadcastsInDim s dims)
    (i : s.Idx) : broadcastInDim s dims h (constant (F := Ideal) s0 .f32 0x7F800000#32) i = ⊤ :=
  Cert.BatchNorm.Consts.ofBits_inf

end Finite

end Cert.AllReal
-- ==== Proof.Finite.lean ====
/-
  Every entry of the patch array and of the weight matrix is a real number.

  The patch array of a 3×3 convolution is built from the input by operations that only move entries around: the input
  is padded with a border of the constant −1, nine shifted windows are cut out of the padded array, each window is
  given one more axis, the nine are joined along that axis, and the result is reshaped. Every entry of the outcome is
  therefore either an entry of the input or the constant −1, so it is real as soon as every entry of the input is. The
  weight matrix is a reshape of the weights, so its entries are entries of the weights.

  That every entry of the input and of the weights is real is what the finiteness test says: the conjunction over all
  entries of |x| < +∞, for the input and for the weights, came out true; an extended real whose absolute value is
  below +∞ is neither +∞ nor −∞.
-/
import proofs.«106421_j67250597921090_2_alg».proof.Proof.RefReadP
import proofs.«106421_j67250597921090_2_alg».proof.Defs
import proofs.«106421_j67250597921090_2_alg».proof.Proof.Gen.Pre_finite_inputs
import proofs.«106421_j67250597921090_2_alg».proof.Proof.LibAllReal
import Idealize.ShloMosaic.Lib.ReduceAll

open Idealize.ShloMosaic Cert.AllReal Cert.RealSums

namespace Cert.Finite

/-! ### Padding -/

/-- A padded all-real array is all-real when the padding value is real: every entry of the result is an entry of the
    operand or the padding value. -/
theorem allReal_pad {s u : Shape} (t : Shape) (lo hi interior : Fin s.rank → Nat) {x : s.Idx → EReal}
    {v : u.Idx → EReal} (h : s.Pads lo hi interior t) (hu : 0 < u.numel) (hx : AllReal x) (hv : AllReal v) :
    AllReal (pad t lo hi interior x v h hu) := by
  intro j
  unfold pad
  split
  · exact hx _
  · exact hv _

/-- The single-precision pattern 0xBF800000 (sign 1, exponent field 127, fraction field 0) denotes the real −1. -/
theorem ofBits_neg_one : Ideal.ofBits .f32 0xBF800000#32 = ((-1 : ℝ) : EReal) := by
  simp [Ideal.ofBits, Ideal.ieee, -EReal.coe_mul]; norm_num

/-- The pattern of −1 denotes a real. -/
theorem isReal_ofBits_neg_one : IsReal (Ideal.ofBits .f32 0xBF800000#32) := ⟨_, ofBits_neg_one⟩

/-- A property of the head and of every member of the tail is a property of every member of the list. -/
theorem forall_mem_cons_of {α : Type _} {P : α → Prop} {a : α} {l : List α} (ha : P a) (hl : ∀ p ∈ l, P p) :
    ∀ p ∈ a :: l, P p :=
  List.forall_mem_cons.mpr ⟨ha, hl⟩

/-- Nothing is a member of the empty list. -/
theorem forall_mem_nil_of {α : Type _} {P : α → Prop} : ∀ p ∈ ([] : List α), P p :=
  fun _ h => absurd h List.not_mem_nil

/-! ### The patch array and the weight matrix -/

section Patches
open Cert.ReferenceIdeal.ReadP

/-- The padding value, the constant −1, is real. -/
theorem padValue_real : AllReal (val_main_call0_v0 (F := Ideal)) :=
  fun _ => isReal_ofBits_neg_one

/-- The input padded with a border of −1 is all-real. -/
theorem padded_real (x : FVec Ideal Cert.ReferenceIdeal.S8x27x32x32 .f32) (hx : AllReal x) :
    AllReal (val_main_v0 (F := Ideal) x) := by
  unfold val_main_v0
  exact allReal_pad _ _ _ _ _ _ hx padValue_real

/-- The patch array is all-real: nine windows of the padded input, each with one more axis, joined and reshaped. -/
theorem patches_real (x : FVec Ideal Cert.ReferenceIdeal.S8x27x32x32 .f32) (hx : AllReal x) :
    AllReal (val_main_v20 (F := Ideal) x) := by
  have h0 := padded_real x hx
  have h1 : AllReal (val_main_v1 (F := Ideal) x) := by
    unfold val_main_v1; exact allReal_extractStridedSlice _ _ _ h0
  have h2 : AllReal (val_main_v2 (F := Ideal) x) := by
    unfold val_main_v2; exact allReal_extractStridedSlice _ _ _ h0
  have h3 : AllReal (val_main_v3 (F := Ideal) x) := by
    unfold val_main_v3; exact allReal_extractStridedSlice _ _ _ h0
  have h4 : AllReal (val_main_v4 (F := Ideal) x) := by
    unfold val_main_v4; exact allReal_extractStridedSlice _ _ _ h0
  have h5 : AllReal (val_main_v5 (F := Ideal) x) := by
    unfold val_main_v5; exact allReal_extractStridedSlice _ _ _ h0
  have h6 : AllReal (val_main_v6 (F := Ideal) x) := by
    unfold val_main_v6; exact allReal_extractStridedSlice _ _ _ h0
  have h7 : AllReal (val_main_v7 (F := Ideal) x) := by
    unfold val_main_v7; exact allReal_extractStridedSlice _ _ _ h0
  have h8 : AllReal (val_main_v8 (F := Ideal) x) := by
    unfold val_main_v8; exact allReal_extractStridedSlice _ _ _ h0
  have h9 : AllReal (val_main_v9 (F := Ideal) x) := by
    unfold val_main_v9; exact allReal_extractStridedSlice _ _ _ h0
  have h10 : AllReal (val_main_v10 (F := Ideal) x) := by
    unfold val_main_v10; exact allReal_broadcastInDim _ _ _ h1
  have h11 : AllReal (val_main_v11 (F := Ideal) x) := by
    unfold val_main_v11; exact allReal_broadcastInDim _ _ _ h2
  have h12 : AllReal (val_main_v12 (F := Ideal) x) := by
    unfold val_main_v12; exact allReal_broadcastInDim _ _ _ h3
  have h13 : AllReal (val_main_v13 (F := Ideal) x) := by
    unfold val_main_v13; exact allReal_broadcastInDim _ _ _ h4
  have h14 : AllReal (val_main_v14 (F := Ideal) x) := by
    unfold val_main_v14; exact allReal_broadcastInDim _ _ _ h5
  have h15 : AllReal (val_main_v15 (F := Ideal) x) := by
    unfold val_main_v15; exact allReal_broadcastInDim _ _ _ h6
  have h16 : AllReal (val_main_v16 (F := Ideal) x) := by
    unfold val_main_v16; exact allReal_broadcastInDim _ _ _ h7
  have h17 : AllReal (val_main_v17 (F := Ideal) x) := by
    unfold val_main_v17; exact allReal_broadcastInDim _ _ _ h8
  have h18 : AllReal (val_main_v18 (F := Ideal) x) := by
    unfold val_main_v18; exact allReal_broadcastInDim _ _ _ h9
  have h19 : AllReal (val_main_v19 (F := Ideal) x) := by
    unfold val_main_v19
    exact allReal_concatenate _ _ _ _
      (forall_mem_cons_of h10 (forall_mem_cons_of h11 (forall_mem_cons_of h12 (forall_mem_cons_of h13
        (forall_mem_cons_of h14 (forall_mem_cons_of h15 (forall_mem_cons_of h16 (forall_mem_cons_of h17
          (forall_mem_cons_of h18 forall_mem_nil_of)))))))))
  unfold val_main_v20
  exact allReal_shapeCast _ _ h19

/-- The weight matrix, a reshape of the weights, is all-real. -/
theorem weights_real (w : FVec Ideal Cert.ReferenceIdeal.S27x27x3x3 .f32) (hw : AllReal w) :
    AllReal (val_main_v21 (F := Ideal) w) := by
  unfold val_main_v21
  exact allReal_shapeCast _ _ hw

end Patches

/-! ### The finiteness test -/

/-- An array of rank zero has one index. -/
instance : Subsingleton Cert.Pre_finite_inputs.S_.Idx := ⟨fun a b => funext fun d => d.elim0⟩

/-- If the finiteness test of the input and the weights came out true, every entry of both is real: the test is the
    conjunction of the two arrays' tests, each the conjunction over all entries of |x| < +∞. -/
theorem real_of_pre [Cert.Pre_finite_inputs.Facts]
    (x : FVec Ideal Cert.Pre_finite_inputs.S8x27x32x32 .f32) (w : FVec Ideal Cert.Pre_finite_inputs.S27x27x3x3 .f32)
    (h : Cert.Pre_finite_inputs.fn (F := Ideal) x w = fun _ => 1#1) : AllReal x ∧ AllReal w := by
  have h0 := congrFun h ValueIdx.ix0
  dsimp only [Cert.Pre_finite_inputs.fn] at h0
  obtain ⟨hx, hw⟩ := IntOp.andi_eq_one.mp h0
  exact ⟨allReal_of_all_finite (broadcastInDim_constant_inf _ _) _ _ _ _ hx,
    allReal_of_all_finite (broadcastInDim_constant_inf _ _) _ _ _ _ hw⟩

/-! ### From the finiteness test to the patch array and the weight matrix -/

/-- If the finiteness test of the input and the weights came out true, every entry of the patch array and of the weight
    matrix is real. -/
theorem patches_weights_real_of_pre [Cert.Pre_finite_inputs.Facts]
    (x : FVec Ideal Cert.Pre_finite_inputs.S8x27x32x32 .f32) (w : FVec Ideal Cert.Pre_finite_inputs.S27x27x3x3 .f32)
    (h : Cert.Pre_finite_inputs.fn (F := Ideal) x w = fun _ => 1#1) :
    AllReal (Cert.ReferenceIdeal.ReadP.val_main_v20 (F := Ideal) x) ∧
      AllReal (Cert.ReferenceIdeal.ReadP.val_main_v21 (F := Ideal) w) :=
  ⟨patches_real x (real_of_pre x w h).1, weights_real w (real_of_pre x w h).2⟩

end Cert.Finite
-- ==== Proof.Bridge.lean ====
/-
  The kernel's program and the reference build the same patches and the same weights, and the two walks of the
  gate tree agree on them.

  Both programs pad the input with -1, take the nine shifted 32 x 32 slices, stack them and reshape to the patches
  array [8, 243, 1024]; both reshape the weight to [27, 243].  The kernel's program then transposes the weights to
  K-major [243, 27], so its entry (k, oc) is the reference's (oc, k).  With every input entry a real number, every
  patch and weight entry is real, so every leaf patches(n, k, l) * weights(oc, k) is real, and on real leaves the tree
  walked in the unit domain (the kernel's) equals the tree walked in the sign domain (the reference's).
-/
import proofs.«106421_j67250597921090_2_alg».proof.Proof.KernelValue
import proofs.«106421_j67250597921090_2_alg».proof.Proof.RefReadP
import proofs.«106421_j67250597921090_2_alg».proof.Proof.TreeLaw
import proofs.«106421_j67250597921090_2_alg».proof.Proof.Finite
import Idealize.ShloMosaic.Lib.ValueLayout
import Idealize.ShloMosaic.Lib.StableHlo.Run

set_option maxRecDepth 16384

noncomputable section

namespace Cert.Bridge

open Cert.KernelIdeal Cert.KernelIdeal.Gen Cert.KernelIdeal.Conv
open Idealize.ShloMosaic Idealize.ShloMosaic.TcCoe Idealize.ShloMosaic.ValueIdx Idealize.ShloMosaic.StableHlo
open Idealize.SL Idealize.SL.Sem
open Cert.AllReal Cert.RealSums

variable (m : (ℓ : Loc nD τ sig) → Buf (Elt Ideal) ℓ)

/-- The patches array the region finds is the reference's patches stage of the first argument. -/
theorem entry_patches (c : Dev nD) :
    (entry m c main_v20 : S8x243x1024.Idx → EReal)
      = Cert.ReferenceIdeal.ReadP.val_main_v20 (F := Ideal) (m ((c.tc : Thread nD τ).loc main_arg0)) := by
  show StableHlo.after (List.flatten prefixOps) (fun b => m (c, b)) (Proc.devRef .tc main_v20) = _
  simp only [prefixOps, hostOps0, hostOps0_1, hostOps0_2, List.flatten_cons, List.flatten_nil, List.append_nil,
    List.cons_append, List.nil_append]
  after_results_simp
  rfl

/-- The weights array the region finds is the transpose of the reference's weights stage of the second argument. -/
theorem entry_weights (c : Dev nD) :
    (entry m c main_v22 : S243x27.Idx → EReal)
      = transpose S243x27 [1, 0] (Cert.ReferenceIdeal.ReadP.val_main_v21 (F := Ideal) (m ((c.tc : Thread nD τ).loc main_arg1)))
          transposes_S27x243_S243x27_1_0 := by
  show StableHlo.after (List.flatten prefixOps) (fun b => m (c, b)) (Proc.devRef .tc main_v22) = _
  simp only [prefixOps, hostOps0, hostOps0_1, hostOps0_2, List.flatten_cons, List.flatten_nil, List.append_nil,
    List.cons_append, List.nil_append]
  after_results_simp
  rfl

/-- On real inputs the kernel's result array is the specification's, of the reference's patches and weights. -/
theorem convArray_eq (c : Dev nD) (hx : AllReal (m ((c.tc : Thread nD τ).loc main_arg0) : S8x27x32x32.Idx → EReal))
    (hw : AllReal (m ((c.tc : Thread nD τ).loc main_arg1) : S27x27x3x3.Idx → EReal)) :
    convArray (entry m c main_v20) (entry m c main_v22)
      = Cert.MajTree.result (Cert.ReferenceIdeal.ReadP.val_main_v20 (F := Ideal) (m ((c.tc : Thread nD τ).loc main_arg0)))
          (Cert.ReferenceIdeal.ReadP.val_main_v21 (F := Ideal) (m ((c.tc : Thread nD τ).loc main_arg1))) := by
  rw [entry_patches, entry_weights]
  funext i
  obtain ⟨n, oc, l, rfl⟩ : ∃ (n : Fin 8) (oc : Fin 27) (l : Fin 1024), i = ix3 n oc l := ⟨i 0, i 1, i 2, eq_ix3 i⟩
  rw [Cert.MajTree.result_eq_kerTree _ _ (Cert.Finite.patches_real _ hx) (Cert.Finite.weights_real _ hw) (ix3 n oc l)]
  unfold convArray Cert.MajTree.leaves
  refine congrArg Cert.MajTree.kerTree (funext fun k => ?_)
  show _ * transpose S243x27 [1, 0] _ transposes_S27x243_S243x27_1_0 (ix2 k oc) = _ * _
  exact congrArg (fun v : EReal => Cert.ReferenceIdeal.ReadP.val_main_v20 (F := Ideal) (m ((c.tc : Thread nD τ).loc main_arg0)) (ix3 n k l) * v)
    (transpose_ix2_apply (Cert.ReferenceIdeal.ReadP.val_main_v21 (F := Ideal) (m ((c.tc : Thread nD τ).loc main_arg1))) transposes_S27x243_S243x27_1_0 k oc)

end Cert.Bridge

end
-- ==== Proof.RefTree.lean ====
/-
  The reference program computes the majority-gate tree of the specification.

  Both operands of the tree are kept closed: P is the patches array [8, 243, 1024] and W the weights
  [27, 243].  The program first forms the 243 leaves of output entry (n, oc, l),
      leaf k = P(n, k, l) * W(oc, k),
  as an array [8, 27, 1024, 243] (two broadcasts, a product and a transposition of the last two axes).

  A level then takes an array [8, 27, 1024, 3m] to an array [8, 27, 1024, m].  The last axis is split
  row-major into [m, 3], so member t of triple j is entry 3 j + t; every entry x is moved to the unit
  domain, s = (x + 1) / 2; the three members a, b, c of a triple are picked by three unit slices of
  the new last axis; the gate r = (ab + ac) + bc - ((2a)b)c is formed, and y = 2r - 1 moves it back
  to the sign domain.  This is one level of the tree walked in the sign domain, and the program
  applies it five times, m = 81, 27, 9, 3, 1.  The last level leaves an array [8, 27, 1024, 1], whose
  unit axis is dropped.

  All the equalities below hold term by term on the extended reals: no law of arithmetic is used,
  only which entry of which array an entry reads.  An index equality is checked one coordinate at a
  time as an equality of natural numbers (quotients and remainders of a row-major position by the
  literal extents).
-/
import proofs.«106421_j67250597921090_2_alg».proof.Proof.RefReadP
import proofs.«106421_j67250597921090_2_alg».proof.Proof.Spec

noncomputable section

namespace Cert.RefTree

open Cert.ReferenceIdeal Cert.ReferenceIdeal.Gen Cert.ReferenceIdeal.ReadP Idealize.ShloMosaic
  Idealize.ShloMosaic.ValueIdx Cert.MajTree

/-- The input array [8, 27, 32, 32] and the weights [27, 27, 3, 3], as arrays of extended reals. -/
abbrev XTy := (⟨S8x27x32x32, .f32⟩ : BufTy).Contents (Elt Ideal)
abbrev WTy := (⟨S27x27x3x3, .f32⟩ : BufTy).Contents (Elt Ideal)

/-- One coordinate of an index equality, as an equality of natural numbers: open the coordinate
    constructors, then linear arithmetic with quotients and remainders by literals (or, for a literal
    coordinate, evaluation). -/
local macro "coord" : tactic =>
  `(tactic| (dsimp only [ix2, ix3, ix4, ix5, Cert.MajTree.tri]; first | omega | rfl))

/-- An equality of rank-4 indices, coordinate by coordinate. -/
local macro "idx4" : tactic =>
  `(tactic| (
    funext a
    match a with
    | ⟨0, _⟩ => exact Fin.ext (by coord)
    | ⟨1, _⟩ => exact Fin.ext (by coord)
    | ⟨2, _⟩ => exact Fin.ext (by coord)
    | ⟨3, _⟩ => exact Fin.ext (by coord)))

/-- An equality of rank-5 indices, coordinate by coordinate. -/
local macro "idx5" : tactic =>
  `(tactic| (
    funext a
    match a with
    | ⟨0, _⟩ => exact Fin.ext (by coord)
    | ⟨1, _⟩ => exact Fin.ext (by coord)
    | ⟨2, _⟩ => exact Fin.ext (by coord)
    | ⟨3, _⟩ => exact Fin.ext (by coord)
    | ⟨4, _⟩ => exact Fin.ext (by coord)))

/-! ## The leaves -/

/-- Leaf k of output entry (n, oc, l) is P(n, k, l) * W(oc, k). -/
theorem leaves_at (x : XTy) (w : WTy) (n : Fin 8) (oc : Fin 27) (l : Fin 1024) (k : Fin 243) :
    val_main_v27 (F := Ideal) x w (ix4 n oc l k)
      = val_main_v20 (F := Ideal) x (ix3 n k l) * val_main_v21 (F := Ideal) w (ix2 oc k) := by
  have h1 : idx_main_v22 (idx_main_v24 (idx_main_v27 (ix4 n oc l k))) = ix3 n k l := by
    funext a
    match a with
    | ⟨0, _⟩ => rfl
    | ⟨1, _⟩ => rfl
    | ⟨2, _⟩ => rfl
  have h2 : idx_main_v23 (idx_main_v25 (idx_main_v27 (ix4 n oc l k))) = ix2 oc k := by
    funext a
    match a with
    | ⟨0, _⟩ => rfl
    | ⟨1, _⟩ => rfl
  rw [val_main_v27_apply, val_main_v26_apply, val_main_v24_apply, val_main_v22_apply, val_main_v25_apply,
    val_main_v23_apply, h1, h2]
  rfl

/-- The same, as the specification's family of leaves. -/
theorem leaves_fun (x : XTy) (w : WTy) (n : Fin 8) (oc : Fin 27) (l : Fin 1024) :
    (fun k : Fin 243 => val_main_v27 (F := Ideal) x w (ix4 n oc l k))
      = leaves (val_main_v20 (F := Ideal) x) (val_main_v21 (F := Ideal) w) n oc l :=
  funext fun k => leaves_at x w n oc l k

/-! ## Level 243 → 81 -/

/-- Entry (j, t) of the split [81, 3] is entry 3 j + t. -/
theorem split81 (x : XTy) (w : WTy) (n : Fin 8) (oc : Fin 27) (l : Fin 1024) (j : Fin 81) (t : Fin 3) :
    val_main_v28 (F := Ideal) x w (ix5 n oc l j t) = val_main_v27 (F := Ideal) x w (ix4 n oc l (tri j t)) := by
  have hn := n.isLt; have hoc := oc.isLt; have hl := l.isLt; have hj := j.isLt; have ht := t.isLt
  rw [val_main_v28_apply]
  refine congrArg (val_main_v27 (F := Ideal) x w) ?_
  idx4

/-- The split entries in the unit domain. -/
theorem unit81 (x : XTy) (w : WTy) (n : Fin 8) (oc : Fin 27) (l : Fin 1024) (j : Fin 81) (t : Fin 3) :
    val_main_v32 (F := Ideal) x w (ix5 n oc l j t)
      = toUnit (val_main_v27 (F := Ideal) x w (ix4 n oc l (tri j t))) := by
  rw [val_main_v32_apply, val_main_v30_apply, val_main_v31_apply, val_main_v29_apply, val_main_cst_0_apply,
    val_main_cst_1_apply, split81]
  rfl

/-- The three members of triple j. -/
theorem pick81_0 (x : XTy) (w : WTy) (n : Fin 8) (oc : Fin 27) (l : Fin 1024) (j : Fin 81) :
    val_main_v34 (F := Ideal) x w (ix4 n oc l j) = val_main_v32 (F := Ideal) x w (ix5 n oc l j (0 : Fin 3)) := by
  have hn := n.isLt; have hoc := oc.isLt; have hl := l.isLt; have hj := j.isLt
  rw [val_main_v34_apply, val_main_v33_apply]
  refine congrArg (val_main_v32 (F := Ideal) x w) ?_
  idx5
theorem pick81_1 (x : XTy) (w : WTy) (n : Fin 8) (oc : Fin 27) (l : Fin 1024) (j : Fin 81) :
    val_main_v36 (F := Ideal) x w (ix4 n oc l j) = val_main_v32 (F := Ideal) x w (ix5 n oc l j (1 : Fin 3)) := by
  have hn := n.isLt; have hoc := oc.isLt; have hl := l.isLt; have hj := j.isLt
  rw [val_main_v36_apply, val_main_v35_apply]
  refine congrArg (val_main_v32 (F := Ideal) x w) ?_
  idx5
theorem pick81_2 (x : XTy) (w : WTy) (n : Fin 8) (oc : Fin 27) (l : Fin 1024) (j : Fin 81) :
    val_main_v38 (F := Ideal) x w (ix4 n oc l j) = val_main_v32 (F := Ideal) x w (ix5 n oc l j (2 : Fin 3)) := by
  have hn := n.isLt; have hoc := oc.isLt; have hl := l.isLt; have hj := j.isLt
  rw [val_main_v38_apply, val_main_v37_apply]
  refine congrArg (val_main_v32 (F := Ideal) x w) ?_
  idx5

/-- The level: entry j of the output is the sign-domain gate of triple j of the input. -/
theorem level81 (x : XTy) (w : WTy) (n : Fin 8) (oc : Fin 27) (l : Fin 1024) (j : Fin 81) :
    val_main_v52 (F := Ideal) x w (ix4 n oc l j)
      = levelRef (m := 81) (fun k : Fin 243 => val_main_v27 (F := Ideal) x w (ix4 n oc l k)) j := by
  rw [val_main_v52_apply, val_main_v50_apply, val_main_v48_apply, val_main_v43_apply, val_main_v41_apply,
    val_main_v39_apply, val_main_v40_apply, val_main_v42_apply, val_main_v47_apply, val_main_v46_apply,
    val_main_v45_apply, val_main_v44_apply, val_main_v49_apply, val_main_v51_apply, val_main_cst_2_apply,
    val_main_cst_3_apply, val_main_cst_4_apply, pick81_0, pick81_1, pick81_2, unit81, unit81, unit81]
  rfl

/-! ## Level 81 → 27 -/

/-- Entry (j, t) of the split [27, 3] is entry 3 j + t. -/
theorem split27 (x : XTy) (w : WTy) (n : Fin 8) (oc : Fin 27) (l : Fin 1024) (j : Fin 27) (t : Fin 3) :
    val_main_v53 (F := Ideal) x w (ix5 n oc l j t) = val_main_v52 (F := Ideal) x w (ix4 n oc l (tri j t)) := by
  have hn := n.isLt; have hoc := oc.isLt; have hl := l.isLt; have hj := j.isLt; have ht := t.isLt
  rw [val_main_v53_apply]
  refine congrArg (val_main_v52 (F := Ideal) x w) ?_
  idx4

/-- The split entries in the unit domain. -/
theorem unit27 (x : XTy) (w : WTy) (n : Fin 8) (oc : Fin 27) (l : Fin 1024) (j : Fin 27) (t : Fin 3) :
    val_main_v57 (F := Ideal) x w (ix5 n oc l j t)
      = toUnit (val_main_v52 (F := Ideal) x w (ix4 n oc l (tri j t))) := by
  rw [val_main_v57_apply, val_main_v55_apply, val_main_v56_apply, val_main_v54_apply, val_main_cst_5_apply,
    val_main_cst_6_apply, split27]
  rfl

/-- The three members of triple j. -/
theorem pick27_0 (x : XTy) (w : WTy) (n : Fin 8) (oc : Fin 27) (l : Fin 1024) (j : Fin 27) :
    val_main_v59 (F := Ideal) x w (ix4 n oc l j) = val_main_v57 (F := Ideal) x w (ix5 n oc l j (0 : Fin 3)) := by
  have hn := n.isLt; have hoc := oc.isLt; have hl := l.isLt; have hj := j.isLt
  rw [val_main_v59_apply, val_main_v58_apply]
  refine congrArg (val_main_v57 (F := Ideal) x w) ?_
  idx5
theorem pick27_1 (x : XTy) (w : WTy) (n : Fin 8) (oc : Fin 27) (l : Fin 1024) (j : Fin 27) :
    val_main_v61 (F := Ideal) x w (ix4 n oc l j) = val_main_v57 (F := Ideal) x w (ix5 n oc l j (1 : Fin 3)) := by
  have hn := n.isLt; have hoc := oc.isLt; have hl := l.isLt; have hj := j.isLt
  rw [val_main_v61_apply, val_main_v60_apply]
  refine congrArg (val_main_v57 (F := Ideal) x w) ?_
  idx5
theorem pick27_2 (x : XTy) (w : WTy) (n : Fin 8) (oc : Fin 27) (l : Fin 1024) (j : Fin 27) :
    val_main_v63 (F := Ideal) x w (ix4 n oc l j) = val_main_v57 (F := Ideal) x w (ix5 n oc l j (2 : Fin 3)) := by
  have hn := n.isLt; have hoc := oc.isLt; have hl := l.isLt; have hj := j.isLt
  rw [val_main_v63_apply, val_main_v62_apply]
  refine congrArg (val_main_v57 (F := Ideal) x w) ?_
  idx5

/-- The level: entry j of the output is the sign-domain gate of triple j of the input. -/
theorem level27 (x : XTy) (w : WTy) (n : Fin 8) (oc : Fin 27) (l : Fin 1024) (j : Fin 27) :
    val_main_v77 (F := Ideal) x w (ix4 n oc l j)
      = levelRef (m := 27) (fun k : Fin 81 => val_main_v52 (F := Ideal) x w (ix4 n oc l k)) j := by
  rw [val_main_v77_apply, val_main_v75_apply, val_main_v73_apply, val_main_v68_apply, val_main_v66_apply,
    val_main_v64_apply, val_main_v65_apply, val_main_v67_apply, val_main_v72_apply, val_main_v71_apply,
    val_main_v70_apply, val_main_v69_apply, val_main_v74_apply, val_main_v76_apply, val_main_cst_7_apply,
    val_main_cst_8_apply, val_main_cst_9_apply, pick27_0, pick27_1, pick27_2, unit27, unit27, unit27]
  rfl

/-! ## Level 27 → 9 -/

/-- Entry (j, t) of the split [9, 3] is entry 3 j + t. -/
theorem split9 (x : XTy) (w : WTy) (n : Fin 8) (oc : Fin 27) (l : Fin 1024) (j : Fin 9) (t : Fin 3) :
    val_main_v78 (F := Ideal) x w (ix5 n oc l j t) = val_main_v77 (F := Ideal) x w (ix4 n oc l (tri j t)) := by
  have hn := n.isLt; have hoc := oc.isLt; have hl := l.isLt; have hj := j.isLt; have ht := t.isLt
  rw [val_main_v78_apply]
  refine congrArg (val_main_v77 (F := Ideal) x w) ?_
  idx4

/-- The split entries in the unit domain. -/
theorem unit9 (x : XTy) (w : WTy) (n : Fin 8) (oc : Fin 27) (l : Fin 1024) (j : Fin 9) (t : Fin 3) :
    val_main_v82 (F := Ideal) x w (ix5 n oc l j t)
      = toUnit (val_main_v77 (F := Ideal) x w (ix4 n oc l (tri j t))) := by
  rw [val_main_v82_apply, val_main_v80_apply, val_main_v81_apply, val_main_v79_apply, val_main_cst_10_apply,
    val_main_cst_11_apply, split9]
  rfl

/-- The three members of triple j. -/
theorem pick9_0 (x : XTy) (w : WTy) (n : Fin 8) (oc : Fin 27) (l : Fin 1024) (j : Fin 9) :
    val_main_v84 (F := Ideal) x w (ix4 n oc l j) = val_main_v82 (F := Ideal) x w (ix5 n oc l j (0 : Fin 3)) := by
  have hn := n.isLt; have hoc := oc.isLt; have hl := l.isLt; have hj := j.isLt
  rw [val_main_v84_apply, val_main_v83_apply]
  refine congrArg (val_main_v82 (F := Ideal) x w) ?_
  idx5
theorem pick9_1 (x : XTy) (w : WTy) (n : Fin 8) (oc : Fin 27) (l : Fin 1024) (j : Fin 9) :
    val_main_v86 (F := Ideal) x w (ix4 n oc l j) = val_main_v82 (F := Ideal) x w (ix5 n oc l j (1 : Fin 3)) := by
  have hn := n.isLt; have hoc := oc.isLt; have hl := l.isLt; have hj := j.isLt
  rw [val_main_v86_apply, val_main_v85_apply]
  refine congrArg (val_main_v82 (F := Ideal) x w) ?_
  idx5
theorem pick9_2 (x : XTy) (w : WTy) (n : Fin 8) (oc : Fin 27) (l : Fin 1024) (j : Fin 9) :
    val_main_v88 (F := Ideal) x w (ix4 n oc l j) = val_main_v82 (F := Ideal) x w (ix5 n oc l j (2 : Fin 3)) := by
  have hn := n.isLt; have hoc := oc.isLt; have hl := l.isLt; have hj := j.isLt
  rw [val_main_v88_apply, val_main_v87_apply]
  refine congrArg (val_main_v82 (F := Ideal) x w) ?_
  idx5

/-- The level: entry j of the output is the sign-domain gate of triple j of the input. -/
theorem level9 (x : XTy) (w : WTy) (n : Fin 8) (oc : Fin 27) (l : Fin 1024) (j : Fin 9) :
    val_main_v102 (F := Ideal) x w (ix4 n oc l j)
      = levelRef (m := 9) (fun k : Fin 27 => val_main_v77 (F := Ideal) x w (ix4 n oc l k)) j := by
  rw [val_main_v102_apply, val_main_v100_apply, val_main_v98_apply, val_main_v93_apply, val_main_v91_apply,
    val_main_v89_apply, val_main_v90_apply, val_main_v92_apply, val_main_v97_apply, val_main_v96_apply,
    val_main_v95_apply, val_main_v94_apply, val_main_v99_apply, val_main_v101_apply, val_main_cst_12_apply,
    val_main_cst_13_apply, val_main_cst_14_apply, pick9_0, pick9_1, pick9_2, unit9, unit9, unit9]
  rfl

/-! ## Level 9 → 3 -/

/-- Entry (j, t) of the split [3, 3] is entry 3 j + t. -/
theorem split3 (x : XTy) (w : WTy) (n : Fin 8) (oc : Fin 27) (l : Fin 1024) (j : Fin 3) (t : Fin 3) :
    val_main_v103 (F := Ideal) x w (ix5 n oc l j t) = val_main_v102 (F := Ideal) x w (ix4 n oc l (tri j t)) := by
  have hn := n.isLt; have hoc := oc.isLt; have hl := l.isLt; have hj := j.isLt; have ht := t.isLt
  rw [val_main_v103_apply]
  refine congrArg (val_main_v102 (F := Ideal) x w) ?_
  idx4

/-- The split entries in the unit domain. -/
theorem unit3 (x : XTy) (w : WTy) (n : Fin 8) (oc : Fin 27) (l : Fin 1024) (j : Fin 3) (t : Fin 3) :
    val_main_v107 (F := Ideal) x w (ix5 n oc l j t)
      = toUnit (val_main_v102 (F := Ideal) x w (ix4 n oc l (tri j t))) := by
  rw [val_main_v107_apply, val_main_v105_apply, val_main_v106_apply, val_main_v104_apply, val_main_cst_15_apply,
    val_main_cst_16_apply, split3]
  rfl

/-- The three members of triple j. -/
theorem pick3_0 (x : XTy) (w : WTy) (n : Fin 8) (oc : Fin 27) (l : Fin 1024) (j : Fin 3) :
    val_main_v109 (F := Ideal) x w (ix4 n oc l j) = val_main_v107 (F := Ideal) x w (ix5 n oc l j (0 : Fin 3)) := by
  have hn := n.isLt; have hoc := oc.isLt; have hl := l.isLt; have hj := j.isLt
  rw [val_main_v109_apply, val_main_v108_apply]
  refine congrArg (val_main_v107 (F := Ideal) x w) ?_
  idx5
theorem pick3_1 (x : XTy) (w : WTy) (n : Fin 8) (oc : Fin 27) (l : Fin 1024) (j : Fin 3) :
    val_main_v111 (F := Ideal) x w (ix4 n oc l j) = val_main_v107 (F := Ideal) x w (ix5 n oc l j (1 : Fin 3)) := by
  have hn := n.isLt; have hoc := oc.isLt; have hl := l.isLt; have hj := j.isLt
  rw [val_main_v111_apply, val_main_v110_apply]
  refine congrArg (val_main_v107 (F := Ideal) x w) ?_
  idx5
theorem pick3_2 (x : XTy) (w : WTy) (n : Fin 8) (oc : Fin 27) (l : Fin 1024) (j : Fin 3) :
    val_main_v113 (F := Ideal) x w (ix4 n oc l j) = val_main_v107 (F := Ideal) x w (ix5 n oc l j (2 : Fin 3)) := by
  have hn := n.isLt; have hoc := oc.isLt; have hl := l.isLt; have hj := j.isLt
  rw [val_main_v113_apply, val_main_v112_apply]
  refine congrArg (val_main_v107 (F := Ideal) x w) ?_
  idx5

/-- The level: entry j of the output is the sign-domain gate of triple j of the input. -/
theorem level3 (x : XTy) (w : WTy) (n : Fin 8) (oc : Fin 27) (l : Fin 1024) (j : Fin 3) :
    val_main_v127 (F := Ideal) x w (ix4 n oc l j)
      = levelRef (m := 3) (fun k : Fin 9 => val_main_v102 (F := Ideal) x w (ix4 n oc l k)) j := by
  rw [val_main_v127_apply, val_main_v125_apply, val_main_v123_apply, val_main_v118_apply, val_main_v116_apply,
    val_main_v114_apply, val_main_v115_apply, val_main_v117_apply, val_main_v122_apply, val_main_v121_apply,
    val_main_v120_apply, val_main_v119_apply, val_main_v124_apply, val_main_v126_apply, val_main_cst_17_apply,
    val_main_cst_18_apply, val_main_cst_19_apply, pick3_0, pick3_1, pick3_2, unit3, unit3, unit3]
  rfl

/-! ## Level 3 → 1 -/

/-- Entry (j, t) of the split [1, 3] is entry 3 j + t. -/
theorem split1 (x : XTy) (w : WTy) (n : Fin 8) (oc : Fin 27) (l : Fin 1024) (j : Fin 1) (t : Fin 3) :
    val_main_v128 (F := Ideal) x w (ix5 n oc l j t) = val_main_v127 (F := Ideal) x w (ix4 n oc l (tri j t)) := by
  have hn := n.isLt; have hoc := oc.isLt; have hl := l.isLt; have hj := j.isLt; have ht := t.isLt
  rw [val_main_v128_apply]
  refine congrArg (val_main_v127 (F := Ideal) x w) ?_
  idx4

/-- The split entries in the unit domain. -/
theorem unit1 (x : XTy) (w : WTy) (n : Fin 8) (oc : Fin 27) (l : Fin 1024) (j : Fin 1) (t : Fin 3) :
    val_main_v132 (F := Ideal) x w (ix5 n oc l j t)
      = toUnit (val_main_v127 (F := Ideal) x w (ix4 n oc l (tri j t))) := by
  rw [val_main_v132_apply, val_main_v130_apply, val_main_v131_apply, val_main_v129_apply, val_main_cst_20_apply,
    val_main_cst_21_apply, split1]
  rfl

/-- The three members of triple j. -/
theorem pick1_0 (x : XTy) (w : WTy) (n : Fin 8) (oc : Fin 27) (l : Fin 1024) (j : Fin 1) :
    val_main_v134 (F := Ideal) x w (ix4 n oc l j) = val_main_v132 (F := Ideal) x w (ix5 n oc l j (0 : Fin 3)) := by
  have hn := n.isLt; have hoc := oc.isLt; have hl := l.isLt; have hj := j.isLt
  rw [val_main_v134_apply, val_main_v133_apply]
  refine congrArg (val_main_v132 (F := Ideal) x w) ?_
  idx5
theorem pick1_1 (x : XTy) (w : WTy) (n : Fin 8) (oc : Fin 27) (l : Fin 1024) (j : Fin 1) :
    val_main_v136 (F := Ideal) x w (ix4 n oc l j) = val_main_v132 (F := Ideal) x w (ix5 n oc l j (1 : Fin 3)) := by
  have hn := n.isLt; have hoc := oc.isLt; have hl := l.isLt; have hj := j.isLt
  rw [val_main_v136_apply, val_main_v135_apply]
  refine congrArg (val_main_v132 (F := Ideal) x w) ?_
  idx5
theorem pick1_2 (x : XTy) (w : WTy) (n : Fin 8) (oc : Fin 27) (l : Fin 1024) (j : Fin 1) :
    val_main_v138 (F := Ideal) x w (ix4 n oc l j) = val_main_v132 (F := Ideal) x w (ix5 n oc l j (2 : Fin 3)) := by
  have hn := n.isLt; have hoc := oc.isLt; have hl := l.isLt; have hj := j.isLt
  rw [val_main_v138_apply, val_main_v137_apply]
  refine congrArg (val_main_v132 (F := Ideal) x w) ?_
  idx5

/-- The level: entry j of the output is the sign-domain gate of triple j of the input. -/
theorem level1 (x : XTy) (w : WTy) (n : Fin 8) (oc : Fin 27) (l : Fin 1024) (j : Fin 1) :
    val_main_v152 (F := Ideal) x w (ix4 n oc l j)
      = levelRef (m := 1) (fun k : Fin 3 => val_main_v127 (F := Ideal) x w (ix4 n oc l k)) j := by
  rw [val_main_v152_apply, val_main_v150_apply, val_main_v148_apply, val_main_v143_apply, val_main_v141_apply,
    val_main_v139_apply, val_main_v140_apply, val_main_v142_apply, val_main_v147_apply, val_main_v146_apply,
    val_main_v145_apply, val_main_v144_apply, val_main_v149_apply, val_main_v151_apply, val_main_cst_22_apply,
    val_main_cst_23_apply, val_main_cst_24_apply, pick1_0, pick1_1, pick1_2, unit1, unit1, unit1]
  rfl

/-! ## The whole tree -/

/-- Dropping the unit axis of the last level's output [8, 27, 1024, 1]. -/
theorem squeeze (x : XTy) (w : WTy) (n : Fin 8) (oc : Fin 27) (l : Fin 1024) :
    val_main_v153 (F := Ideal) x w (ix3 n oc l) = val_main_v152 (F := Ideal) x w (ix4 n oc l (0 : Fin 1)) := by
  have hn := n.isLt; have hoc := oc.isLt; have hl := l.isLt
  rw [val_main_v153_apply]
  refine congrArg (val_main_v152 (F := Ideal) x w) ?_
  idx4

/-- Output entry (n, oc, l) is the sign-domain tree over its 243 leaves. -/
theorem ref_at (x : XTy) (w : WTy) (n : Fin 8) (oc : Fin 27) (l : Fin 1024) :
    val_main_v153 (F := Ideal) x w (ix3 n oc l)
      = refTree (leaves (val_main_v20 (F := Ideal) x) (val_main_v21 (F := Ideal) w) n oc l) := by
  have h127 : (fun k : Fin 3 => val_main_v127 (F := Ideal) x w (ix4 n oc l k))
      = levelRef (m := 3) (fun k : Fin 9 => val_main_v102 (F := Ideal) x w (ix4 n oc l k)) :=
    funext fun j => level3 x w n oc l j
  have h102 : (fun k : Fin 9 => val_main_v102 (F := Ideal) x w (ix4 n oc l k))
      = levelRef (m := 9) (fun k : Fin 27 => val_main_v77 (F := Ideal) x w (ix4 n oc l k)) :=
    funext fun j => level9 x w n oc l j
  have h77 : (fun k : Fin 27 => val_main_v77 (F := Ideal) x w (ix4 n oc l k))
      = levelRef (m := 27) (fun k : Fin 81 => val_main_v52 (F := Ideal) x w (ix4 n oc l k)) :=
    funext fun j => level27 x w n oc l j
  have h52 : (fun k : Fin 81 => val_main_v52 (F := Ideal) x w (ix4 n oc l k))
      = levelRef (m := 81) (fun k : Fin 243 => val_main_v27 (F := Ideal) x w (ix4 n oc l k)) :=
    funext fun j => level81 x w n oc l j
  rw [squeeze, level1, h127, h102, h77, h52, leaves_fun]
  rfl

/-- The reference program's array [8, 27, 1024] before its last reshape is the specification's result
    of the patches array and the reshaped weights. -/
theorem ref_eq (x : XTy) (w : WTy) :
    val_main_v153 (F := Ideal) x w
      = result (val_main_v20 (F := Ideal) x) (val_main_v21 (F := Ideal) w) := by
  funext i
  exact (congrArg (val_main_v153 (F := Ideal) x w) (eq_ix3 i)).trans (ref_at x w (i 0) (i 1) (i 2))

end Cert.RefTree

end
-- ==== Proof.LibHostFold.lean ====
/-
  Folding a straight line of host operations in two parts, and the transports its inlined calls carry.

  The buffers' contents after a list of host operations is a left fold of the operations' results over the contents at
  the start; so the fold of a concatenation is the fold of its second part over the fold of its first (after_append), and
  a long program can be read in stretches with the contents in between kept as one term.

  The operations of a function inlined at its call site carry each operand through a transport along the equation
  between its buffer's declared type and the value's type: to the buffer's type when written, back when read. A value
  carried there and back is the value (ofBuf_toBuf); and, the two types being one, a single transport of a value is that
  value, stated through heterogeneous equality so that the equation is found by the types' computation at the use site
  (ofBuf_eq, toBuf_eq: give `HEq.rfl`, or `heq_of_eq` of an equation between the two sides read at one type). Removing
  the transports by these lemmas, syntactically, before two composed terms are compared keeps the comparison from
  computing through the transports.
-/
import Idealize.ShloMosaic.Lib.StableHlo.Run

namespace Cert.HostFold

open Idealize.ShloMosaic Idealize.ShloMosaic.StableHlo

variable {τ : Topo} {sig : RefSig} {Val : EltTy → Type}

/-- Folding a concatenation is folding its second part over the fold of its first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to its buffer's type and back is the value. -/
theorem ofBuf_toBuf {T : BufTy} (x : TRef sig T) (v : T.Contents Val) : x.ofBuf (x.toBuf v) = v := by
  obtain ⟨r, hty, h2, h3⟩ := x
  subst hty
  rfl

/-- Contents read at the value's type are the contents, when the two are one term up to the types' equation. -/
theorem ofBuf_eq {T : BufTy} (x : TRef sig T) (v : x.ref.ty.Contents Val) (w : T.Contents Val) (h : HEq v w) :
    x.ofBuf v = w := by
  obtain ⟨r, hty, h2, h3⟩ := x
  subst hty
  exact eq_of_heq h

/-- A value carried to its buffer's type is the value, likewise. -/
theorem toBuf_eq {T : BufTy} (x : TRef sig T) (v : T.Contents Val) (w : x.ref.ty.Contents Val) (h : HEq v w) :
    x.toBuf v = w := by
  obtain ⟨r, hty, h2, h3⟩ := x
  subst hty
  exact eq_of_heq h

end Cert.HostFold
-- ==== Proof.RefRunOps.lean ====
/-
  The reference's straight line of 182 host operations, cut into short stretches.

  The line is the concatenation of 22 stretches of at most ten operations; the cuts fall where a gate level of the
  tree ends (after operations 30, 60, 90, 120, 150, 180) and where one of the program's four consecutive parts ends (after
  operations 61, 121, 181). Each stretch touches only the core's own buffers and allocates nothing; so does the line.
-/
import proofs.«106421_j67250597921090_2_alg».proof.Proof.Gen.ReferenceIdeal
import proofs.«106421_j67250597921090_2_alg».proof.Proof.LibHostFold
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every member of two lists holds of every member of their concatenation. -/
theorem forall_append {α : Type*} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Operations 1 … 10 of the line. -/
abbrev ops00 : List (HloOp τ sig (Elt F)) :=
  [ nullary main_cst (constant S_ .f32 0xBF800000#32),
    TRef.unary (TRef.of (T := ⟨S_, .f32⟩) main_cst) (TRef.of (T := ⟨S_, .f32⟩) main_call0_v0) id,
    TRef.binary (TRef.of (T := ⟨S8x27x32x32, .f32⟩) main_arg0) (TRef.of (T := ⟨S_, .f32⟩) main_call0_v0) (TRef.of (T := ⟨S8x27x34x34, .f32⟩) main_v0) (fun x v => pad S8x27x34x34 ![0, 0, 1, 1] ![0, 0, 1, 1] ![0, 0, 0, 0] x v pads_S8x27x32x32_S8x27x34x34_000_000_110_110 h_S_),
    unary main_v0 main_v1 ((extractStridedSlice S8x27x32x32 ![0, 0, 0, 0] · slices_S8x27x34x34_S8x27x32x32_0_0_0_0) : (⟨S8x27x34x34, .f32⟩ : BufTy).Contents (Elt F) → (⟨S8x27x32x32, .f32⟩ : BufTy).Contents (Elt F)),
    unary main_v0 main_v2 ((extractStridedSlice S8x27x32x32 ![0, 0, 0, 1] · slices_S8x27x34x34_S8x27x32x32_0_0_0_1) : (⟨S8x27x34x34, .f32⟩ : BufTy).Contents (Elt F) → (⟨S8x27x32x32, .f32⟩ : BufTy).Contents (Elt F)),
    unary main_v0 main_v3 ((extractStridedSlice S8x27x32x32 ![0, 0, 0, 2] · slices_S8x27x34x34_S8x27x32x32_0_0_0_2) : (⟨S8x27x34x34, .f32⟩ : BufTy).Contents (Elt F) → (⟨S8x27x32x32, .f32⟩ : BufTy).Contents (Elt F)),
    unary main_v0 main_v4 ((extractStridedSlice S8x27x32x32 ![0, 0, 1, 0] · slices_S8x27x34x34_S8x27x32x32_0_0_1_0) : (⟨S8x27x34x34, .f32⟩ : BufTy).Contents (Elt F) → (⟨S8x27x32x32, .f32⟩ : BufTy).Contents (Elt F)),
    unary main_v0 main_v5 ((extractStridedSlice S8x27x32x32 ![0, 0, 1, 1] · slices_S8x27x34x34_S8x27x32x32_0_0_1_1) : (⟨S8x27x34x34, .f32⟩ : BufTy).Contents (Elt F) → (⟨S8x27x32x32, .f32⟩ : BufTy).Contents (Elt F)),
    unary main_v0 main_v6 ((extractStridedSlice S8x27x32x32 ![0, 0, 1, 2] · slices_S8x27x34x34_S8x27x32x32_0_0_1_2) : (⟨S8x27x34x34, .f32⟩ : BufTy).Contents (Elt F) → (⟨S8x27x32x32, .f32⟩ : BufTy).Contents (Elt F)),
    unary main_v0 main_v7 ((extractStridedSlice S8x27x32x32 ![0, 0, 2, 0] · slices_S8x27x34x34_S8x27x32x32_0_0_2_0) : (⟨S8x27x34x34, .f32⟩ : BufTy).Contents (Elt F) → (⟨S8x27x32x32, .f32⟩ : BufTy).Contents (Elt F)) ]
theorem ops00_sub : (ops00 : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub ..⟩
theorem ops00_fresh : (ops00 : List (HloOp τ sig (Elt F))).Forall fun op => op.fresh = ∅ :=
  ⟨rfl, rfl, rfl, rfl, rfl, rfl, rfl, rfl, rfl, rfl⟩

/-- Operations 11 … 20 of the line. -/
abbrev ops01 : List (HloOp τ sig (Elt F)) :=
  [ unary main_v0 main_v8 ((extractStridedSlice S8x27x32x32 ![0, 0, 2, 1] · slices_S8x27x34x34_S8x27x32x32_0_0_2_1) : (⟨S8x27x34x34, .f32⟩ : BufTy).Contents (Elt F) → (⟨S8x27x32x32, .f32⟩ : BufTy).Contents (Elt F)),
    unary main_v0 main_v9 ((extractStridedSlice S8x27x32x32 ![0, 0, 2, 2] · slices_S8x27x34x34_S8x27x32x32_0_0_2_2) : (⟨S8x27x34x34, .f32⟩ : BufTy).Contents (Elt F) → (⟨S8x27x32x32, .f32⟩ : BufTy).Contents (Elt F)),
    unary main_v1 main_v10 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v2 main_v11 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v3 main_v12 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v4 main_v13 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v5 main_v14 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v6 main_v15 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v7 main_v16 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    unary main_v8 main_v17 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)) ]
theorem ops01_sub : (ops01 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub ..⟩
theorem ops01_fresh : (ops01 : List (HloOp τ sig (Elt F))).Forall fun op => op.fresh = ∅ :=
  ⟨rfl, rfl, rfl, rfl, rfl, rfl, rfl, rfl, rfl, rfl⟩

/-- Operations 21 … 30 of the line. -/
abbrev ops02 : List (HloOp τ sig (Elt F)) :=
  [ unary main_v9 main_v18 (broadcastInDim S8x27x1x32x32 ![0, 1, 3, 4] bcast_S8x27x32x32_S8x27x1x32x32_0_1_3_4 : (⟨S8x27x32x32, .f32⟩ : BufTy).Contents (Elt F) → (⟨S8x27x1x32x32, .f32⟩ : BufTy).Contents (Elt F)),
    nary ![main_v10, main_v11, main_v12, main_v13, main_v14, main_v15, main_v16, main_v17, main_v18] main_v19 (fun u => concatenate S8x27x9x32x32 2 [⟨S8x27x1x32x32, u 0⟩, ⟨S8x27x1x32x32, u 1⟩, ⟨S8x27x1x32x32, u 2⟩, ⟨S8x27x1x32x32, u 3⟩, ⟨S8x27x1x32x32, u 4⟩, ⟨S8x27x1x32x32, u 5⟩, ⟨S8x27x1x32x32, u 6⟩, ⟨S8x27x1x32x32, u 7⟩, ⟨S8x27x1x32x32, u 8⟩] concatenates_S8x27x1x32x32_S8x27x1x32x32_S8x27x1x32x32_S8x27x1x32x32_S8x27x1x32x32_S8x27x1x32x32_S8x27x1x32x32_S8x27x1x32x32_S8x27x1x32x32_S8x27x9x32x32_d2),
    reshape main_v19 main_v20 rfl shapeCasts_S8x27x9x32x32_S8x243x1024,
    reshape main_arg1 main_v21 rfl shapeCasts_S27x27x3x3_S27x243,
    unary main_v20 main_v22 (broadcastInDim S8x1x243x1024 ![0, 2, 3] bcast_S8x243x1024_S8x1x243x1024_0_2_3 : (⟨S8x243x1024, .f32⟩ : BufTy).Contents (Elt F) → (⟨S8x1x243x1024, .f32⟩ : BufTy).Contents (Elt F)),
    unary main_v21 main_v23 (broadcastInDim S1x27x243x1 ![1, 2] bcast_S27x243_S1x27x243x1_1_2 : (⟨S27x243, .f32⟩ : BufTy).Contents (Elt F) → (⟨S1x27x243x1, .f32⟩ : BufTy).Contents (Elt F)),
    unary main_v22 main_v24 (broadcastInDim S8x27x243x1024 ![0, 1, 2, 3] bcast_S8x1x243x1024_S8x27x243x1024_0_1_2_3 : (⟨S8x1x243x1024, .f32⟩ : BufTy).Contents (Elt F) → (⟨S8x27x243x1024, .f32⟩ : BufTy).Contents (Elt F)),
    unary main_v23 main_v25 (broadcastInDim S8x27x243x1024 ![0, 1, 2, 3] bcast_S1x27x243x1_S8x27x243x1024_0_1_2_3 : (⟨S1x27x243x1, .f32⟩ : BufTy).Contents (Elt F) → (⟨S8x27x243x1024, .f32⟩ : BufTy).Contents (Elt F)),
    binary main_v24 main_v25 main_v26 (mulf : (⟨S8x27x243x1024, .f32⟩ : BufTy).Contents (Elt F) → (⟨S8x27x243x1024, .f32⟩ : BufTy).Contents (Elt F) → (⟨S8x27x243x1024, .f32⟩ : BufTy).Contents (Elt F)),
    unary main_v26 main_v27 ((transpose S8x27x1024x243 [0, 1, 3, 2] · transposes_S8x27x243x1024_S8x27x1024x243_0_1_3_2) : (⟨S8x27x243x1024, .f32⟩ : BufTy).Contents (Elt F) → (⟨S8x27x1024x243, .f32⟩ : BufTy).Contents (Elt F)) ]
theorem ops02_sub : (ops02 : List (HloOp τ sig (Elt F))).Forall fun op => op.bufs ⊆ tcRefs τ sig :=
  ⟨unary_bufs_sub .., nary_bufs_sub .., reshape_bufs_sub .., reshape_bufs_sub .., unary_bufs_sub .., unary_bufs_sub .., unary_bufs_sub .., unary_bufs_sub .., binary_bufs_sub .., unary_bufs_sub ..⟩
theorem ops02_fresh : (ops02 : List (HloOp τ sig (Elt F))).Forall fun op => op.fresh = ∅ :=
  ⟨rfl, rfl, rfl, rfl, rfl, rfl, rfl, rfl, rfl, rfl⟩

/-- Operations 31 … 40 of the line. -/
abbrev ops03 : List (HloOp τ sig (Elt F)) :=
  [ reshape main_v27 main_v28 rfl shapeCasts_S8x27x1024x243_S8x27x1024x81x3,
    nullary main_cst_0 (constant S_ .f32 0x3F800000#32),
    unary main_cst_0 main_v29 (broadcastInDim S8x27x1024x81x3 ![] bcast_S_S8x27x1024x81x3 : (⟨S_, .f32⟩ : BufTy).Contents (Elt F) → (⟨S8x27x1024x81x3, .f32⟩ : BufTy).Contents (Elt F)),
    binary main_v28 main_v29 main_v30 (addf : (⟨S8x27x1024x81x3, .f32⟩ : BufTy).Contents (Elt F) → (⟨S8x27x1024x81x3, .f32⟩ : BufTy).Contents (Elt F) → (⟨S8x27x1024x81x3, .f32⟩ : BufTy).Contents (Elt F)),
    nullary main_cst_1 (constant S_ .f32 0x3F000000#32),
    unary main_cst_1 main_v31 (broadcastInDim S8x27x1024x81x3 ![] bcast_S_S8x27x1024x81x3 : (⟨S_, .f32⟩ : BufTy).Contents (Elt F) → (⟨S8x27x1024x81x3, .f32⟩ : BufTy).Contents (Elt F)),
    binary main_v30 main_v31 main_v32 (mulf : (⟨S8x27x1024x81x3, .f32⟩ : BufTy).Contents (Elt F) → (⟨S8x27x1024x81x3, .f32⟩ : BufTy).Contents (Elt F) → (⟨S8x27x1024x81x3, .f32⟩ : BufTy).Contents (Elt F)),
    unary main_v32 main_v33 ((extractStridedSlice S8x27x1024x81x1 ![0, 0, 0, 0, 0] · slices_S8x27x1024x81x3_S8x27x1024x81x1_0_0_0_0_0) : (⟨S8x27x1024x81x3, .f32⟩ : BufTy).Contents (Elt F) → (⟨S8x27x1024x81x1, .f32⟩ : BufTy).Contents (Elt F)),
    reshape main_v33 main_v34 rfl shapeCasts_S8x27x1024x81x1_S8x27x1024x81,
    unary main_v32 main_v35 ((extractStridedSlice S8x27x1024x81x1 ![0, 0, 0, 0, 1] · slices_S8x27x1024x81x3_S8x27x1024x81x1_0_0_0_0_1) : (⟨S8x27x1024x81x3, .f32⟩ : BufTy).Contents (Elt F) → (⟨S8x27x1024x81x1, .f32⟩ : BufTy).Contents (Elt F)) ]
theorem ops03_sub : (ops03 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., reshape_bufs_sub .., unary_bufs_sub ..⟩
theorem ops03_fresh : (ops03 : List (HloOp τ sig (Elt F))).Forall fun op => op.fresh = ∅ :=
  ⟨rfl, rfl, rfl, rfl, rfl, rfl, rfl, rfl, rfl, rfl⟩

/-- Operations 41 … 50 of the line. -/
abbrev ops04 : List (HloOp τ sig (Elt F)) :=
  [ reshape main_v35 main_v36 rfl shapeCasts_S8x27x1024x81x1_S8x27x1024x81,
    unary main_v32 main_v37 ((extractStridedSlice S8x27x1024x81x1 ![0, 0, 0, 0, 2] · slices_S8x27x1024x81x3_S8x27x1024x81x1_0_0_0_0_2) : (⟨S8x27x1024x81x3, .f32⟩ : BufTy).Contents (Elt F) → (⟨S8x27x1024x81x1, .f32⟩ : BufTy).Contents (Elt F)),
    reshape main_v37 main_v38 rfl shapeCasts_S8x27x1024x81x1_S8x27x1024x81,
    binary main_v34 main_v36 main_v39 (mulf : (⟨S8x27x1024x81, .f32⟩ : BufTy).Contents (Elt F) → (⟨S8x27x1024x81, .f32⟩ : BufTy).Contents (Elt F) → (⟨S8x27x1024x81, .f32⟩ : BufTy).Contents (Elt F)),
    binary main_v34 main_v38 main_v40 (mulf : (⟨S8x27x1024x81, .f32⟩ : BufTy).Contents (Elt F) → (⟨S8x27x1024x81, .f32⟩ : BufTy).Contents (Elt F) → (⟨S8x27x1024x81, .f32⟩ : BufTy).Contents (Elt F)),
    binary main_v39 main_v40 main_v41 (addf : (⟨S8x27x1024x81, .f32⟩ : BufTy).Contents (Elt F) → (⟨S8x27x1024x81, .f32⟩ : BufTy).Contents (Elt F) → (⟨S8x27x1024x81, .f32⟩ : BufTy).Contents (Elt F)),
    binary main_v36 main_v38 main_v42 (mulf : (⟨S8x27x1024x81, .f32⟩ : BufTy).Contents (Elt F) → (⟨S8x27x1024x81, .f32⟩ : BufTy).Contents (Elt F) → (⟨S8x27x1024x81, .f32⟩ : BufTy).Contents (Elt F)),
    binary main_v41 main_v42 main_v43 (addf : (⟨S8x27x1024x81, .f32⟩ : BufTy).Contents (Elt F) → (⟨S8x27x1024x81, .f32⟩ : BufTy).Contents (Elt F) → (⟨S8x27x1024x81, .f32⟩ : BufTy).Contents (Elt F)),
    nullary main_cst_2 (constant S_ .f32 0x40000000#32),
    unary main_cst_2 main_v44 (broadcastInDim S8x27x1024x81 ![] bcast_S_S8x27x1024x81 : (⟨S_, .f32⟩ : BufTy).Contents (Elt F) → (⟨S8x27x1024x81, .f32⟩ : BufTy).Contents (Elt F)) ]
theorem ops04_sub : (ops04 : List (HloOp τ sig (Elt F))).Forall fun op => op.bufs ⊆ tcRefs τ sig :=
  ⟨reshape_bufs_sub .., unary_bufs_sub .., reshape_bufs_sub .., binary_bufs_sub .., binary_bufs_sub .., binary_bufs_sub .., binary_bufs_sub .., binary_bufs_sub .., nullary_bufs_sub .., unary_bufs_sub ..⟩
theorem ops04_fresh : (ops04 : List (HloOp τ sig (Elt F))).Forall fun op => op.fresh = ∅ :=
  ⟨rfl, rfl, rfl, rfl, rfl, rfl, rfl, rfl, rfl, rfl⟩

/-- Operations 51 … 60 of the line. -/
abbrev ops05 : List (HloOp τ sig (Elt F)) :=
  [ binary main_v44 main_v34 main_v45 (mulf : (⟨S8x27x1024x81, .f32⟩ : BufTy).Contents (Elt F) → (⟨S8x27x1024x81, .f32⟩ : BufTy).Contents (Elt F) → (⟨S8x27x1024x81, .f32⟩ : BufTy).Contents (Elt F)),
    binary main_v45 main_v36 main_v46 (mulf : (⟨S8x27x1024x81, .f32⟩ : BufTy).Contents (Elt F) → (⟨S8x27x1024x81, .f32⟩ : BufTy).Contents (Elt F) → (⟨S8x27x1024x81, .f32⟩ : BufTy).Contents (Elt F)),
    binary main_v46 main_v38 main_v47 (mulf : (⟨S8x27x1024x81, .f32⟩ : BufTy).Contents (Elt F) → (⟨S8x27x1024x81, .f32⟩ : BufTy).Contents (Elt F) → (⟨S8x27x1024x81, .f32⟩ : BufTy).Contents (Elt F)),
    binary main_v43 main_v47 main_v48 (subf : (⟨S8x27x1024x81, .f32⟩ : BufTy).Contents (Elt F) → (⟨S8x27x1024x81, .f32⟩ : BufTy).Contents (Elt F) → (⟨S8x27x1024x81, .f32⟩ : BufTy).Contents (Elt F)),
    nullary main_cst_3 (constant S_ .f32 0x40000000#32),
    unary main_cst_3 main_v49 (broadcastInDim S8x27x1024x81 ![] bcast_S_S8x27x1024x81 : (⟨S_, .f32⟩ : BufTy).Contents (Elt F) → (⟨S8x27x1024x81, .f32⟩ : BufTy).Contents (Elt F)),
    binary main_v49 main_v48 main_v50 (mulf : (⟨S8x27x1024x81, .f32⟩ : BufTy).Contents (Elt F) → (⟨S8x27x1024x81, .f32⟩ : BufTy).Contents (Elt F) → (⟨S8x27x1024x81, .f32⟩ : BufTy).Contents (Elt F)),
    nullary main_cst_4 (constant S_ .f32 0x3F800000#32),
    unary main_cst_4 main_v51 (broadcastInDim S8x27x1024x81 ![] bcast_S_S8x27x1024x81 : (⟨S_, .f32⟩ : BufTy).Contents (Elt F) → (⟨S8x27x1024x81, .f32⟩ : BufTy).Contents (Elt F)),
    binary main_v50 main_v51 main_v52 (subf : (⟨S8x27x1024x81, .f32⟩ : BufTy).Contents (Elt F) → (⟨S8x27x1024x81, .f32⟩ : BufTy).Contents (Elt F) → (⟨S8x27x1024x81, .f32⟩ : BufTy).Contents (Elt F)) ]
theorem ops05_sub : (ops05 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub ..⟩
theorem ops05_fresh : (ops05 : List (HloOp τ sig (Elt F))).Forall fun op => op.fresh = ∅ :=
  ⟨rfl, rfl, rfl, rfl, rfl, rfl, rfl, rfl, rfl, rfl⟩

/-- Operations 61 … 61 of the line. -/
abbrev ops06 : List (HloOp τ sig (Elt F)) :=
  [ reshape main_v52 main_v53 rfl shapeCasts_S8x27x1024x81_S8x27x1024x27x3 ]
theorem ops06_sub : (ops06 : List (HloOp τ sig (Elt F))).Forall fun op => op.bufs ⊆ tcRefs τ sig :=
  reshape_bufs_sub ..
theorem ops06_fresh : (ops06 : List (HloOp τ sig (Elt F))).Forall fun op => op.fresh = ∅ :=
  rfl

/-- Operations 62 … 70 of the line. -/
abbrev ops07 : List (HloOp τ sig (Elt F)) :=
  [ nullary main_cst_5 (constant S_ .f32 0x3F800000#32),
    unary main_cst_5 main_v54 (broadcastInDim S8x27x1024x27x3 ![] bcast_S_S8x27x1024x27x3 : (⟨S_, .f32⟩ : BufTy).Contents (Elt F) → (⟨S8x27x1024x27x3, .f32⟩ : BufTy).Contents (Elt F)),
    binary main_v53 main_v54 main_v55 (addf : (⟨S8x27x1024x27x3, .f32⟩ : BufTy).Contents (Elt F) → (⟨S8x27x1024x27x3, .f32⟩ : BufTy).Contents (Elt F) → (⟨S8x27x1024x27x3, .f32⟩ : BufTy).Contents (Elt F)),
    nullary main_cst_6 (constant S_ .f32 0x3F000000#32),
    unary main_cst_6 main_v56 (broadcastInDim S8x27x1024x27x3 ![] bcast_S_S8x27x1024x27x3 : (⟨S_, .f32⟩ : BufTy).Contents (Elt F) → (⟨S8x27x1024x27x3, .f32⟩ : BufTy).Contents (Elt F)),
    binary main_v55 main_v56 main_v57 (mulf : (⟨S8x27x1024x27x3, .f32⟩ : BufTy).Contents (Elt F) → (⟨S8x27x1024x27x3, .f32⟩ : BufTy).Contents (Elt F) → (⟨S8x27x1024x27x3, .f32⟩ : BufTy).Contents (Elt F)),
    unary main_v57 main_v58 ((extractStridedSlice S8x27x1024x27x1 ![0, 0, 0, 0, 0] · slices_S8x27x1024x27x3_S8x27x1024x27x1_0_0_0_0_0) : (⟨S8x27x1024x27x3, .f32⟩ : BufTy).Contents (Elt F) → (⟨S8x27x1024x27x1, .f32⟩ : BufTy).Contents (Elt F)),
    reshape main_v58 main_v59 rfl shapeCasts_S8x27x1024x27x1_S8x27x1024x27,
    unary main_v57 main_v60 ((extractStridedSlice S8x27x1024x27x1 ![0, 0, 0, 0, 1] · slices_S8x27x1024x27x3_S8x27x1024x27x1_0_0_0_0_1) : (⟨S8x27x1024x27x3, .f32⟩ : BufTy).Contents (Elt F) → (⟨S8x27x1024x27x1, .f32⟩ : BufTy).Contents (Elt F)) ]
theorem ops07_sub : (ops07 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., reshape_bufs_sub .., unary_bufs_sub ..⟩
theorem ops07_fresh : (ops07 : List (HloOp τ sig (Elt F))).Forall fun op => op.fresh = ∅ :=
  ⟨rfl, rfl, rfl, rfl, rfl, rfl, rfl, rfl, rfl⟩

/-- Operations 71 … 80 of the line. -/
abbrev ops08 : List (HloOp τ sig (Elt F)) :=
  [ reshape main_v60 main_v61 rfl shapeCasts_S8x27x1024x27x1_S8x27x1024x27,
    unary main_v57 main_v62 ((extractStridedSlice S8x27x1024x27x1 ![0, 0, 0, 0, 2] · slices_S8x27x1024x27x3_S8x27x1024x27x1_0_0_0_0_2) : (⟨S8x27x1024x27x3, .f32⟩ : BufTy).Contents (Elt F) → (⟨S8x27x1024x27x1, .f32⟩ : BufTy).Contents (Elt F)),
    reshape main_v62 main_v63 rfl shapeCasts_S8x27x1024x27x1_S8x27x1024x27,
    binary main_v59 main_v61 main_v64 (mulf : (⟨S8x27x1024x27, .f32⟩ : BufTy).Contents (Elt F) → (⟨S8x27x1024x27, .f32⟩ : BufTy).Contents (Elt F) → (⟨S8x27x1024x27, .f32⟩ : BufTy).Contents (Elt F)),
    binary main_v59 main_v63 main_v65 (mulf : (⟨S8x27x1024x27, .f32⟩ : BufTy).Contents (Elt F) → (⟨S8x27x1024x27, .f32⟩ : BufTy).Contents (Elt F) → (⟨S8x27x1024x27, .f32⟩ : BufTy).Contents (Elt F)),
    binary main_v64 main_v65 main_v66 (addf : (⟨S8x27x1024x27, .f32⟩ : BufTy).Contents (Elt F) → (⟨S8x27x1024x27, .f32⟩ : BufTy).Contents (Elt F) → (⟨S8x27x1024x27, .f32⟩ : BufTy).Contents (Elt F)),
    binary main_v61 main_v63 main_v67 (mulf : (⟨S8x27x1024x27, .f32⟩ : BufTy).Contents (Elt F) → (⟨S8x27x1024x27, .f32⟩ : BufTy).Contents (Elt F) → (⟨S8x27x1024x27, .f32⟩ : BufTy).Contents (Elt F)),
    binary main_v66 main_v67 main_v68 (addf : (⟨S8x27x1024x27, .f32⟩ : BufTy).Contents (Elt F) → (⟨S8x27x1024x27, .f32⟩ : BufTy).Contents (Elt F) → (⟨S8x27x1024x27, .f32⟩ : BufTy).Contents (Elt F)),
    nullary main_cst_7 (constant S_ .f32 0x40000000#32),
    unary main_cst_7 main_v69 (broadcastInDim S8x27x1024x27 ![] bcast_S_S8x27x1024x27 : (⟨S_, .f32⟩ : BufTy).Contents (Elt F) → (⟨S8x27x1024x27, .f32⟩ : BufTy).Contents (Elt F)) ]
theorem ops08_sub : (ops08 : List (HloOp τ sig (Elt F))).Forall fun op => op.bufs ⊆ tcRefs τ sig :=
  ⟨reshape_bufs_sub .., unary_bufs_sub .., reshape_bufs_sub .., binary_bufs_sub .., binary_bufs_sub .., binary_bufs_sub .., binary_bufs_sub .., binary_bufs_sub .., nullary_bufs_sub .., unary_bufs_sub ..⟩
theorem ops08_fresh : (ops08 : List (HloOp τ sig (Elt F))).Forall fun op => op.fresh = ∅ :=
  ⟨rfl, rfl, rfl, rfl, rfl, rfl, rfl, rfl, rfl, rfl⟩

/-- Operations 81 … 90 of the line. -/
abbrev ops09 : List (HloOp τ sig (Elt F)) :=
  [ binary main_v69 main_v59 main_v70 (mulf : (⟨S8x27x1024x27, .f32⟩ : BufTy).Contents (Elt F) → (⟨S8x27x1024x27, .f32⟩ : BufTy).Contents (Elt F) → (⟨S8x27x1024x27, .f32⟩ : BufTy).Contents (Elt F)),
    binary main_v70 main_v61 main_v71 (mulf : (⟨S8x27x1024x27, .f32⟩ : BufTy).Contents (Elt F) → (⟨S8x27x1024x27, .f32⟩ : BufTy).Contents (Elt F) → (⟨S8x27x1024x27, .f32⟩ : BufTy).Contents (Elt F)),
    binary main_v71 main_v63 main_v72 (mulf : (⟨S8x27x1024x27, .f32⟩ : BufTy).Contents (Elt F) → (⟨S8x27x1024x27, .f32⟩ : BufTy).Contents (Elt F) → (⟨S8x27x1024x27, .f32⟩ : BufTy).Contents (Elt F)),
    binary main_v68 main_v72 main_v73 (subf : (⟨S8x27x1024x27, .f32⟩ : BufTy).Contents (Elt F) → (⟨S8x27x1024x27, .f32⟩ : BufTy).Contents (Elt F) → (⟨S8x27x1024x27, .f32⟩ : BufTy).Contents (Elt F)),
    nullary main_cst_8 (constant S_ .f32 0x40000000#32),
    unary main_cst_8 main_v74 (broadcastInDim S8x27x1024x27 ![] bcast_S_S8x27x1024x27 : (⟨S_, .f32⟩ : BufTy).Contents (Elt F) → (⟨S8x27x1024x27, .f32⟩ : BufTy).Contents (Elt F)),
    binary main_v74 main_v73 main_v75 (mulf : (⟨S8x27x1024x27, .f32⟩ : BufTy).Contents (Elt F) → (⟨S8x27x1024x27, .f32⟩ : BufTy).Contents (Elt F) → (⟨S8x27x1024x27, .f32⟩ : BufTy).Contents (Elt F)),
    nullary main_cst_9 (constant S_ .f32 0x3F800000#32),
    unary main_cst_9 main_v76 (broadcastInDim S8x27x1024x27 ![] bcast_S_S8x27x1024x27 : (⟨S_, .f32⟩ : BufTy).Contents (Elt F) → (⟨S8x27x1024x27, .f32⟩ : BufTy).Contents (Elt F)),
    binary main_v75 main_v76 main_v77 (subf : (⟨S8x27x1024x27, .f32⟩ : BufTy).Contents (Elt F) → (⟨S8x27x1024x27, .f32⟩ : BufTy).Contents (Elt F) → (⟨S8x27x1024x27, .f32⟩ : BufTy).Contents (Elt F)) ]
theorem ops09_sub : (ops09 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub ..⟩
theorem ops09_fresh : (ops09 : List (HloOp τ sig (Elt F))).Forall fun op => op.fresh = ∅ :=
  ⟨rfl, rfl, rfl, rfl, rfl, rfl, rfl, rfl, rfl, rfl⟩

/-- Operations 91 … 100 of the line. -/
abbrev ops10 : List (HloOp τ sig (Elt F)) :=
  [ reshape main_v77 main_v78 rfl shapeCasts_S8x27x1024x27_S8x27x1024x9x3,
    nullary main_cst_10 (constant S_ .f32 0x3F800000#32),
    unary main_cst_10 main_v79 (broadcastInDim S8x27x1024x9x3 ![] bcast_S_S8x27x1024x9x3 : (⟨S_, .f32⟩ : BufTy).Contents (Elt F) → (⟨S8x27x1024x9x3, .f32⟩ : BufTy).Contents (Elt F)),
    binary main_v78 main_v79 main_v80 (addf : (⟨S8x27x1024x9x3, .f32⟩ : BufTy).Contents (Elt F) → (⟨S8x27x1024x9x3, .f32⟩ : BufTy).Contents (Elt F) → (⟨S8x27x1024x9x3, .f32⟩ : BufTy).Contents (Elt F)),
    nullary main_cst_11 (constant S_ .f32 0x3F000000#32),
    unary main_cst_11 main_v81 (broadcastInDim S8x27x1024x9x3 ![] bcast_S_S8x27x1024x9x3 : (⟨S_, .f32⟩ : BufTy).Contents (Elt F) → (⟨S8x27x1024x9x3, .f32⟩ : BufTy).Contents (Elt F)),
    binary main_v80 main_v81 main_v82 (mulf : (⟨S8x27x1024x9x3, .f32⟩ : BufTy).Contents (Elt F) → (⟨S8x27x1024x9x3, .f32⟩ : BufTy).Contents (Elt F) → (⟨S8x27x1024x9x3, .f32⟩ : BufTy).Contents (Elt F)),
    unary main_v82 main_v83 ((extractStridedSlice S8x27x1024x9x1 ![0, 0, 0, 0, 0] · slices_S8x27x1024x9x3_S8x27x1024x9x1_0_0_0_0_0) : (⟨S8x27x1024x9x3, .f32⟩ : BufTy).Contents (Elt F) → (⟨S8x27x1024x9x1, .f32⟩ : BufTy).Contents (Elt F)),
    reshape main_v83 main_v84 rfl shapeCasts_S8x27x1024x9x1_S8x27x1024x9,
    unary main_v82 main_v85 ((extractStridedSlice S8x27x1024x9x1 ![0, 0, 0, 0, 1] · slices_S8x27x1024x9x3_S8x27x1024x9x1_0_0_0_0_1) : (⟨S8x27x1024x9x3, .f32⟩ : BufTy).Contents (Elt F) → (⟨S8x27x1024x9x1, .f32⟩ : BufTy).Contents (Elt F)) ]
theorem ops10_sub : (ops10 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., reshape_bufs_sub .., unary_bufs_sub ..⟩
theorem ops10_fresh : (ops10 : List (HloOp τ sig (Elt F))).Forall fun op => op.fresh = ∅ :=
  ⟨rfl, rfl, rfl, rfl, rfl, rfl, rfl, rfl, rfl, rfl⟩

/-- Operations 101 … 110 of the line. -/
abbrev ops11 : List (HloOp τ sig (Elt F)) :=
  [ reshape main_v85 main_v86 rfl shapeCasts_S8x27x1024x9x1_S8x27x1024x9,
    unary main_v82 main_v87 ((extractStridedSlice S8x27x1024x9x1 ![0, 0, 0, 0, 2] · slices_S8x27x1024x9x3_S8x27x1024x9x1_0_0_0_0_2) : (⟨S8x27x1024x9x3, .f32⟩ : BufTy).Contents (Elt F) → (⟨S8x27x1024x9x1, .f32⟩ : BufTy).Contents (Elt F)),
    reshape main_v87 main_v88 rfl shapeCasts_S8x27x1024x9x1_S8x27x1024x9,
    binary main_v84 main_v86 main_v89 (mulf : (⟨S8x27x1024x9, .f32⟩ : BufTy).Contents (Elt F) → (⟨S8x27x1024x9, .f32⟩ : BufTy).Contents (Elt F) → (⟨S8x27x1024x9, .f32⟩ : BufTy).Contents (Elt F)),
    binary main_v84 main_v88 main_v90 (mulf : (⟨S8x27x1024x9, .f32⟩ : BufTy).Contents (Elt F) → (⟨S8x27x1024x9, .f32⟩ : BufTy).Contents (Elt F) → (⟨S8x27x1024x9, .f32⟩ : BufTy).Contents (Elt F)),
    binary main_v89 main_v90 main_v91 (addf : (⟨S8x27x1024x9, .f32⟩ : BufTy).Contents (Elt F) → (⟨S8x27x1024x9, .f32⟩ : BufTy).Contents (Elt F) → (⟨S8x27x1024x9, .f32⟩ : BufTy).Contents (Elt F)),
    binary main_v86 main_v88 main_v92 (mulf : (⟨S8x27x1024x9, .f32⟩ : BufTy).Contents (Elt F) → (⟨S8x27x1024x9, .f32⟩ : BufTy).Contents (Elt F) → (⟨S8x27x1024x9, .f32⟩ : BufTy).Contents (Elt F)),
    binary main_v91 main_v92 main_v93 (addf : (⟨S8x27x1024x9, .f32⟩ : BufTy).Contents (Elt F) → (⟨S8x27x1024x9, .f32⟩ : BufTy).Contents (Elt F) → (⟨S8x27x1024x9, .f32⟩ : BufTy).Contents (Elt F)),
    nullary main_cst_12 (constant S_ .f32 0x40000000#32),
    unary main_cst_12 main_v94 (broadcastInDim S8x27x1024x9 ![] bcast_S_S8x27x1024x9 : (⟨S_, .f32⟩ : BufTy).Contents (Elt F) → (⟨S8x27x1024x9, .f32⟩ : BufTy).Contents (Elt F)) ]
theorem ops11_sub : (ops11 : List (HloOp τ sig (Elt F))).Forall fun op => op.bufs ⊆ tcRefs τ sig :=
  ⟨reshape_bufs_sub .., unary_bufs_sub .., reshape_bufs_sub .., binary_bufs_sub .., binary_bufs_sub .., binary_bufs_sub .., binary_bufs_sub .., binary_bufs_sub .., nullary_bufs_sub .., unary_bufs_sub ..⟩
theorem ops11_fresh : (ops11 : List (HloOp τ sig (Elt F))).Forall fun op => op.fresh = ∅ :=
  ⟨rfl, rfl, rfl, rfl, rfl, rfl, rfl, rfl, rfl, rfl⟩

/-- Operations 111 … 120 of the line. -/
abbrev ops12 : List (HloOp τ sig (Elt F)) :=
  [ binary main_v94 main_v84 main_v95 (mulf : (⟨S8x27x1024x9, .f32⟩ : BufTy).Contents (Elt F) → (⟨S8x27x1024x9, .f32⟩ : BufTy).Contents (Elt F) → (⟨S8x27x1024x9, .f32⟩ : BufTy).Contents (Elt F)),
    binary main_v95 main_v86 main_v96 (mulf : (⟨S8x27x1024x9, .f32⟩ : BufTy).Contents (Elt F) → (⟨S8x27x1024x9, .f32⟩ : BufTy).Contents (Elt F) → (⟨S8x27x1024x9, .f32⟩ : BufTy).Contents (Elt F)),
    binary main_v96 main_v88 main_v97 (mulf : (⟨S8x27x1024x9, .f32⟩ : BufTy).Contents (Elt F) → (⟨S8x27x1024x9, .f32⟩ : BufTy).Contents (Elt F) → (⟨S8x27x1024x9, .f32⟩ : BufTy).Contents (Elt F)),
    binary main_v93 main_v97 main_v98 (subf : (⟨S8x27x1024x9, .f32⟩ : BufTy).Contents (Elt F) → (⟨S8x27x1024x9, .f32⟩ : BufTy).Contents (Elt F) → (⟨S8x27x1024x9, .f32⟩ : BufTy).Contents (Elt F)),
    nullary main_cst_13 (constant S_ .f32 0x40000000#32),
    unary main_cst_13 main_v99 (broadcastInDim S8x27x1024x9 ![] bcast_S_S8x27x1024x9 : (⟨S_, .f32⟩ : BufTy).Contents (Elt F) → (⟨S8x27x1024x9, .f32⟩ : BufTy).Contents (Elt F)),
    binary main_v99 main_v98 main_v100 (mulf : (⟨S8x27x1024x9, .f32⟩ : BufTy).Contents (Elt F) → (⟨S8x27x1024x9, .f32⟩ : BufTy).Contents (Elt F) → (⟨S8x27x1024x9, .f32⟩ : BufTy).Contents (Elt F)),
    nullary main_cst_14 (constant S_ .f32 0x3F800000#32),
    unary main_cst_14 main_v101 (broadcastInDim S8x27x1024x9 ![] bcast_S_S8x27x1024x9 : (⟨S_, .f32⟩ : BufTy).Contents (Elt F) → (⟨S8x27x1024x9, .f32⟩ : BufTy).Contents (Elt F)),
    binary main_v100 main_v101 main_v102 (subf : (⟨S8x27x1024x9, .f32⟩ : BufTy).Contents (Elt F) → (⟨S8x27x1024x9, .f32⟩ : BufTy).Contents (Elt F) → (⟨S8x27x1024x9, .f32⟩ : BufTy).Contents (Elt F)) ]
theorem ops12_sub : (ops12 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub ..⟩
theorem ops12_fresh : (ops12 : List (HloOp τ sig (Elt F))).Forall fun op => op.fresh = ∅ :=
  ⟨rfl, rfl, rfl, rfl, rfl, rfl, rfl, rfl, rfl, rfl⟩

/-- Operations 121 … 121 of the line. -/
abbrev ops13 : List (HloOp τ sig (Elt F)) :=
  [ reshape main_v102 main_v103 rfl shapeCasts_S8x27x1024x9_S8x27x1024x3x3 ]
theorem ops13_sub : (ops13 : List (HloOp τ sig (Elt F))).Forall fun op => op.bufs ⊆ tcRefs τ sig :=
  reshape_bufs_sub ..
theorem ops13_fresh : (ops13 : List (HloOp τ sig (Elt F))).Forall fun op => op.fresh = ∅ :=
  rfl

/-- Operations 122 … 130 of the line. -/
abbrev ops14 : List (HloOp τ sig (Elt F)) :=
  [ nullary main_cst_15 (constant S_ .f32 0x3F800000#32),
    unary main_cst_15 main_v104 (broadcastInDim S8x27x1024x3x3 ![] bcast_S_S8x27x1024x3x3 : (⟨S_, .f32⟩ : BufTy).Contents (Elt F) → (⟨S8x27x1024x3x3, .f32⟩ : BufTy).Contents (Elt F)),
    binary main_v103 main_v104 main_v105 (addf : (⟨S8x27x1024x3x3, .f32⟩ : BufTy).Contents (Elt F) → (⟨S8x27x1024x3x3, .f32⟩ : BufTy).Contents (Elt F) → (⟨S8x27x1024x3x3, .f32⟩ : BufTy).Contents (Elt F)),
    nullary main_cst_16 (constant S_ .f32 0x3F000000#32),
    unary main_cst_16 main_v106 (broadcastInDim S8x27x1024x3x3 ![] bcast_S_S8x27x1024x3x3 : (⟨S_, .f32⟩ : BufTy).Contents (Elt F) → (⟨S8x27x1024x3x3, .f32⟩ : BufTy).Contents (Elt F)),
    binary main_v105 main_v106 main_v107 (mulf : (⟨S8x27x1024x3x3, .f32⟩ : BufTy).Contents (Elt F) → (⟨S8x27x1024x3x3, .f32⟩ : BufTy).Contents (Elt F) → (⟨S8x27x1024x3x3, .f32⟩ : BufTy).Contents (Elt F)),
    unary main_v107 main_v108 ((extractStridedSlice S8x27x1024x3x1 ![0, 0, 0, 0, 0] · slices_S8x27x1024x3x3_S8x27x1024x3x1_0_0_0_0_0) : (⟨S8x27x1024x3x3, .f32⟩ : BufTy).Contents (Elt F) → (⟨S8x27x1024x3x1, .f32⟩ : BufTy).Contents (Elt F)),
    reshape main_v108 main_v109 rfl shapeCasts_S8x27x1024x3x1_S8x27x1024x3,
    unary main_v107 main_v110 ((extractStridedSlice S8x27x1024x3x1 ![0, 0, 0, 0, 1] · slices_S8x27x1024x3x3_S8x27x1024x3x1_0_0_0_0_1) : (⟨S8x27x1024x3x3, .f32⟩ : BufTy).Contents (Elt F) → (⟨S8x27x1024x3x1, .f32⟩ : BufTy).Contents (Elt F)) ]
theorem ops14_sub : (ops14 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., reshape_bufs_sub .., unary_bufs_sub ..⟩
theorem ops14_fresh : (ops14 : List (HloOp τ sig (Elt F))).Forall fun op => op.fresh = ∅ :=
  ⟨rfl, rfl, rfl, rfl, rfl, rfl, rfl, rfl, rfl⟩

/-- Operations 131 … 140 of the line. -/
abbrev ops15 : List (HloOp τ sig (Elt F)) :=
  [ reshape main_v110 main_v111 rfl shapeCasts_S8x27x1024x3x1_S8x27x1024x3,
    unary main_v107 main_v112 ((extractStridedSlice S8x27x1024x3x1 ![0, 0, 0, 0, 2] · slices_S8x27x1024x3x3_S8x27x1024x3x1_0_0_0_0_2) : (⟨S8x27x1024x3x3, .f32⟩ : BufTy).Contents (Elt F) → (⟨S8x27x1024x3x1, .f32⟩ : BufTy).Contents (Elt F)),
    reshape main_v112 main_v113 rfl shapeCasts_S8x27x1024x3x1_S8x27x1024x3,
    binary main_v109 main_v111 main_v114 (mulf : (⟨S8x27x1024x3, .f32⟩ : BufTy).Contents (Elt F) → (⟨S8x27x1024x3, .f32⟩ : BufTy).Contents (Elt F) → (⟨S8x27x1024x3, .f32⟩ : BufTy).Contents (Elt F)),
    binary main_v109 main_v113 main_v115 (mulf : (⟨S8x27x1024x3, .f32⟩ : BufTy).Contents (Elt F) → (⟨S8x27x1024x3, .f32⟩ : BufTy).Contents (Elt F) → (⟨S8x27x1024x3, .f32⟩ : BufTy).Contents (Elt F)),
    binary main_v114 main_v115 main_v116 (addf : (⟨S8x27x1024x3, .f32⟩ : BufTy).Contents (Elt F) → (⟨S8x27x1024x3, .f32⟩ : BufTy).Contents (Elt F) → (⟨S8x27x1024x3, .f32⟩ : BufTy).Contents (Elt F)),
    binary main_v111 main_v113 main_v117 (mulf : (⟨S8x27x1024x3, .f32⟩ : BufTy).Contents (Elt F) → (⟨S8x27x1024x3, .f32⟩ : BufTy).Contents (Elt F) → (⟨S8x27x1024x3, .f32⟩ : BufTy).Contents (Elt F)),
    binary main_v116 main_v117 main_v118 (addf : (⟨S8x27x1024x3, .f32⟩ : BufTy).Contents (Elt F) → (⟨S8x27x1024x3, .f32⟩ : BufTy).Contents (Elt F) → (⟨S8x27x1024x3, .f32⟩ : BufTy).Contents (Elt F)),
    nullary main_cst_17 (constant S_ .f32 0x40000000#32),
    unary main_cst_17 main_v119 (broadcastInDim S8x27x1024x3 ![] bcast_S_S8x27x1024x3 : (⟨S_, .f32⟩ : BufTy).Contents (Elt F) → (⟨S8x27x1024x3, .f32⟩ : BufTy).Contents (Elt F)) ]
theorem ops15_sub : (ops15 : List (HloOp τ sig (Elt F))).Forall fun op => op.bufs ⊆ tcRefs τ sig :=
  ⟨reshape_bufs_sub .., unary_bufs_sub .., reshape_bufs_sub .., binary_bufs_sub .., binary_bufs_sub .., binary_bufs_sub .., binary_bufs_sub .., binary_bufs_sub .., nullary_bufs_sub .., unary_bufs_sub ..⟩
theorem ops15_fresh : (ops15 : List (HloOp τ sig (Elt F))).Forall fun op => op.fresh = ∅ :=
  ⟨rfl, rfl, rfl, rfl, rfl, rfl, rfl, rfl, rfl, rfl⟩

/-- Operations 141 … 150 of the line. -/
abbrev ops16 : List (HloOp τ sig (Elt F)) :=
  [ binary main_v119 main_v109 main_v120 (mulf : (⟨S8x27x1024x3, .f32⟩ : BufTy).Contents (Elt F) → (⟨S8x27x1024x3, .f32⟩ : BufTy).Contents (Elt F) → (⟨S8x27x1024x3, .f32⟩ : BufTy).Contents (Elt F)),
    binary main_v120 main_v111 main_v121 (mulf : (⟨S8x27x1024x3, .f32⟩ : BufTy).Contents (Elt F) → (⟨S8x27x1024x3, .f32⟩ : BufTy).Contents (Elt F) → (⟨S8x27x1024x3, .f32⟩ : BufTy).Contents (Elt F)),
    binary main_v121 main_v113 main_v122 (mulf : (⟨S8x27x1024x3, .f32⟩ : BufTy).Contents (Elt F) → (⟨S8x27x1024x3, .f32⟩ : BufTy).Contents (Elt F) → (⟨S8x27x1024x3, .f32⟩ : BufTy).Contents (Elt F)),
    binary main_v118 main_v122 main_v123 (subf : (⟨S8x27x1024x3, .f32⟩ : BufTy).Contents (Elt F) → (⟨S8x27x1024x3, .f32⟩ : BufTy).Contents (Elt F) → (⟨S8x27x1024x3, .f32⟩ : BufTy).Contents (Elt F)),
    nullary main_cst_18 (constant S_ .f32 0x40000000#32),
    unary main_cst_18 main_v124 (broadcastInDim S8x27x1024x3 ![] bcast_S_S8x27x1024x3 : (⟨S_, .f32⟩ : BufTy).Contents (Elt F) → (⟨S8x27x1024x3, .f32⟩ : BufTy).Contents (Elt F)),
    binary main_v124 main_v123 main_v125 (mulf : (⟨S8x27x1024x3, .f32⟩ : BufTy).Contents (Elt F) → (⟨S8x27x1024x3, .f32⟩ : BufTy).Contents (Elt F) → (⟨S8x27x1024x3, .f32⟩ : BufTy).Contents (Elt F)),
    nullary main_cst_19 (constant S_ .f32 0x3F800000#32),
    unary main_cst_19 main_v126 (broadcastInDim S8x27x1024x3 ![] bcast_S_S8x27x1024x3 : (⟨S_, .f32⟩ : BufTy).Contents (Elt F) → (⟨S8x27x1024x3, .f32⟩ : BufTy).Contents (Elt F)),
    binary main_v125 main_v126 main_v127 (subf : (⟨S8x27x1024x3, .f32⟩ : BufTy).Contents (Elt F) → (⟨S8x27x1024x3, .f32⟩ : BufTy).Contents (Elt F) → (⟨S8x27x1024x3, .f32⟩ : BufTy).Contents (Elt F)) ]
theorem ops16_sub : (ops16 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub ..⟩
theorem ops16_fresh : (ops16 : List (HloOp τ sig (Elt F))).Forall fun op => op.fresh = ∅ :=
  ⟨rfl, rfl, rfl, rfl, rfl, rfl, rfl, rfl, rfl, rfl⟩

/-- Operations 151 … 160 of the line. -/
abbrev ops17 : List (HloOp τ sig (Elt F)) :=
  [ reshape main_v127 main_v128 rfl shapeCasts_S8x27x1024x3_S8x27x1024x1x3,
    nullary main_cst_20 (constant S_ .f32 0x3F800000#32),
    unary main_cst_20 main_v129 (broadcastInDim S8x27x1024x1x3 ![] bcast_S_S8x27x1024x1x3 : (⟨S_, .f32⟩ : BufTy).Contents (Elt F) → (⟨S8x27x1024x1x3, .f32⟩ : BufTy).Contents (Elt F)),
    binary main_v128 main_v129 main_v130 (addf : (⟨S8x27x1024x1x3, .f32⟩ : BufTy).Contents (Elt F) → (⟨S8x27x1024x1x3, .f32⟩ : BufTy).Contents (Elt F) → (⟨S8x27x1024x1x3, .f32⟩ : BufTy).Contents (Elt F)),
    nullary main_cst_21 (constant S_ .f32 0x3F000000#32),
    unary main_cst_21 main_v131 (broadcastInDim S8x27x1024x1x3 ![] bcast_S_S8x27x1024x1x3 : (⟨S_, .f32⟩ : BufTy).Contents (Elt F) → (⟨S8x27x1024x1x3, .f32⟩ : BufTy).Contents (Elt F)),
    binary main_v130 main_v131 main_v132 (mulf : (⟨S8x27x1024x1x3, .f32⟩ : BufTy).Contents (Elt F) → (⟨S8x27x1024x1x3, .f32⟩ : BufTy).Contents (Elt F) → (⟨S8x27x1024x1x3, .f32⟩ : BufTy).Contents (Elt F)),
    unary main_v132 main_v133 ((extractStridedSlice S8x27x1024x1x1 ![0, 0, 0, 0, 0] · slices_S8x27x1024x1x3_S8x27x1024x1x1_0_0_0_0_0) : (⟨S8x27x1024x1x3, .f32⟩ : BufTy).Contents (Elt F) → (⟨S8x27x1024x1x1, .f32⟩ : BufTy).Contents (Elt F)),
    reshape main_v133 main_v134 rfl shapeCasts_S8x27x1024x1x1_S8x27x1024x1,
    unary main_v132 main_v135 ((extractStridedSlice S8x27x1024x1x1 ![0, 0, 0, 0, 1] · slices_S8x27x1024x1x3_S8x27x1024x1x1_0_0_0_0_1) : (⟨S8x27x1024x1x3, .f32⟩ : BufTy).Contents (Elt F) → (⟨S8x27x1024x1x1, .f32⟩ : BufTy).Contents (Elt F)) ]
theorem ops17_sub : (ops17 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., reshape_bufs_sub .., unary_bufs_sub ..⟩
theorem ops17_fresh : (ops17 : List (HloOp τ sig (Elt F))).Forall fun op => op.fresh = ∅ :=
  ⟨rfl, rfl, rfl, rfl, rfl, rfl, rfl, rfl, rfl, rfl⟩

/-- Operations 161 … 170 of the line. -/
abbrev ops18 : List (HloOp τ sig (Elt F)) :=
  [ reshape main_v135 main_v136 rfl shapeCasts_S8x27x1024x1x1_S8x27x1024x1,
    unary main_v132 main_v137 ((extractStridedSlice S8x27x1024x1x1 ![0, 0, 0, 0, 2] · slices_S8x27x1024x1x3_S8x27x1024x1x1_0_0_0_0_2) : (⟨S8x27x1024x1x3, .f32⟩ : BufTy).Contents (Elt F) → (⟨S8x27x1024x1x1, .f32⟩ : BufTy).Contents (Elt F)),
    reshape main_v137 main_v138 rfl shapeCasts_S8x27x1024x1x1_S8x27x1024x1,
    binary main_v134 main_v136 main_v139 (mulf : (⟨S8x27x1024x1, .f32⟩ : BufTy).Contents (Elt F) → (⟨S8x27x1024x1, .f32⟩ : BufTy).Contents (Elt F) → (⟨S8x27x1024x1, .f32⟩ : BufTy).Contents (Elt F)),
    binary main_v134 main_v138 main_v140 (mulf : (⟨S8x27x1024x1, .f32⟩ : BufTy).Contents (Elt F) → (⟨S8x27x1024x1, .f32⟩ : BufTy).Contents (Elt F) → (⟨S8x27x1024x1, .f32⟩ : BufTy).Contents (Elt F)),
    binary main_v139 main_v140 main_v141 (addf : (⟨S8x27x1024x1, .f32⟩ : BufTy).Contents (Elt F) → (⟨S8x27x1024x1, .f32⟩ : BufTy).Contents (Elt F) → (⟨S8x27x1024x1, .f32⟩ : BufTy).Contents (Elt F)),
    binary main_v136 main_v138 main_v142 (mulf : (⟨S8x27x1024x1, .f32⟩ : BufTy).Contents (Elt F) → (⟨S8x27x1024x1, .f32⟩ : BufTy).Contents (Elt F) → (⟨S8x27x1024x1, .f32⟩ : BufTy).Contents (Elt F)),
    binary main_v141 main_v142 main_v143 (addf : (⟨S8x27x1024x1, .f32⟩ : BufTy).Contents (Elt F) → (⟨S8x27x1024x1, .f32⟩ : BufTy).Contents (Elt F) → (⟨S8x27x1024x1, .f32⟩ : BufTy).Contents (Elt F)),
    nullary main_cst_22 (constant S_ .f32 0x40000000#32),
    unary main_cst_22 main_v144 (broadcastInDim S8x27x1024x1 ![] bcast_S_S8x27x1024x1 : (⟨S_, .f32⟩ : BufTy).Contents (Elt F) → (⟨S8x27x1024x1, .f32⟩ : BufTy).Contents (Elt F)) ]
theorem ops18_sub : (ops18 : List (HloOp τ sig (Elt F))).Forall fun op => op.bufs ⊆ tcRefs τ sig :=
  ⟨reshape_bufs_sub .., unary_bufs_sub .., reshape_bufs_sub .., binary_bufs_sub .., binary_bufs_sub .., binary_bufs_sub .., binary_bufs_sub .., binary_bufs_sub .., nullary_bufs_sub .., unary_bufs_sub ..⟩
theorem ops18_fresh : (ops18 : List (HloOp τ sig (Elt F))).Forall fun op => op.fresh = ∅ :=
  ⟨rfl, rfl, rfl, rfl, rfl, rfl, rfl, rfl, rfl, rfl⟩

/-- Operations 171 … 180 of the line. -/
abbrev ops19 : List (HloOp τ sig (Elt F)) :=
  [ binary main_v144 main_v134 main_v145 (mulf : (⟨S8x27x1024x1, .f32⟩ : BufTy).Contents (Elt F) → (⟨S8x27x1024x1, .f32⟩ : BufTy).Contents (Elt F) → (⟨S8x27x1024x1, .f32⟩ : BufTy).Contents (Elt F)),
    binary main_v145 main_v136 main_v146 (mulf : (⟨S8x27x1024x1, .f32⟩ : BufTy).Contents (Elt F) → (⟨S8x27x1024x1, .f32⟩ : BufTy).Contents (Elt F) → (⟨S8x27x1024x1, .f32⟩ : BufTy).Contents (Elt F)),
    binary main_v146 main_v138 main_v147 (mulf : (⟨S8x27x1024x1, .f32⟩ : BufTy).Contents (Elt F) → (⟨S8x27x1024x1, .f32⟩ : BufTy).Contents (Elt F) → (⟨S8x27x1024x1, .f32⟩ : BufTy).Contents (Elt F)),
    binary main_v143 main_v147 main_v148 (subf : (⟨S8x27x1024x1, .f32⟩ : BufTy).Contents (Elt F) → (⟨S8x27x1024x1, .f32⟩ : BufTy).Contents (Elt F) → (⟨S8x27x1024x1, .f32⟩ : BufTy).Contents (Elt F)),
    nullary main_cst_23 (constant S_ .f32 0x40000000#32),
    unary main_cst_23 main_v149 (broadcastInDim S8x27x1024x1 ![] bcast_S_S8x27x1024x1 : (⟨S_, .f32⟩ : BufTy).Contents (Elt F) → (⟨S8x27x1024x1, .f32⟩ : BufTy).Contents (Elt F)),
    binary main_v149 main_v148 main_v150 (mulf : (⟨S8x27x1024x1, .f32⟩ : BufTy).Contents (Elt F) → (⟨S8x27x1024x1, .f32⟩ : BufTy).Contents (Elt F) → (⟨S8x27x1024x1, .f32⟩ : BufTy).Contents (Elt F)),
    nullary main_cst_24 (constant S_ .f32 0x3F800000#32),
    unary main_cst_24 main_v151 (broadcastInDim S8x27x1024x1 ![] bcast_S_S8x27x1024x1 : (⟨S_, .f32⟩ : BufTy).Contents (Elt F) → (⟨S8x27x1024x1, .f32⟩ : BufTy).Contents (Elt F)),
    binary main_v150 main_v151 main_v152 (subf : (⟨S8x27x1024x1, .f32⟩ : BufTy).Contents (Elt F) → (⟨S8x27x1024x1, .f32⟩ : BufTy).Contents (Elt F) → (⟨S8x27x1024x1, .f32⟩ : BufTy).Contents (Elt F)) ]
theorem ops19_sub : (ops19 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub ..⟩
theorem ops19_fresh : (ops19 : List (HloOp τ sig (Elt F))).Forall fun op => op.fresh = ∅ :=
  ⟨rfl, rfl, rfl, rfl, rfl, rfl, rfl, rfl, rfl, rfl⟩

/-- Operations 181 … 181 of the line. -/
abbrev ops20 : List (HloOp τ sig (Elt F)) :=
  [ reshape main_v152 main_v153 rfl shapeCasts_S8x27x1024x1_S8x27x1024 ]
theorem ops20_sub : (ops20 : List (HloOp τ sig (Elt F))).Forall fun op => op.bufs ⊆ tcRefs τ sig :=
  reshape_bufs_sub ..
theorem ops20_fresh : (ops20 : List (HloOp τ sig (Elt F))).Forall fun op => op.fresh = ∅ :=
  rfl

/-- Operations 182 … 182 of the line. -/
abbrev ops21 : List (HloOp τ sig (Elt F)) :=
  [ reshape main_v153 main_v154 rfl shapeCasts_S8x27x1024_S8x27x32x32 ]
theorem ops21_sub : (ops21 : List (HloOp τ sig (Elt F))).Forall fun op => op.bufs ⊆ tcRefs τ sig :=
  reshape_bufs_sub ..
theorem ops21_fresh : (ops21 : List (HloOp τ sig (Elt F))).Forall fun op => op.fresh = ∅ :=
  rfl

/-- The patches and the 243 leaves (operations 1 … 30). -/
abbrev opsPre : List (HloOp τ sig (Elt F)) := ops00 ++ ops01 ++ ops02
theorem opsPre_sub : (opsPre : List (HloOp τ sig (Elt F))).Forall fun op => op.bufs ⊆ tcRefs τ sig :=
  forall_append (forall_append (ops00_sub) ops01_sub) ops02_sub
theorem opsPre_fresh : (opsPre : List (HloOp τ sig (Elt F))).Forall fun op => op.fresh = ∅ :=
  forall_append (forall_append (ops00_fresh) ops01_fresh) ops02_fresh

/-- Gate level 1, 243 to 81 (operations 31 … 60). -/
abbrev opsL1 : List (HloOp τ sig (Elt F)) := ops03 ++ ops04 ++ ops05
theorem opsL1_sub : (opsL1 : List (HloOp τ sig (Elt F))).Forall fun op => op.bufs ⊆ tcRefs τ sig :=
  forall_append (forall_append (ops03_sub) ops04_sub) ops05_sub
theorem opsL1_fresh : (opsL1 : List (HloOp τ sig (Elt F))).Forall fun op => op.fresh = ∅ :=
  forall_append (forall_append (ops03_fresh) ops04_fresh) ops05_fresh

/-- Gate level 2, 81 to 27 (operations 61 … 90). -/
abbrev opsL2 : List (HloOp τ sig (Elt F)) := ops06 ++ ops07 ++ ops08 ++ ops09
theorem opsL2_sub : (opsL2 : List (HloOp τ sig (Elt F))).Forall fun op => op.bufs ⊆ tcRefs τ sig :=
  forall_append (forall_append (forall_append (ops06_sub) ops07_sub) ops08_sub) ops09_sub
theorem opsL2_fresh : (opsL2 : List (HloOp τ sig (Elt F))).Forall fun op => op.fresh = ∅ :=
  forall_append (forall_append (forall_append (ops06_fresh) ops07_fresh) ops08_fresh) ops09_fresh

/-- Gate level 3, 27 to 9 (operations 91 … 120). -/
abbrev opsL3 : List (HloOp τ sig (Elt F)) := ops10 ++ ops11 ++ ops12
theorem opsL3_sub : (opsL3 : List (HloOp τ sig (Elt F))).Forall fun op => op.bufs ⊆ tcRefs τ sig :=
  forall_append (forall_append (ops10_sub) ops11_sub) ops12_sub
theorem opsL3_fresh : (opsL3 : List (HloOp τ sig (Elt F))).Forall fun op => op.fresh = ∅ :=
  forall_append (forall_append (ops10_fresh) ops11_fresh) ops12_fresh

/-- Gate level 4, 9 to 3 (operations 121 … 150). -/
abbrev opsL4 : List (HloOp τ sig (Elt F)) := ops13 ++ ops14 ++ ops15 ++ ops16
theorem opsL4_sub : (opsL4 : List (HloOp τ sig (Elt F))).Forall fun op => op.bufs ⊆ tcRefs τ sig :=
  forall_append (forall_append (forall_append (ops13_sub) ops14_sub) ops15_sub) ops16_sub
theorem opsL4_fresh : (opsL4 : List (HloOp τ sig (Elt F))).Forall fun op => op.fresh = ∅ :=
  forall_append (forall_append (forall_append (ops13_fresh) ops14_fresh) ops15_fresh) ops16_fresh

/-- Gate level 5, 3 to 1 (operations 151 … 180). -/
abbrev opsL5 : List (HloOp τ sig (Elt F)) := ops17 ++ ops18 ++ ops19
theorem opsL5_sub : (opsL5 : List (HloOp τ sig (Elt F))).Forall fun op => op.bufs ⊆ tcRefs τ sig :=
  forall_append (forall_append (ops17_sub) ops18_sub) ops19_sub
theorem opsL5_fresh : (opsL5 : List (HloOp τ sig (Elt F))).Forall fun op => op.fresh = ∅ :=
  forall_append (forall_append (ops17_fresh) ops18_fresh) ops19_fresh

/-- The two closing reshapes (operations 181, 182). -/
abbrev opsFin : List (HloOp τ sig (Elt F)) := ops20 ++ ops21
theorem opsFin_sub : (opsFin : List (HloOp τ sig (Elt F))).Forall fun op => op.bufs ⊆ tcRefs τ sig :=
  forall_append (ops20_sub) ops21_sub
theorem opsFin_fresh : (opsFin : List (HloOp τ sig (Elt F))).Forall fun op => op.fresh = ∅ :=
  forall_append (ops20_fresh) ops21_fresh

/-- The whole line. -/
abbrev ops : List (HloOp τ sig (Elt F)) := opsPre ++ opsL1 ++ opsL2 ++ opsL3 ++ opsL4 ++ opsL5 ++ opsFin
theorem ops_sub : (ops : List (HloOp τ sig (Elt F))).Forall fun op => op.bufs ⊆ tcRefs τ sig :=
  forall_append (forall_append (forall_append (forall_append (forall_append (forall_append (opsPre_sub) opsL1_sub) opsL2_sub) opsL3_sub) opsL4_sub) opsL5_sub) opsFin_sub
theorem ops_fresh : (ops : List (HloOp τ sig (Elt F))).Forall fun op => op.fresh = ∅ :=
  forall_append (forall_append (forall_append (forall_append (forall_append (forall_append (opsPre_fresh) opsL1_fresh) opsL2_fresh) opsL3_fresh) opsL4_fresh) opsL5_fresh) opsFin_fresh

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
/-- The program is the line run in order. -/
theorem main_eq (c : Dev nD) : main (F := F) c = seq ops := rfl

end Cert.RefRun

end
-- ==== Proof.RefRunRead.lean ====
/-
  The reference's line read in stages.

  The buffers' contents after the line are a left fold of the operations' results, and the fold of a concatenation is
  the fold of its second part over the fold of its first. So the line is read one gate level at a time: whatever the
  contents W before a level, if the level's one live input buffer holds the previous stage's value at the arguments
  (x0, x1), its output buffer holds the level's stage value at (x0, x1) afterwards — a level reads nothing else written
  before it, its constants are its own. No stretch writes the two argument buffers.
-/
import proofs.«106421_j67250597921090_2_alg».proof.Proof.RefRunOps
import proofs.«106421_j67250597921090_2_alg».proof.Proof.RefReadP

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After the first thirty operations the leaves' buffer holds the leaves' stage value at the two arguments. -/
theorem pre_read (V : Valuation τ sig (Elt F)) :
    after opsPre V (Proc.devRef .tc main_v27)
      = ReadP.val_main_v27 (F := F) (V (Proc.devRef .tc main_arg0)) (V (Proc.devRef .tc main_arg1)) := by
  simp only [opsPre, ops00, ops01, ops02, List.cons_append, List.nil_append]
  after_results_simp
  rfl

set_option maxRecDepth 8192 in
/-- Gate level 1: from the previous stage's value in its input buffer to its own stage value in its output buffer. -/
theorem l1_read (W : Valuation τ sig (Elt F)) (x0 : (⟨S8x27x32x32, .f32⟩ : BufTy).Contents (Elt F)) (x1 : (⟨S27x27x3x3, .f32⟩ : BufTy).Contents (Elt F))
    (h : W (Proc.devRef .tc main_v27) = ReadP.val_main_v27 (F := F) x0 x1) :
    after opsL1 W (Proc.devRef .tc main_v52) = ReadP.val_main_v52 (F := F) x0 x1 := by
  simp only [opsL1, ops03, ops04, ops05, List.cons_append, List.nil_append]
  after_results_simp
  rw [h]
  rfl

set_option maxRecDepth 8192 in
/-- Gate level 2: from the previous stage's value in its input buffer to its own stage value in its output buffer. -/
theorem l2_read (W : Valuation τ sig (Elt F)) (x0 : (⟨S8x27x32x32, .f32⟩ : BufTy).Contents (Elt F)) (x1 : (⟨S27x27x3x3, .f32⟩ : BufTy).Contents (Elt F))
    (h : W (Proc.devRef .tc main_v52) = ReadP.val_main_v52 (F := F) x0 x1) :
    after opsL2 W (Proc.devRef .tc main_v77) = ReadP.val_main_v77 (F := F) x0 x1 := by
  simp only [opsL2, ops06, ops07, ops08, ops09, List.cons_append, List.nil_append]
  after_results_simp
  rw [h]
  rfl

set_option maxRecDepth 8192 in
/-- Gate level 3: from the previous stage's value in its input buffer to its own stage value in its output buffer. -/
theorem l3_read (W : Valuation τ sig (Elt F)) (x0 : (⟨S8x27x32x32, .f32⟩ : BufTy).Contents (Elt F)) (x1 : (⟨S27x27x3x3, .f32⟩ : BufTy).Contents (Elt F))
    (h : W (Proc.devRef .tc main_v77) = ReadP.val_main_v77 (F := F) x0 x1) :
    after opsL3 W (Proc.devRef .tc main_v102) = ReadP.val_main_v102 (F := F) x0 x1 := by
  simp only [opsL3, ops10, ops11, ops12, List.cons_append, List.nil_append]
  after_results_simp
  rw [h]
  rfl

set_option maxRecDepth 8192 in
/-- Gate level 4: from the previous stage's value in its input buffer to its own stage value in its output buffer. -/
theorem l4_read (W : Valuation τ sig (Elt F)) (x0 : (⟨S8x27x32x32, .f32⟩ : BufTy).Contents (Elt F)) (x1 : (⟨S27x27x3x3, .f32⟩ : BufTy).Contents (Elt F))
    (h : W (Proc.devRef .tc main_v102) = ReadP.val_main_v102 (F := F) x0 x1) :
    after opsL4 W (Proc.devRef .tc main_v127) = ReadP.val_main_v127 (F := F) x0 x1 := by
  simp only [opsL4, ops13, ops14, ops15, ops16, List.cons_append, List.nil_append]
  after_results_simp
  rw [h]
  rfl

set_option maxRecDepth 8192 in
/-- Gate level 5: from the previous stage's value in its input buffer to its own stage value in its output buffer. -/
theorem l5_read (W : Valuation τ sig (Elt F)) (x0 : (⟨S8x27x32x32, .f32⟩ : BufTy).Contents (Elt F)) (x1 : (⟨S27x27x3x3, .f32⟩ : BufTy).Contents (Elt F))
    (h : W (Proc.devRef .tc main_v127) = ReadP.val_main_v127 (F := F) x0 x1) :
    after opsL5 W (Proc.devRef .tc main_v152) = ReadP.val_main_v152 (F := F) x0 x1 := by
  simp only [opsL5, ops17, ops18, ops19, List.cons_append, List.nil_append]
  after_results_simp
  rw [h]
  rfl

set_option maxRecDepth 8192 in
/-- The closing reshapes: from the previous stage's value in its input buffer to its own stage value in its output buffer. -/
theorem fin_read (W : Valuation τ sig (Elt F)) (x0 : (⟨S8x27x32x32, .f32⟩ : BufTy).Contents (Elt F)) (x1 : (⟨S27x27x3x3, .f32⟩ : BufTy).Contents (Elt F))
    (h : W (Proc.devRef .tc main_v152) = ReadP.val_main_v152 (F := F) x0 x1) :
    after opsFin W (Proc.devRef .tc main_v154) = ReadP.val_main_v154 (F := F) x0 x1 := by
  simp only [opsFin, ops20, ops21, List.cons_append, List.nil_append]
  after_results_simp
  rw [h]
  rfl

set_option maxRecDepth 8192 in
theorem pre_arg0 (W : Valuation τ sig (Elt F)) : after opsPre W (Proc.devRef .tc main_arg0) = W (Proc.devRef .tc main_arg0) := by
  simp only [opsPre, ops00, ops01, ops02, List.cons_append, List.nil_append]
  after_results_simp

set_option maxRecDepth 8192 in
theorem pre_arg1 (W : Valuation τ sig (Elt F)) : after opsPre W (Proc.devRef .tc main_arg1) = W (Proc.devRef .tc main_arg1) := by
  simp only [opsPre, ops00, ops01, ops02, List.cons_append, List.nil_append]
  after_results_simp

set_option maxRecDepth 8192 in
theorem l1_arg0 (W : Valuation τ sig (Elt F)) : after opsL1 W (Proc.devRef .tc main_arg0) = W (Proc.devRef .tc main_arg0) := by
  simp only [opsL1, ops03, ops04, ops05, List.cons_append, List.nil_append]
  after_results_simp

set_option maxRecDepth 8192 in
theorem l1_arg1 (W : Valuation τ sig (Elt F)) : after opsL1 W (Proc.devRef .tc main_arg1) = W (Proc.devRef .tc main_arg1) := by
  simp only [opsL1, ops03, ops04, ops05, List.cons_append, List.nil_append]
  after_results_simp

set_option maxRecDepth 8192 in
theorem l2_arg0 (W : Valuation τ sig (Elt F)) : after opsL2 W (Proc.devRef .tc main_arg0) = W (Proc.devRef .tc main_arg0) := by
  simp only [opsL2, ops06, ops07, ops08, ops09, List.cons_append, List.nil_append]
  after_results_simp

set_option maxRecDepth 8192 in
theorem l2_arg1 (W : Valuation τ sig (Elt F)) : after opsL2 W (Proc.devRef .tc main_arg1) = W (Proc.devRef .tc main_arg1) := by
  simp only [opsL2, ops06, ops07, ops08, ops09, List.cons_append, List.nil_append]
  after_results_simp

set_option maxRecDepth 8192 in
theorem l3_arg0 (W : Valuation τ sig (Elt F)) : after opsL3 W (Proc.devRef .tc main_arg0) = W (Proc.devRef .tc main_arg0) := by
  simp only [opsL3, ops10, ops11, ops12, List.cons_append, List.nil_append]
  after_results_simp

set_option maxRecDepth 8192 in
theorem l3_arg1 (W : Valuation τ sig (Elt F)) : after opsL3 W (Proc.devRef .tc main_arg1) = W (Proc.devRef .tc main_arg1) := by
  simp only [opsL3, ops10, ops11, ops12, List.cons_append, List.nil_append]
  after_results_simp

set_option maxRecDepth 8192 in
theorem l4_arg0 (W : Valuation τ sig (Elt F)) : after opsL4 W (Proc.devRef .tc main_arg0) = W (Proc.devRef .tc main_arg0) := by
  simp only [opsL4, ops13, ops14, ops15, ops16, List.cons_append, List.nil_append]
  after_results_simp

set_option maxRecDepth 8192 in
theorem l4_arg1 (W : Valuation τ sig (Elt F)) : after opsL4 W (Proc.devRef .tc main_arg1) = W (Proc.devRef .tc main_arg1) := by
  simp only [opsL4, ops13, ops14, ops15, ops16, List.cons_append, List.nil_append]
  after_results_simp

set_option maxRecDepth 8192 in
theorem l5_arg0 (W : Valuation τ sig (Elt F)) : after opsL5 W (Proc.devRef .tc main_arg0) = W (Proc.devRef .tc main_arg0) := by
  simp only [opsL5, ops17, ops18, ops19, List.cons_append, List.nil_append]
  after_results_simp

set_option maxRecDepth 8192 in
theorem l5_arg1 (W : Valuation τ sig (Elt F)) : after opsL5 W (Proc.devRef .tc main_arg1) = W (Proc.devRef .tc main_arg1) := by
  simp only [opsL5, ops17, ops18, ops19, List.cons_append, List.nil_append]
  after_results_simp

set_option maxRecDepth 8192 in
theorem fin_arg0 (W : Valuation τ sig (Elt F)) : after opsFin W (Proc.devRef .tc main_arg0) = W (Proc.devRef .tc main_arg0) := by
  simp only [opsFin, ops20, ops21, List.cons_append, List.nil_append]
  after_results_simp

set_option maxRecDepth 8192 in
theorem fin_arg1 (W : Valuation τ sig (Elt F)) : after opsFin W (Proc.devRef .tc main_arg1) = W (Proc.devRef .tc main_arg1) := by
  simp only [opsFin, ops20, ops21, List.cons_append, List.nil_append]
  after_results_simp

/-- The line's fold, level by level. -/
theorem after_ops (V : Valuation τ sig (Elt F)) :
    after ops V = after opsFin (after opsL5 (after opsL4 (after opsL3 (after opsL2 (after opsL1 (after opsPre V)))))) := by
  simp only [ops, HostFold.after_append]

/-- After the whole line the result buffer holds the last stage's value at the two arguments, which are unchanged. -/
theorem ops_read (V : Valuation τ sig (Elt F)) :
    after ops V (Proc.devRef .tc main_v154)
        = ReadP.val_main_v154 (F := F) (V (Proc.devRef .tc main_arg0)) (V (Proc.devRef .tc main_arg1))
      ∧ after ops V (Proc.devRef .tc main_arg0) = V (Proc.devRef .tc main_arg0)
      ∧ after ops V (Proc.devRef .tc main_arg1) = V (Proc.devRef .tc main_arg1) := by
  rw [after_ops]
  refine ⟨fin_read _ _ _ (l5_read _ _ _ (l4_read _ _ _ (l3_read _ _ _ (l2_read _ _ _ (l1_read _ _ _ (pre_read V)))))), ?_, ?_⟩
  · rw [fin_arg0, l5_arg0, l4_arg0, l3_arg0, l2_arg0, l1_arg0, pre_arg0]
  · rw [fin_arg1, l5_arg1, l4_arg1, l3_arg1, l2_arg1, l1_arg1, pre_arg1]

end Cert.RefRun

end
-- ==== Proof.RefRun.lean ====
/-
  The reference's run.

  The program is a straight line of host operations on each core; every weakly fair execution of such a line
  terminates with each of the core's buffers at the fold of the operations' results over its launch contents. Read in
  stages, that fold leaves the result buffer at the last stage's value of the two arguments' launch contents, and the
  arguments' buffers as they were.
-/
import proofs.«106421_j67250597921090_2_alg».proof.Proof.Gen.ReferenceIdeal
import proofs.«106421_j67250597921090_2_alg».proof.Proof.RefReadP
import proofs.«106421_j67250597921090_2_alg».proof.Proof.LibHostFold
import proofs.«106421_j67250597921090_2_alg».proof.Proof.RefRunOps
import proofs.«106421_j67250597921090_2_alg».proof.Proof.RefRunRead
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of the
    reference terminates with its result buffer at the last stage's value of the arguments' launch contents, and the
    arguments unchanged. -/
theorem ref_run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v154)
          = ReadP.val_main_v154 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v154).trans (ops_read (launchContents m c)).1,
       (h c main_arg0).trans (ops_read (launchContents m c)).2.1,
       (h c main_arg1).trans (ops_read (launchContents m c)).2.2⟩)
    (run_seq scopedRefs_eq scopedSems_eq defs main (fun _ => ops) main_eq (fun _ => ops_sub) m ρ
      (fun _ => List.forall_iff_forall_mem.1 ops_fresh))

end Cert.RefRun

end
-- ==== Proof.lean ====
/-
  The certificate of the majority-gate convolution: the kernel's program (a pallas_call over the grid 8 x 2 between
  host lines) against its jnp reference, at the extended reals.

  The three frames: the kernel's program at both instances runs to its end with the arguments unchanged (the run of
  its one region, module KernelFrame / KernelIdealFrame); the reference is a straight line of host operations
  (module RefRun).  No operation of the kernel was rewritten for the idealized reading, so that conjunct is trivial.
  The equivalence: the kernel's result array is the gate tree walked in the unit domain over the products
  patches * weights (KernelValue), the reference's is the tree walked in the sign domain (RefTree); the patches and the
  weights are the same arrays in both programs, every entry of them is real because every input is (Finite), and on
  real leaves the two walks agree (TreeLaw, Bridge).  Both programs finish with the same reshape to [8, 27, 32, 32].
-/
import proofs.«106421_j67250597921090_2_alg».proof.Defs
import proofs.«106421_j67250597921090_2_alg».proof.Proof.Gen.Kernel
import proofs.«106421_j67250597921090_2_alg».proof.Proof.Gen.KernelIdeal
import proofs.«106421_j67250597921090_2_alg».proof.Proof.Gen.ReferenceIdeal
import proofs.«106421_j67250597921090_2_alg».proof.Proof.Gen.Pre_finite_inputs
import proofs.«106421_j67250597921090_2_alg».proof.Proof.KernelFrame
import proofs.«106421_j67250597921090_2_alg».proof.Proof.Bridge
import proofs.«106421_j67250597921090_2_alg».proof.Proof.RefTree
import proofs.«106421_j67250597921090_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The kernel's program, read at words, runs to its end and leaves its arguments unchanged. -/
theorem frame_kernel : Cert.frame_Kernel := fun m ρ _ => Cert.Kernel.Conv.frame m ρ

/-- So does it read at the extended reals. -/
theorem frame_kernelIdeal : Cert.frame_KernelIdeal := fun m ρ _ => Cert.KernelIdeal.Conv.frame m ρ

/-- The reference is a straight line of host operations: it runs to its end, and none writes an argument. -/
theorem frame_reference : Cert.frame_ReferenceIdeal := fun m ρ _ =>
  (θ_run Cert.ReferenceIdeal.defs _ _).mono (fun _ h c => (h c).2) (Cert.RefRun.ref_run (F := Ideal) m ρ)

/-- Nothing was rewritten for the idealized reading. -/
theorem preserves : Cert.preserves_Kernel_KernelIdeal := trivial

/-- From memories agreeing on the arguments, with every input finite, the two programs end with equal results:
    the reshape to [8, 27, 32, 32] of the gate tree over patches * weights. -/
theorem algebraic : Cert.algebraic_KernelIdeal_ReferenceIdeal := by
  intro m ρ m' ρ' hpre hagree
  refine ⟨_, Cert.KernelIdeal.Conv.run_conv m ρ, ?_⟩
  refine (θ_run Cert.ReferenceIdeal.defs _ _).mono (fun _ h c => ⟨(h c).1.trans ?_, (h c).2⟩)
    (Cert.RefRun.ref_run (F := Ideal) m' ρ')
  rw [(hagree c).1, (hagree c).2]
  obtain ⟨hx, hw⟩ := Cert.Finite.real_of_pre _ _ (hpre c)
  rw [Cert.Bridge.convArray_eq m c hx hw, ← Cert.RefTree.ref_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
